-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100001x133 : Shape := ⟨2, ![100001, 133]⟩
abbrev S200001x147 : Shape := ⟨2, ![200001, 147]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S100001x6 : Shape := ⟨2, ![100001, 6]⟩
abbrev S200001 : Shape := ⟨1, ![200001]⟩
abbrev S100000 : Shape := ⟨1, ![100000]⟩
abbrev S_ : Shape := ⟨0, ![]⟩

class Facts : Prop where
  bcast_S_S100001x133 : S_.BroadcastsInDim S100001x133 (![] : Fin 0 → Fin S100001x133.rank)
  reducesTo_S100001x133_S_d0_1 : S100001x133.ReducesTo [0, 1] S_
  h_S_ : 0 < S_.numel
  bcast_S_S200001x147 : S_.BroadcastsInDim S200001x147 (![] : Fin 0 → Fin S200001x147.rank)
  reducesTo_S200001x147_S_d0_1 : S200001x147.ReducesTo [0, 1] S_
  bcast_S_S147x300 : S_.BroadcastsInDim S147x300 (![] : Fin 0 → Fin S147x300.rank)
  reducesTo_S147x300_S_d0_1 : S147x300.ReducesTo [0, 1] S_
  bcast_S_S300x300 : S_.BroadcastsInDim S300x300 (![] : Fin 0 → Fin S300x300.rank)
  reducesTo_S300x300_S_d0_1 : S300x300.ReducesTo [0, 1] S_
  bcast_S_S433x300 : S_.BroadcastsInDim S433x300 (![] : Fin 0 → Fin S433x300.rank)
  reducesTo_S433x300_S_d0_1 : S433x300.ReducesTo [0, 1] S_
  bcast_S_S300 : S_.BroadcastsInDim S300 (![] : Fin 0 → Fin S300.rank)
  reducesTo_S300_S_d0 : S300.ReducesTo [0] S_
  bcast_S_S100001x6 : S_.BroadcastsInDim S100001x6 (![] : Fin 0 → Fin S100001x6.rank)
  reducesTo_S100001x6_S_d0_1 : S100001x6.ReducesTo [0, 1] S_
  bcast_S_S200001 : S_.BroadcastsInDim S200001 (![] : Fin 0 → Fin S200001.rank)
  reducesTo_S200001_S_d0 : S200001.ReducesTo [0] S_

variable [Facts]

def fn_part2 {F : FTy → Type} [FloatOps F] (main_arg8 : IVec S200001 32) (main_v28 : IVec S_ 1) (main_v33 : IVec S100001x6 1) : IVec S_ 1 :=
  let main_c_12 : IVec S_ 1 := constantI S_ 1 1#1
  let main_v34 : IVec S_ 1 := (fun x v => Host.reduce IntOp.andi x v reducesTo_S100001x6_S_d0_1 h_S_) main_v33 main_c_12
  let main_v35 : IVec S_ 1 := andi main_v28 main_v34
  let main_c_13 : IVec S_ 32 := constantI S_ 32 0#32
  let main_v36 : IVec S200001 32 := broadcastInDim S200001 ![] bcast_S_S200001 main_c_13
  let main_v37 : IVec S200001 1 := cmpi .sge main_arg8 main_v36
  let main_c_14 : IVec S_ 32 := constantI S_ 32 200001#32
  let main_v38 : IVec S200001 32 := broadcastInDim S200001 ![] bcast_S_S200001 main_c_14
  let main_v39 : IVec S200001 1 := cmpi .slt main_arg8 main_v38
  let main_v40 : IVec S200001 1 := andi main_v37 main_v39
  let main_c_15 : IVec S_ 1 := constantI S_ 1 1#1
  let main_v41 : IVec S_ 1 := (fun x v => Host.reduce IntOp.andi x v reducesTo_S200001_S_d0 h_S_) main_v40 main_c_15
  let main_v42 : IVec S_ 1 := andi main_v35 main_v41
  main_v42

def fn_part1 {F : FTy → Type} [FloatOps F] (main_arg4 : FVec F S433x300 .f32) (main_arg5 : FVec F S300 .f32) (main_arg6 : IVec S100001x6 32) (main_arg8 : IVec S200001 32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S433x300 .f32 := Host.absf main_arg4
  let main_cst_6 : FVec F S_ .f32 := constant S_ .f32 0x7F800000#32
  let main_v20 : FVec F S433x300 .f32 := broadcastInDim S433x300 ![] bcast_S_S433x300 main_cst_6
  let main_v21 : IVec S433x300 1 := cmpf .olt main_v19 main_v20
  let main_c_7 : IVec S_ 1 := constantI S_ 1 1#1
  let main_v22 : IVec S_ 1 := (fun x v => Host.reduce IntOp.andi x v reducesTo_S433x300_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_c_10 : IVec S_ 32 := constantI S_ 32 0#32
  let main_v29 : IVec S100001x6 32 := broadcastInDim S100001x6 ![] bcast_S_S100001x6 main_c_10
  let main_v30 : IVec S100001x6 1 := cmpi .sge main_arg6 main_v29
  let main_c_11 : IVec S_ 32 := constantI S_ 32 200001#32
  let main_v31 : IVec S100001x6 32 := broadcastInDim S100001x6 ![] bcast_S_S100001x6 main_c_11
  let main_v32 : IVec S100001x6 1 := cmpi .slt main_arg6 main_v31
  let main_v33 : IVec S100001x6 1 := andi main_v30 main_v32
  fn_part2 (F := F) main_arg8 main_v28 main_v33

def fn {F : FTy → Type} [FloatOps F] (main_arg0 : FVec F S100001x133 .f32) (main_arg1 : FVec F S200001x147 .f32) (main_arg2 : FVec F S147x300 .f32) (main_arg3 : FVec F S300x300 .f32) (main_arg4 : FVec F S433x300 .f32) (main_arg5 : FVec F S300 .f32) (main_arg6 : IVec S100001x6 32) (main_arg7 : IVec S200001 32) (main_arg8 : IVec S200001 32) (main_arg9 : IVec S100000 32) : IVec S_ 1 :=
  let main_v0 : FVec F S100001x133 .f32 := Host.absf main_arg0
  let main_cst : FVec F S_ .f32 := constant S_ .f32 0x7F800000#32
  let main_v1 : FVec F S100001x133 .f32 := broadcastInDim S100001x133 ![] bcast_S_S100001x133 main_cst
  let main_v2 : IVec S100001x133 1 := cmpf .olt main_v0 main_v1
  let main_c : IVec S_ 1 := constantI S_ 1 1#1
  let main_v3 : IVec S_ 1 := (fun x v => Host.reduce IntOp.andi x v reducesTo_S100001x133_S_d0_1 h_S_) main_v2 main_c
  let main_v4 : FVec F S200001x147 .f32 := Host.absf main_arg1
  let main_cst_0 : FVec F S_ .f32 := constant S_ .f32 0x7F800000#32
  let main_v5 : FVec F S200001x147 .f32 := broadcastInDim S200001x147 ![] bcast_S_S200001x147 main_cst_0
  let main_v6 : IVec S200001x147 1 := cmpf .olt main_v4 main_v5
  let main_c_1 : IVec S_ 1 := constantI S_ 1 1#1
  let main_v7 : IVec S_ 1 := (fun x v => Host.reduce IntOp.andi x v reducesTo_S200001x147_S_d0_1 h_S_) main_v6 main_c_1
  let main_v8 : IVec S_ 1 := andi main_v3 main_v7
  let main_v9 : FVec F S147x300 .f32 := Host.absf main_arg2
  let main_cst_2 : FVec F S_ .f32 := constant S_ .f32 0x7F800000#32
  let main_v10 : FVec F S147x300 .f32 := broadcastInDim S147x300 ![] bcast_S_S147x300 main_cst_2
  let main_v11 : IVec S147x300 1 := cmpf .olt main_v9 main_v10
  let main_c_3 : IVec S_ 1 := constantI S_ 1 1#1
  let main_v12 : IVec S_ 1 := (fun x v => Host.reduce IntOp.andi x v reducesTo_S147x300_S_d0_1 h_S_) main_v11 main_c_3
  let main_v13 : IVec S_ 1 := andi main_v8 main_v12
  let main_v14 : FVec F S300x300 .f32 := Host.absf main_arg3
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg4 main_arg5 main_arg6 main_arg8 main_v13 main_v16
-- ==== Kernel.lean ====
abbrev S100001x133 : Shape := ⟨2, ![100001, 133]⟩
abbrev S200001x147 : Shape := ⟨2, ![200001, 147]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S100001x6 : Shape := ⟨2, ![100001, 6]⟩
abbrev S200001 : Shape := ⟨1, ![200001]⟩
abbrev S100000 : Shape := ⟨1, ![100000]⟩
abbrev S_ : Shape := ⟨0, ![]⟩
abbrev S200704x147 : Shape := ⟨2, ![200704, 147]⟩
abbrev S200704x300 : Shape := ⟨2, ![200704, 300]⟩
abbrev S2048x147 : Shape := ⟨2, ![2048, 147]⟩
abbrev S2048x300 : Shape := ⟨2, ![2048, 300]⟩
abbrev S100001x6x1 : Shape := ⟨3, ![100001, 6, 1]⟩
abbrev S100001x6x300 : Shape := ⟨3, ![100001, 6, 300]⟩
abbrev S100001x300 : Shape := ⟨2, ![100001, 300]⟩
abbrev S200001x1 : Shape := ⟨2, ![200001, 1]⟩
abbrev S200001x300 : Shape := ⟨2, ![200001, 300]⟩
abbrev S100001x433 : Shape := ⟨2, ![100001, 433]⟩
abbrev S100352x433 : Shape := ⟨2, ![100352, 433]⟩
abbrev S1x300 : Shape := ⟨2, ![1, 300]⟩
abbrev S100352x300 : Shape := ⟨2, ![100352, 300]⟩
abbrev S2048x433 : Shape := ⟨2, ![2048, 433]⟩
abbrev S100000x300 : Shape := ⟨2, ![100000, 300]⟩
abbrev S100000x1 : Shape := ⟨2, ![100000, 1]⟩
abbrev S2048 : Shape := ⟨1, ![2048]⟩
abbrev S2048x1 : Shape := ⟨2, ![2048, 1]⟩

abbrev nBuf : Space → Nat
  | .hbm => 118
  | .vmem => 27
  | .smem => 0
  | _ => 0

abbrev bufTy : (tb : Table) → Fin (tcTables nBuf tb) → BufTy
  | .hbm, ⟨0, _⟩ => ⟨S100001x133, .f32⟩
  | .hbm, ⟨1, _⟩ => ⟨S200001x147, .f32⟩
  | .hbm, ⟨2, _⟩ => ⟨S147x300, .f32⟩
  | .hbm, ⟨3, _⟩ => ⟨S300x300, .f32⟩
  | .hbm, ⟨4, _⟩ => ⟨S433x300, .f32⟩
  | .hbm, ⟨5, _⟩ => ⟨S300, .f32⟩
  | .hbm, ⟨6, _⟩ => ⟨S100001x6, .i32⟩
  | .hbm, ⟨7, _⟩ => ⟨S200001, .i32⟩
  | .hbm, ⟨8, _⟩ => ⟨S200001, .i32⟩
  | .hbm, ⟨9, _⟩ => ⟨S100000, .i32⟩
  | .hbm, ⟨10, _⟩ => ⟨S_, .i32⟩
  | .hbm, ⟨11, _⟩ => ⟨S_, .f32⟩
  | .hbm, ⟨12, _⟩ => ⟨S200704x147, .f32⟩
  | .hbm, ⟨13, _⟩ => ⟨S200704x300, .f32⟩
  | .hbm, ⟨14, _⟩ => ⟨S200704x300, .f32⟩
  | .hbm, ⟨15, _⟩ => ⟨S_, .i32⟩
  | .hbm, ⟨16, _⟩ => ⟨S100001x6, .i32⟩
  | .hbm, ⟨17, _⟩ => ⟨S100001x6, .i1⟩
  | .hbm, ⟨18, _⟩ => ⟨S_, .i32⟩
  | .hbm, ⟨19, _⟩ => ⟨S100001x6, .i32⟩
  | .hbm, ⟨20, _⟩ => ⟨S100001x6, .i32⟩
  | .hbm, ⟨21, _⟩ => ⟨S100001x6, .i32⟩
  | .hbm, ⟨22, _⟩ => ⟨S100001x6x1, .i32⟩
  | .hbm, ⟨23, _⟩ => ⟨S100001x6x300, .f32⟩
  | .hbm, ⟨24, _⟩ => ⟨S_, .f32⟩
  | .hbm, ⟨25, _⟩ => ⟨S100001x300, .f32⟩
  | .hbm, ⟨26, _⟩ => ⟨S_, .i32⟩
  | .hbm, ⟨27, _⟩ => ⟨S200001, .i32⟩
  | .hbm, ⟨28, _⟩ => ⟨S200001, .i1⟩
  | .hbm, ⟨29, _⟩ => ⟨S_, .i32⟩
  | .hbm, ⟨30, _⟩ => ⟨S200001, .i32⟩
  | .hbm, ⟨31, _⟩ => ⟨S200001, .i32⟩
  | .hbm, ⟨32, _⟩ => ⟨S200001, .i32⟩
  | .hbm, ⟨33, _⟩ => ⟨S200001x1, .i32⟩
  | .hbm, ⟨34, _⟩ => ⟨S200001x300, .f32⟩
  | .hbm, ⟨35, _⟩ => ⟨S_, .i32⟩
  | .hbm, ⟨36, _⟩ => ⟨S200001, .i32⟩
  | .hbm, ⟨37, _⟩ => ⟨S200001, .i1⟩
  | .hbm, ⟨38, _⟩ => ⟨S_, .i32⟩
  | .hbm, ⟨39, _⟩ => ⟨S200001, .i32⟩
  | .hbm, ⟨40, _⟩ => ⟨S200001, .i32⟩
  | .hbm, ⟨41, _⟩ => ⟨S200001, .i32⟩
  | .hbm, ⟨42, _⟩ => ⟨S200001x1, .i32⟩
  | .hbm, ⟨43, _⟩ => ⟨S200001x300, .f32⟩
  | .hbm, ⟨44, _⟩ => ⟨S200001x300, .f32⟩
  | .hbm, ⟨45, _⟩ => ⟨S_, .i32⟩
  | .hbm, ⟨46, _⟩ => ⟨S_, .f32⟩
  | .hbm, ⟨47, _⟩ => ⟨S200704x300, .f32⟩
  | .hbm, ⟨48, _⟩ => ⟨S200704x300, .f32⟩
  | .hbm, ⟨49, _⟩ => ⟨S_, .i32⟩
  | .hbm, ⟨50, _⟩ => ⟨S100001x6, .i32⟩
  | .hbm, ⟨51, _⟩ => ⟨S100001x6, .i1⟩
  | .hbm, ⟨52, _⟩ => ⟨S_, .i32⟩
  | .hbm, ⟨53, _⟩ => ⟨S100001x6, .i32⟩
  | .hbm, ⟨54, _⟩ => ⟨S100001x6, .i32⟩
  | .hbm, ⟨55, _⟩ => ⟨S100001x6, .i32⟩
  | .hbm, ⟨56, _⟩ => ⟨S100001x6x1, .i32⟩
  | .hbm, ⟨57, _⟩ => ⟨S100001x6x300, .f32⟩
  | .hbm, ⟨58, _⟩ => ⟨S_, .f32⟩
  | .hbm, ⟨59, _⟩ => ⟨S100001x300, .f32⟩
  | .hbm, ⟨60, _⟩ => ⟨S_, .i32⟩
  | .hbm, ⟨61, _⟩ => ⟨S200001, .i32⟩
  | .hbm, ⟨62, _⟩ => ⟨S200001, .i1⟩
  | .hbm, ⟨63, _⟩ => ⟨S_, .i32⟩
  | .hbm, ⟨64, _⟩ => ⟨S200001, .i32⟩
  | .hbm, ⟨65, _⟩ => ⟨S200001, .i32⟩
  | .hbm, ⟨66, _⟩ => ⟨S200001, .i32⟩
  | .hbm, ⟨67, _⟩ => ⟨S200001x1, .i32⟩
  | .hbm, ⟨68, _⟩ => ⟨S200001x300, .f32⟩
  | .hbm, ⟨69, _⟩ => ⟨S_, .i32⟩
  | .hbm, ⟨70, _⟩ => ⟨S200001, .i32⟩
  | .hbm, ⟨71, _⟩ => ⟨S200001, .i1⟩
  | .hbm, ⟨72, _⟩ => ⟨S_, .i32⟩
  | .hbm, ⟨73, _⟩ => ⟨S200001, .i32⟩
  | .hbm, ⟨74, _⟩ => ⟨S200001, .i32⟩
  | .hbm, ⟨75, _⟩ => ⟨S200001, .i32⟩
  | .hbm, ⟨76, _⟩ => ⟨S200001x1, .i32⟩
  | .hbm, ⟨77, _⟩ => ⟨S200001x300, .f32⟩
  | .hbm, ⟨78, _⟩ => ⟨S200001x300, .f32⟩
  | .hbm, ⟨79, _⟩ => ⟨S_, .i32⟩
  | .hbm, ⟨80, _⟩ => ⟨S_, .f32⟩
  | .hbm, ⟨81, _⟩ => ⟨S200704x300, .f32⟩
  | .hbm, ⟨82, _⟩ => ⟨S200704x300, .f32⟩
  | .hbm, ⟨83, _⟩ => ⟨S_, .i32⟩
  | .hbm, ⟨84, _⟩ => ⟨S100001x6, .i32⟩
  | .hbm, ⟨85, _⟩ => ⟨S100001x6, .i1⟩
  | .hbm, ⟨86, _⟩ => ⟨S_, .i32⟩
  | .hbm, ⟨87, _⟩ => ⟨S100001x6, .i32⟩
  | .hbm, ⟨88, _⟩ => ⟨S100001x6, .i32⟩
  | .hbm, ⟨89, _⟩ => ⟨S100001x6, .i32⟩
  | .hbm, ⟨90, _⟩ => ⟨S100001x6x1, .i32⟩
  | .hbm, ⟨91, _⟩ => ⟨S100001x6x300, .f32⟩
  | .hbm, ⟨92, _⟩ => ⟨S_, .f32⟩
  | .hbm, ⟨93, _⟩ => ⟨S100001x300, .f32⟩
  | .hbm, ⟨94, _⟩ => ⟨S100001x433, .f32⟩
  | .hbm, ⟨95, _⟩ => ⟨S_, .i32⟩
  | .hbm, ⟨96, _⟩ => ⟨S_, .f32⟩
  | .hbm, ⟨97, _⟩ => ⟨S100352x433, .f32⟩
  | .hbm, ⟨98, _⟩ => ⟨S1x300, .f32⟩
  | .hbm, ⟨99, _⟩ => ⟨S100352x300, .f32⟩
  | .hbm, ⟨100, _⟩ => ⟨S100001x300, .f32⟩
  | .hbm, ⟨101, _⟩ => ⟨S100000x300, .f32⟩
  | .hbm, ⟨102, _⟩ => ⟨S_, .f32⟩
  | .hbm, ⟨103, _⟩ => ⟨S2048x300, .f32⟩
  | .hbm, ⟨104, _⟩ => ⟨S100000x1, .i32⟩
  | .hbm, ⟨105, _⟩ => ⟨S2048x300, .f32⟩
  | .hbm, ⟨106, _⟩ => ⟨S_, .f32⟩
  | .hbm, ⟨107, _⟩ => ⟨S100000, .f32⟩
  | .hbm, ⟨108, _⟩ => ⟨S_, .f32⟩
  | .hbm, ⟨109, _⟩ => ⟨S2048, .f32⟩
  | .hbm, ⟨110, _⟩ => ⟨S100000x1, .i32⟩
  | .hbm, ⟨111, _⟩ => ⟨S2048, .f32⟩
  | .hbm, ⟨112, _⟩ => ⟨S_, .f32⟩
  | .hbm, ⟨113, _⟩ => ⟨S2048, .f32⟩
  | .hbm, ⟨114, _⟩ => ⟨S2048, .f32⟩
  | .hbm, ⟨115, _⟩ => ⟨S2048x1, .f32⟩
  | .hbm, ⟨116, _⟩ => ⟨S2048x300, .f32⟩
  | .hbm, ⟨117, _⟩ => ⟨S2048x300, .f32⟩
  | .local _ .vmem, ⟨0, _⟩ => ⟨S2048x147, .f32⟩
  | .local _ .vmem, ⟨1, _⟩ => ⟨S2048x147, .f32⟩
  | .local _ .vmem, ⟨2, _⟩ => ⟨S147x300, .f32⟩
  | .local _ .vmem, ⟨3, _⟩ => ⟨S2048x300, .f32⟩
  | .local _ .vmem, ⟨4, _⟩ => ⟨S2048x300, .f32⟩
  | .local _ .vmem, ⟨5, _⟩ => ⟨S2048x300, .f32⟩
  | .local _ .vmem, ⟨6, _⟩ => ⟨S2048x300, .f32⟩
  | .local _ .vmem, ⟨7, _⟩ => ⟨S2048x300, .f32⟩
  | .local _ .vmem, ⟨8, _⟩ => ⟨S2048x300, .f32⟩
  | .local _ .vmem, ⟨9, _⟩ => ⟨S300x300, .f32⟩
  | .local _ .vmem, ⟨10, _⟩ => ⟨S2048x300, .f32⟩
  | .local _ .vmem, ⟨11, _⟩ => ⟨S2048x300, .f32⟩
  | .local _ .vmem, ⟨12, _⟩ => ⟨S2048x300, .f32⟩
  | .local _ .vmem, ⟨13, _⟩ => ⟨S2048x300, .f32⟩
  | .local _ .vmem, ⟨14, _⟩ => ⟨S2048x300, .f32⟩
  | .local _ .vmem, ⟨15, _⟩ => ⟨S2048x300, .f32⟩
  | .local _ .vmem, ⟨16, _⟩ => ⟨S300x300, .f32⟩
  | .local _ .vmem, ⟨17, _⟩ => ⟨S2048x300, .f32⟩
  | .local _ .vmem, ⟨18, _⟩ => ⟨S2048x300, .f32⟩
  | .local _ .vmem, ⟨19, _⟩ => ⟨S2048x300, .f32⟩
  | .local _ .vmem, ⟨20, _⟩ => ⟨S2048x300, .f32⟩
  | .local _ .vmem, ⟨21, _⟩ => ⟨S2048x433, .f32⟩
  | .local _ .vmem, ⟨22, _⟩ => ⟨S2048x433, .f32⟩
  | .local _ .vmem, ⟨23, _⟩ => ⟨S433x300, .f32⟩
  | .local _ .vmem, ⟨24, _⟩ => ⟨S1x300, .f32⟩
  | .local _ .vmem, ⟨25, _⟩ => ⟨S2048x300, .f32⟩
  | .local _ .vmem, ⟨26, _⟩ => ⟨S2048x300, .f32⟩
  | _, _ => ⟨S100001x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_c_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_call1_v0 : Ref sig .tc := ⟨.hbm, 46, rfl⟩
abbrev main_v25 : Ref sig .tc := ⟨.hbm, 47, rfl⟩
abbrev main_v26 : Ref sig .tc := ⟨.hbm, 48, rfl⟩
abbrev main_c_7 : Ref sig .tc := ⟨.hbm, 49, rfl⟩
abbrev main_v27 : Ref sig .tc := ⟨.hbm, 50, rfl⟩
abbrev main_v28 : Ref sig .tc := ⟨.hbm, 51, rfl⟩
abbrev main_c_8 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_9 : Ref sig .tc := ⟨.hbm, 58, rfl⟩
abbrev main_v34 : Ref sig .tc := ⟨.hbm, 59, rfl⟩
abbrev main_c_10 : Ref sig .tc := ⟨.hbm, 60, rfl⟩
abbrev main_v35 : Ref sig .tc := ⟨.hbm, 61, rfl⟩
abbrev main_v36 : Ref sig .tc := ⟨.hbm, 62, rfl⟩
abbrev main_c_11 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_12 : Ref sig .tc := ⟨.hbm, 69, rfl⟩
abbrev main_v42 : Ref sig .tc := ⟨.hbm, 70, rfl⟩
abbrev main_v43 : Ref sig .tc := ⟨.hbm, 71, rfl⟩
abbrev main_c_13 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_14 : Ref sig .tc := ⟨.hbm, 79, rfl⟩
abbrev main_call2_v0 : Ref sig .tc := ⟨.hbm, 80, rfl⟩
abbrev main_v50 : Ref sig .tc := ⟨.hbm, 81, rfl⟩
abbrev main_v51 : Ref sig .tc := ⟨.hbm, 82, rfl⟩
abbrev main_c_15 : Ref sig .tc := ⟨.hbm, 83, rfl⟩
abbrev main_v52 : Ref sig .tc := ⟨.hbm, 84, rfl⟩
abbrev main_v53 : Ref sig .tc := ⟨.hbm, 85, rfl⟩
abbrev main_c_16 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_17 : Ref sig .tc := ⟨.hbm, 92, rfl⟩
abbrev main_v59 : Ref sig .tc := ⟨.hbm, 93, rfl⟩
abbrev main_v60 : Ref sig .tc := ⟨.hbm, 94, rfl⟩
abbrev main_c_18 : Ref sig .tc := ⟨.hbm, 95, rfl⟩
abbrev main_call3_v0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_19 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_20 : Ref sig .tc := ⟨.hbm, 106, rfl⟩
abbrev main_v69 : Ref sig .tc := ⟨.hbm, 107, rfl⟩
abbrev main_cst_21 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_22 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S300x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x300 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x300 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![98], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S300x300 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x300 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x300 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x433 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S433x300 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2048x300 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  pads_S200001x147_S200704x147_07030_000 : S200001x147.Pads (![0, 0] : Fin 2 → Nat) ![703, 0] ![0, 0] S200704x147
  h_S_ : 0 < S_.numel
  inb_S2048x147_S2048x147_0_0 : ∀ a, (![0, 0] : Fin 2 → Nat) a + S2048x147.size a ≤ S2048x147.size a
  h_S2048x147 : 0 < S2048x147.numel
  shapeCasts_S2048x147_S2048x147 : S2048x147.ShapeCasts S2048x147
  bitsLt_bf16_f32 : FTy.bits .bf16 < FTy.bits .f32
  inb_S147x300_S147x300_0_0 : ∀ a, (![0, 0] : Fin 2 → Nat) a + S147x300.size a ≤ S147x300.size a
  h_S147x300 : 0 < S147x300.numel
  inb_S2048x300_S2048x300_0_0 : ∀ a, (![0, 0] : Fin 2 → Nat) a + S2048x300.size a ≤ S2048x300.size a
  h_S2048x300 : 0 < S2048x300.numel
  bcast_S_S100001x6 : S_.BroadcastsInDim S100001x6 (![] : Fin 0 → Fin S100001x6.rank)
  bcast_S100001x6_S100001x6x1_0_1 : S100001x6.BroadcastsInDim S100001x6x1 (![0, 1] : Fin 2 → Fin S100001x6x1.rank)
  reducesTo_S100001x6x300_S100001x300_d1 : S100001x6x300.ReducesTo [1] S100001x300
  bcast_S_S200001 : S_.BroadcastsInDim S200001 (![] : Fin 0 → Fin S200001.rank)
  bcast_S200001_S200001x1_0 : S200001.BroadcastsInDim S200001x1 (![0] : Fin 1 → Fin S200001x1.rank)
  pads_S200001x300_S200704x300_07030_000 : S200001x300.Pads (![0, 0] : Fin 2 → Nat) ![703, 0] ![0, 0] S200704x300
  shapeCasts_S2048x300_S2048x300 : S2048x300.ShapeCasts S2048x300
  inb_S300x300_S300x300_0_0 : ∀ a, (![0, 0] : Fin 2 → Nat) a + S300x300.size a ≤ S300x300.size a
  h_S300x300 : 0 < S300x300.numel
  concatenates_S100001x133_S100001x300_S100001x433_d1 : Shape.Concatenates [S100001x133, S100001x300] S100001x433 1
  pads_S100001x433_S100352x433_03510_000 : S100001x433.Pads (![0, 0] : Fin 2 → Nat) ![351, 0] ![0, 0] S100352x433
  shapeCasts_S300_S1x300 : S300.ShapeCasts S1x300
  inb_S2048x433_S2048x433_0_0 : ∀ a, (![0, 0] : Fin 2 → Nat) a + S2048x433.size a ≤ S2048x433.size a
  h_S2048x433 : 0 < S2048x433.numel
  shapeCasts_S2048x433_S2048x433 : S2048x433.ShapeCasts S2048x433
  inb_S433x300_S433x300_0_0 : ∀ a, (![0, 0] : Fin 2 → Nat) a + S433x300.size a ≤ S433x300.size a
  h_S433x300 : 0 < S433x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2048x300 : S1x300.Broadcasts S2048x300
  slices_S100352x300_S100001x300_0_0 : S100352x300.Slices ![0, 0] S100001x300
  slices_S100001x300_S100000x300_1_0 : S100001x300.Slices ![1, 0] S100000x300
  bcast_S_S2048x300 : S_.BroadcastsInDim S2048x300 (![] : Fin 0 → Fin S2048x300.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x300_0_1 : S2048x1.BroadcastsInDim S2048x300 (![0, 1] : Fin 2 → Fin S2048x300.rank)
  dot_S2048x147_S147x300_S2048x300_1_0_0_1_n_n_wf : DotDims.WF S2048x147 S147x300 S2048x300 [1] [0] [0] [1] [] []
  gather_S200704x300_S100001x6x1_S100001x6x300_2_0_n_n_0_2_1300_wf : GatherDims.WF S200704x300 S100001x6x1 S100001x6x300 [2] [0] [] [0] [] 2 ![1, 300]
  gather_S100001x300_S200001x1_S200001x300_1_0_n_n_0_1_1300_wf : GatherDims.WF S100001x300 S200001x1 S200001x300 [1] [0] [] [0] [] 1 ![1, 300]
  gather_S200704x300_S200001x1_S200001x300_1_0_n_n_0_1_1300_wf : GatherDims.WF S200704x300 S200001x1 S200001x300 [1] [0] [] [0] [] 1 ![1, 300]
  dot_S2048x300_S300x300_S2048x300_1_0_0_1_n_n_wf : DotDims.WF S2048x300 S300x300 S2048x300 [1] [0] [0] [1] [] []
  dot_S2048x433_S433x300_S2048x300_1_0_0_1_n_n_wf : DotDims.WF S2048x433 S433x300 S2048x300 [1] [0] [0] [1] [] []
  scatter_S2048x300_S100000x1_S100000x300_1_0_0_1_wf : ScatterDims.WF S2048x300 S100000x1 S100000x300 [1] [0] [0] 1
  scatter_S2048_S100000x1_S100000_n_0_0_1_wf : ScatterDims.WF S2048 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x147.size a ≤ S200704x147.size a
  hwx0_0 : ∀ i : grid0.Coords, EltTy.bits .f32 = 32 ∨ (Rect.block (s := S200704x147) S2048x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x300.size a ≤ S147x300.size a
  hwx0_1 : ∀ i : grid0.Coords, EltTy.bits .f32 = 32 ∨ (Rect.block (s := S147x300) S147x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x300.size a ≤ S200704x300.size a
  hwx0_2 : ∀ i : grid0.Coords, EltTy.bits .f32 = 32 ∨ (Rect.block (s := S200704x300) S2048x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x300.size a ≤ S200704x300.size a
  hwx0_3 : ∀ i : grid0.Coords, EltTy.bits .f32 = 32 ∨ (Rect.block (s := S200704x300) S2048x300.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x300.size a ≤ S200704x300.size a
  hwx1_0 : ∀ i : grid1.Coords, EltTy.bits .f32 = 32 ∨ (Rect.block (s := S200704x300) S2048x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x300.size a ≤ S300x300.size a
  hwx1_1 : ∀ i : grid1.Coords, EltTy.bits .f32 = 32 ∨ (Rect.block (s := S300x300) S300x300.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x300.size a ≤ S200704x300.size a
  hwx1_2 : ∀ i : grid1.Coords, EltTy.bits .f32 = 32 ∨ (Rect.block (s := S200704x300) S2048x300.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x300.size a ≤ S200704x300.size a
  hwx1_3 : ∀ i : grid1.Coords, EltTy.bits .f32 = 32 ∨ (Rect.block (s := S200704x300) S2048x300.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x300.size a ≤ S200704x300.size a
  hwx2_0 : ∀ i : grid2.Coords, EltTy.bits .f32 = 32 ∨ (Rect.block (s := S200704x300) S2048x300.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S300x300.size a ≤ S300x300.size a
  hwx2_1 : ∀ i : grid2.Coords, EltTy.bits .f32 = 32 ∨ (Rect.block (s := S300x300) S300x300.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x300.size a ≤ S200704x300.size a
  hwx2_2 : ∀ i : grid2.Coords, EltTy.bits .f32 = 32 ∨ (Rect.block (s := S200704x300) S2048x300.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x300.size a ≤ S200704x300.size a
  hwx2_3 : ∀ i : grid2.Coords, EltTy.bits .f32 = 32 ∨ (Rect.block (s := S200704x300) S2048x300.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x433.size a ≤ S100352x433.size a
  hwx3_0 : ∀ i : grid3.Coords, EltTy.bits .f32 = 32 ∨ (Rect.block (s := S100352x433) S2048x433.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S433x300.size a ≤ S433x300.size a
  hwx3_1 : ∀ i : grid3.Coords, EltTy.bits .f32 = 32 ∨ (Rect.block (s := S433x300) S433x300.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x300.size a ≤ S1x300.size a
  hwx3_2 : ∀ i : grid3.Coords, EltTy.bits .f32 = 32 ∨ (Rect.block (s := S1x300) S1x300.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x300.size a ≤ S100352x300.size a
  hwx3_3 : ∀ i : grid3.Coords, EltTy.bits .f32 = 32 ∨ (Rect.block (s := S100352x300) S2048x300.size (cc3_transform_3 i) (hinb3_3 i)).WholeWords (EltTy.packing .f32)

variable [Facts₀]

def dot_S2048x147_S147x300_S2048x300_1_0_0_1_n_n : DotDims S2048x147 S147x300 S2048x300 where
  lhsContracting := [1]
  rhsContracting := [0]
  lhsNonContracting := [0]
  rhsNonContracting := [1]
  lhsBatch := []
  rhsBatch := []
  wf := dot_S2048x147_S147x300_S2048x300_1_0_0_1_n_n_wf
def gather_S200704x300_S100001x6x1_S100001x6x300_2_0_n_n_0_2_1300 : GatherDims S200704x300 S100001x6x1 S100001x6x300 where
  offsetDims := [2]
  collapsedSliceDims := [0]
  operandBatchingDims := []
  startIndicesBatchingDims := []
  startIndexMap := [0]
  indexVectorDim := 2
  sliceSizes := ![1, 300]
  wf := gather_S200704x300_S100001x6x1_S100001x6x300_2_0_n_n_0_2_1300_wf
def gather_S100001x300_S200001x1_S200001x300_1_0_n_n_0_1_1300 : GatherDims S100001x300 S200001x1 S200001x300 where
  offsetDims := [1]
  collapsedSliceDims := [0]
  operandBatchingDims := []
  startIndicesBatchingDims := []
  startIndexMap := [0]
  indexVectorDim := 1
  sliceSizes := ![1, 300]
  wf := gather_S100001x300_S200001x1_S200001x300_1_0_n_n_0_1_1300_wf
def gather_S200704x300_S200001x1_S200001x300_1_0_n_n_0_1_1300 : GatherDims S200704x300 S200001x1 S200001x300 where
  offsetDims := [1]
  collapsedSliceDims := [0]
  operandBatchingDims := []
  startIndicesBatchingDims := []
  startIndexMap := [0]
  indexVectorDim := 1
  sliceSizes := ![1, 300]
  wf := gather_S200704x300_S200001x1_S200001x300_1_0_n_n_0_1_1300_wf
def dot_S2048x300_S300x300_S2048x300_1_0_0_1_n_n : DotDims S2048x300 S300x300 S2048x300 where
  lhsContracting := [1]
  rhsContracting := [0]
  lhsNonContracting := [0]
  rhsNonContracting := [1]
  lhsBatch := []
  rhsBatch := []
  wf := dot_S2048x300_S300x300_S2048x300_1_0_0_1_n_n_wf
def dot_S2048x433_S433x300_S2048x300_1_0_0_1_n_n : DotDims S2048x433 S433x300 S2048x300 where
  lhsContracting := [1]
  rhsContracting := [0]
  lhsNonContracting := [0]
  rhsNonContracting := [1]
  lhsBatch := []
  rhsBatch := []
  wf := dot_S2048x433_S433x300_S2048x300_1_0_0_1_n_n_wf
def scatter_S2048x300_S100000x1_S100000x300_1_0_0_1 : ScatterDims S2048x300 S100000x1 S100000x300 where
  updateWindowDims := [1]
  insertedWindowDims := [0]
  scatterDimsToOperandDims := [0]
  indexVectorDim := 1
  wf := scatter_S2048x300_S100000x1_S100000x300_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf

abbrev win0_0 : Pipeline.Window sig grid0 :=
  Pipeline.Window.ofSpec (Memref.whole main_v0) S2048x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S147x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2048x300.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S2048x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2048x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S300x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S2048x300.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S2048x300.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S2048x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S300x300.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1_0) S2048x300.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51) S2048x300.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v61) S2048x433.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S433x300.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S2048x300.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100001x133 : Shape := ⟨2, ![100001, 133]⟩
abbrev S200001x147 : Shape := ⟨2, ![200001, 147]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S100001x6 : Shape := ⟨2, ![100001, 6]⟩
abbrev S200001 : Shape := ⟨1, ![200001]⟩
abbrev S100000 : Shape := ⟨1, ![100000]⟩
abbrev S200001x300 : Shape := ⟨2, ![200001, 300]⟩
abbrev S_ : Shape := ⟨0, ![]⟩
abbrev S100001x6x1 : Shape := ⟨3, ![100001, 6, 1]⟩
abbrev S100001x6x300 : Shape := ⟨3, ![100001, 6, 300]⟩
abbrev S100001x300 : Shape := ⟨2, ![100001, 300]⟩
abbrev S200001x1 : Shape := ⟨2, ![200001, 1]⟩
abbrev S100001x433 : Shape := ⟨2, ![100001, 433]⟩
abbrev S1x300 : Shape := ⟨2, ![1, 300]⟩
abbrev S100000x300 : Shape := ⟨2, ![100000, 300]⟩
abbrev S2048x300 : Shape := ⟨2, ![2048, 300]⟩
abbrev S100000x1 : Shape := ⟨2, ![100000, 1]⟩
abbrev S2048 : Shape := ⟨1, ![2048]⟩
abbrev S2048x1 : Shape := ⟨2, ![2048, 1]⟩

abbrev nBuf : Space → Nat
  | .hbm => 120
  | .vmem => 0
  | .smem => 0
  | _ => 0

abbrev bufTy : (tb : Table) → Fin (tcTables nBuf tb) → BufTy
  | .hbm, ⟨0, _⟩ => ⟨S100001x133, .f32⟩
  | .hbm, ⟨1, _⟩ => ⟨S200001x147, .f32⟩
  | .hbm, ⟨2, _⟩ => ⟨S147x300, .f32⟩
  | .hbm, ⟨3, _⟩ => ⟨S300x300, .f32⟩
  | .hbm, ⟨4, _⟩ => ⟨S433x300, .f32⟩
  | .hbm, ⟨5, _⟩ => ⟨S300, .f32⟩
  | .hbm, ⟨6, _⟩ => ⟨S100001x6, .i32⟩
  | .hbm, ⟨7, _⟩ => ⟨S200001, .i32⟩
  | .hbm, ⟨8, _⟩ => ⟨S200001, .i32⟩
  | .hbm, ⟨9, _⟩ => ⟨S100000, .i32⟩
  | .hbm, ⟨10, _⟩ => ⟨S200001x300, .f32⟩
  | .hbm, ⟨11, _⟩ => ⟨S_, .f32⟩
  | .hbm, ⟨12, _⟩ => ⟨S200001x300, .f32⟩
  | .hbm, ⟨13, _⟩ => ⟨S200001x300, .f32⟩
  | .hbm, ⟨14, _⟩ => ⟨S_, .i32⟩
  | .hbm, ⟨15, _⟩ => ⟨S100001x6, .i32⟩
  | .hbm, ⟨16, _⟩ => ⟨S100001x6, .i1⟩
  | .hbm, ⟨17, _⟩ => ⟨S_, .i32⟩
  | .hbm, ⟨18, _⟩ => ⟨S100001x6, .i32⟩
  | .hbm, ⟨19, _⟩ => ⟨S100001x6, .i32⟩
  | .hbm, ⟨20, _⟩ => ⟨S100001x6, .i32⟩
  | .hbm, ⟨21, _⟩ => ⟨S100001x6x1, .i32⟩
  | .hbm, ⟨22, _⟩ => ⟨S100001x6x300, .f32⟩
  | .hbm, ⟨23, _⟩ => ⟨S_, .f32⟩
  | .hbm, ⟨24, _⟩ => ⟨S100001x300, .f32⟩
  | .hbm, ⟨25, _⟩ => ⟨S_, .i32⟩
  | .hbm, ⟨26, _⟩ => ⟨S200001, .i32⟩
  | .hbm, ⟨27, _⟩ => ⟨S200001, .i1⟩
  | .hbm, ⟨28, _⟩ => ⟨S_, .i32⟩
  | .hbm, ⟨29, _⟩ => ⟨S200001, .i32⟩
  | .hbm, ⟨30, _⟩ => ⟨S200001, .i32⟩
  | .hbm, ⟨31, _⟩ => ⟨S200001, .i32⟩
  | .hbm, ⟨32, _⟩ => ⟨S200001x1, .i32⟩
  | .hbm, ⟨33, _⟩ => ⟨S200001x300, .f32⟩
  | .hbm, ⟨34, _⟩ => ⟨S_, .i32⟩
  | .hbm, ⟨35, _⟩ => ⟨S200001, .i32⟩
  | .hbm, ⟨36, _⟩ => ⟨S200001, .i1⟩
  | .hbm, ⟨37, _⟩ => ⟨S_, .i32⟩
  | .hbm, ⟨38, _⟩ => ⟨S200001, .i32⟩
  | .hbm, ⟨39, _⟩ => ⟨S200001, .i32⟩
  | .hbm, ⟨40, _⟩ => ⟨S200001, .i32⟩
  | .hbm, ⟨41, _⟩ => ⟨S200001x1, .i32⟩
  | .hbm, ⟨42, _⟩ => ⟨S200001x300, .f32⟩
  | .hbm, ⟨43, _⟩ => ⟨S200001x300, .f32⟩
  | .hbm, ⟨44, _⟩ => ⟨S200001x300, .f32⟩
  | .hbm, ⟨45, _⟩ => ⟨S200001x300, .f32⟩
  | .hbm, ⟨46, _⟩ => ⟨S_, .f32⟩
  | .hbm, ⟨47, _⟩ => ⟨S200001x300, .f32⟩
  | .hbm, ⟨48, _⟩ => ⟨S200001x300, .f32⟩
  | .hbm, ⟨49, _⟩ => ⟨S_, .i32⟩
  | .hbm, ⟨50, _⟩ => ⟨S100001x6, .i32⟩
  | .hbm, ⟨51, _⟩ => ⟨S100001x6, .i1⟩
  | .hbm, ⟨52, _⟩ => ⟨S_, .i32⟩
  | .hbm, ⟨53, _⟩ => ⟨S100001x6, .i32⟩
  | .hbm, ⟨54, _⟩ => ⟨S100001x6, .i32⟩
  | .hbm, ⟨55, _⟩ => ⟨S100001x6, .i32⟩
  | .hbm, ⟨56, _⟩ => ⟨S100001x6x1, .i32⟩
  | .hbm, ⟨57, _⟩ => ⟨S100001x6x300, .f32⟩
  | .hbm, ⟨58, _⟩ => ⟨S_, .f32⟩
  | .hbm, ⟨59, _⟩ => ⟨S100001x300, .f32⟩
  | .hbm, ⟨60, _⟩ => ⟨S_, .i32⟩
  | .hbm, ⟨61, _⟩ => ⟨S200001, .i32⟩
  | .hbm, ⟨62, _⟩ => ⟨S200001, .i1⟩
  | .hbm, ⟨63, _⟩ => ⟨S_, .i32⟩
  | .hbm, ⟨64, _⟩ => ⟨S200001, .i32⟩
  | .hbm, ⟨65, _⟩ => ⟨S200001, .i32⟩
  | .hbm, ⟨66, _⟩ => ⟨S200001, .i32⟩
  | .hbm, ⟨67, _⟩ => ⟨S200001x1, .i32⟩
  | .hbm, ⟨68, _⟩ => ⟨S200001x300, .f32⟩
  | .hbm, ⟨69, _⟩ => ⟨S_, .i32⟩
  | .hbm, ⟨70, _⟩ => ⟨S200001, .i32⟩
  | .hbm, ⟨71, _⟩ => ⟨S200001, .i1⟩
  | .hbm, ⟨72, _⟩ => ⟨S_, .i32⟩
  | .hbm, ⟨73, _⟩ => ⟨S200001, .i32⟩
  | .hbm, ⟨74, _⟩ => ⟨S200001, .i32⟩
  | .hbm, ⟨75, _⟩ => ⟨S200001, .i32⟩
  | .hbm, ⟨76, _⟩ => ⟨S200001x1, .i32⟩
  | .hbm, ⟨77, _⟩ => ⟨S200001x300, .f32⟩
  | .hbm, ⟨78, _⟩ => ⟨S200001x300, .f32⟩
  | .hbm, ⟨79, _⟩ => ⟨S200001x300, .f32⟩
  | .hbm, ⟨80, _⟩ => ⟨S200001x300, .f32⟩
  | .hbm, ⟨81, _⟩ => ⟨S_, .f32⟩
  | .hbm, ⟨82, _⟩ => ⟨S200001x300, .f32⟩
  | .hbm, ⟨83, _⟩ => ⟨S200001x300, .f32⟩
  | .hbm, ⟨84, _⟩ => ⟨S_, .i32⟩
  | .hbm, ⟨85, _⟩ => ⟨S100001x6, .i32⟩
  | .hbm, ⟨86, _⟩ => ⟨S100001x6, .i1⟩
  | .hbm, ⟨87, _⟩ => ⟨S_, .i32⟩
  | .hbm, ⟨88, _⟩ => ⟨S100001x6, .i32⟩
  | .hbm, ⟨89, _⟩ => ⟨S100001x6, .i32⟩
  | .hbm, ⟨90, _⟩ => ⟨S100001x6, .i32⟩
  | .hbm, ⟨91, _⟩ => ⟨S100001x6x1, .i32⟩
  | .hbm, ⟨92, _⟩ => ⟨S100001x6x300, .f32⟩
  | .hbm, ⟨93, _⟩ => ⟨S_, .f32⟩
  | .hbm, ⟨94, _⟩ => ⟨S100001x300, .f32⟩
  | .hbm, ⟨95, _⟩ => ⟨S100001x433, .f32⟩
  | .hbm, ⟨96, _⟩ => ⟨S100001x300, .f32⟩
  | .hbm, ⟨97, _⟩ => ⟨S1x300, .f32⟩
  | .hbm, ⟨98, _⟩ => ⟨S100001x300, .f32⟩
  | .hbm, ⟨99, _⟩ => ⟨S100001x300, .f32⟩
  | .hbm, ⟨100, _⟩ => ⟨S_, .f32⟩
  | .hbm, ⟨101, _⟩ => ⟨S100001x300, .f32⟩
  | .hbm, ⟨102, _⟩ => ⟨S100001x300, .f32⟩
  | .hbm, ⟨103, _⟩ => ⟨S100000x300, .f32⟩
  | .hbm, ⟨104, _⟩ => ⟨S_, .f32⟩
  | .hbm, ⟨105, _⟩ => ⟨S2048x300, .f32⟩
  | .hbm, ⟨106, _⟩ => ⟨S100000x1, .i32⟩
  | .hbm, ⟨107, _⟩ => ⟨S2048x300, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S2048, .f32⟩
  | .hbm, ⟨112, _⟩ => ⟨S100000x1, .i32⟩
  | .hbm, ⟨113, _⟩ => ⟨S2048, .f32⟩
  | .hbm, ⟨114, _⟩ => ⟨S_, .f32⟩
  | .hbm, ⟨115, _⟩ => ⟨S2048, .f32⟩
  | .hbm, ⟨116, _⟩ => ⟨S2048, .f32⟩
  | .hbm, ⟨117, _⟩ => ⟨S2048x1, .f32⟩
  | .hbm, ⟨118, _⟩ => ⟨S2048x300, .f32⟩
  | .hbm, ⟨119, _⟩ => ⟨S2048x300, .f32⟩
  | _, _ => ⟨S100001x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_cst : Ref sig .tc := ⟨.hbm, 46, rfl⟩
abbrev main_call1_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call2_cst : Ref sig .tc := ⟨.hbm, 81, rfl⟩
abbrev main_call2_v0 : Ref sig .tc := ⟨.hbm, 82, rfl⟩
abbrev main_v53 : Ref sig .tc := ⟨.hbm, 83, rfl⟩
abbrev main_c_12 : Ref sig .tc := ⟨.hbm, 84, rfl⟩
abbrev main_v54 : Ref sig .tc := ⟨.hbm, 85, rfl⟩
abbrev main_v55 : Ref sig .tc := ⟨.hbm, 86, rfl⟩
abbrev main_c_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call3_cst : Ref sig .tc := ⟨.hbm, 100, rfl⟩
abbrev main_call3_v0 : Ref sig .tc := ⟨.hbm, 101, rfl⟩
abbrev main_v67 : Ref sig .tc := ⟨.hbm, 102, rfl⟩
abbrev main_v68 : Ref sig .tc := ⟨.hbm, 103, rfl⟩
abbrev main_cst_15 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_16 : Ref sig .tc := ⟨.hbm, 108, rfl⟩
abbrev main_v72 : Ref sig .tc := ⟨.hbm, 109, rfl⟩
abbrev main_cst_17 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_18 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩

abbrev nD : Nat := 1
abbrev τ : Topo := Topo.v7x

variable {F : FTy → Type} [FloatOps F]

class Facts₀ : Prop where
  bcast_S_S200001x300 : S_.BroadcastsInDim S200001x300 (![] : Fin 0 → Fin S200001x300.rank)
  bcast_S_S100001x6 : S_.BroadcastsInDim S100001x6 (![] : Fin 0 → Fin S100001x6.rank)
  bcast_S100001x6_S100001x6x1_0_1 : S100001x6.BroadcastsInDim S100001x6x1 (![0, 1] : Fin 2 → Fin S100001x6x1.rank)
  reducesTo_S100001x6x300_S100001x300_d1 : S100001x6x300.ReducesTo [1] S100001x300
  h_S_ : 0 < S_.numel
  bcast_S_S200001 : S_.BroadcastsInDim S200001 (![] : Fin 0 → Fin S200001.rank)
  bcast_S200001_S200001x1_0 : S200001.BroadcastsInDim S200001x1 (![0] : Fin 1 → Fin S200001x1.rank)
  concatenates_S100001x133_S100001x300_S100001x433_d1 : Shape.Concatenates [S100001x133, S100001x300] S100001x433 1
  bcast_S300_S1x300_1 : S300.BroadcastsInDim S1x300 (![1] : Fin 1 → Fin S1x300.rank)
  bcast_S1x300_S100001x300_0_1 : S1x300.BroadcastsInDim S100001x300 (![0, 1] : Fin 2 → Fin S100001x300.rank)
  bcast_S_S100001x300 : S_.BroadcastsInDim S100001x300 (![] : Fin 0 → Fin S100001x300.rank)
  slices_S100001x300_S100000x300_1_0 : S100001x300.Slices ![1, 0] S100000x300
  bcast_S_S2048x300 : S_.BroadcastsInDim S2048x300 (![] : Fin 0 → Fin S2048x300.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x300_0_1 : S2048x1.BroadcastsInDim S2048x300 (![0, 1] : Fin 2 → Fin S2048x300.rank)
  dot_S200001x147_S147x300_S200001x300_1_0_0_1_n_n_wf : DotDims.WF S200001x147 S147x300 S200001x300 [1] [0] [0] [1] [] []
  gather_S200001x300_S100001x6x1_S100001x6x300_2_0_n_n_0_2_1300_wf : GatherDims.WF S200001x300 S100001x6x1 S100001x6x300 [2] [0] [] [0] [] 2 ![1, 300]
  gather_S100001x300_S200001x1_S200001x300_1_0_n_n_0_1_1300_wf : GatherDims.WF S100001x300 S200001x1 S200001x300 [1] [0] [] [0] [] 1 ![1, 300]
  gather_S200001x300_S200001x1_S200001x300_1_0_n_n_0_1_1300_wf : GatherDims.WF S200001x300 S200001x1 S200001x300 [1] [0] [] [0] [] 1 ![1, 300]
  dot_S200001x300_S300x300_S200001x300_1_0_0_1_n_n_wf : DotDims.WF S200001x300 S300x300 S200001x300 [1] [0] [0] [1] [] []
  dot_S100001x433_S433x300_S100001x300_1_0_0_1_n_n_wf : DotDims.WF S100001x433 S433x300 S100001x300 [1] [0] [0] [1] [] []
  scatter_S2048x300_S100000x1_S100000x300_1_0_0_1_wf : ScatterDims.WF S2048x300 S100000x1 S100000x300 [1] [0] [0] 1
  scatter_S2048_S100000x1_S100000_n_0_0_1_wf : ScatterDims.WF S2048 S100000x1 S100000 [] [0] [0] 1

variable [Facts₀]

def dot_S200001x147_S147x300_S200001x300_1_0_0_1_n_n : DotDims S200001x147 S147x300 S200001x300 where
  lhsContracting := [1]
  rhsContracting := [0]
  lhsNonContracting := [0]
  rhsNonContracting := [1]
  lhsBatch := []
  rhsBatch := []
  wf := dot_S200001x147_S147x300_S200001x300_1_0_0_1_n_n_wf
def gather_S200001x300_S100001x6x1_S100001x6x300_2_0_n_n_0_2_1300 : GatherDims S200001x300 S100001x6x1 S100001x6x300 where
  offsetDims := [2]
  collapsedSliceDims := [0]
  operandBatchingDims := []
  startIndicesBatchingDims := []
  startIndexMap := [0]
  indexVectorDim := 2
  sliceSizes := ![1, 300]
  wf := gather_S200001x300_S100001x6x1_S100001x6x300_2_0_n_n_0_2_1300_wf
def gather_S100001x300_S200001x1_S200001x300_1_0_n_n_0_1_1300 : GatherDims S100001x300 S200001x1 S200001x300 where
  offsetDims := [1]
  collapsedSliceDims := [0]
  operandBatchingDims := []
  startIndicesBatchingDims := []
  startIndexMap := [0]
  indexVectorDim := 1
  sliceSizes := ![1, 300]
  wf := gather_S100001x300_S200001x1_S200001x300_1_0_n_n_0_1_1300_wf
def gather_S200001x300_S200001x1_S200001x300_1_0_n_n_0_1_1300 : GatherDims S200001x300 S200001x1 S200001x300 where
  offsetDims := [1]
  collapsedSliceDims := [0]
  operandBatchingDims := []
  startIndicesBatchingDims := []
  startIndexMap := [0]
  indexVectorDim := 1
  sliceSizes := ![1, 300]
  wf := gather_S200001x300_S200001x1_S200001x300_1_0_n_n_0_1_1300_wf
def dot_S200001x300_S300x300_S200001x300_1_0_0_1_n_n : DotDims S200001x300 S300x300 S200001x300 where
  lhsContracting := [1]
  rhsContracting := [0]
  lhsNonContracting := [0]
  rhsNonContracting := [1]
  lhsBatch := []
  rhsBatch := []
  wf := dot_S200001x300_S300x300_S200001x300_1_0_0_1_n_n_wf
def dot_S100001x433_S433x300_S100001x300_1_0_0_1_n_n : DotDims S100001x433 S433x300 S100001x300 where
  lhsContracting := [1]
  rhsContracting := [0]
  lhsNonContracting := [0]
  rhsNonContracting := [1]
  lhsBatch := []
  rhsBatch := []
  wf := dot_S100001x433_S433x300_S100001x300_1_0_0_1_n_n_wf
def scatter_S2048x300_S100000x1_S100000x300_1_0_0_1 : ScatterDims S2048x300 S100000x1 S100000x300 where
  updateWindowDims := [1]
  insertedWindowDims := [0]
  scatterDimsToOperandDims := [0]
  indexVectorDim := 1
  wf := scatter_S2048x300_S100000x1_S100000x300_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf

class Facts : Prop extends Facts₀ where

variable [Facts]
-- ==== Proof.KernelRun.lean ====
/-
  What the idealized kernel program leaves in its result buffer.
  The program is four gridded launches of a tile body among stretches of host operations. Its run is followed as a fold of buffer
  contents through those segments: a stretch of host operations replaces the buffers it writes by its operations'
  results, a region replaces its output arrays by what its grid points wrote back, and every other buffer is carried
  along. Every weakly fair execution terminates without a fault, each argument array ends as launched, and the result
  buffer ends holding the last boundary's contents at that buffer — the fold's value there, which the other modules read.
-/
import proofs.«149416_j37142877176027_1_alg».proof.Proof.Gen.KernelIdeal.Frame

set_option maxRecDepth 16384

noncomputable section

namespace Cert.Bridge.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN WITH ITS RESULT NAMED: from any memory with zero counters every weakly fair execution of the program
    terminates, nothing faulting; the result buffer ends at the last segment boundary's contents and the ten argument
    arrays end as launched. -/
theorem run : θ_run defs (onTc (τ := τ) (main (F := F))) ⟨m, fun _ => 0, ρ⟩ (fun r => ∀ c : Dev nD,
      r.2.mem ((c.tc : Thread nD τ).loc main_v77) = W14 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v77 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.Bridge.KernelRun

end
-- ==== Proof.Spec.lean ====
/-
  The vocabulary both programs are read in, on extended reals.
  `relu x` is the positive part `max x 0`; `lin X W p q` is entry `(p, q)` of the matrix product `X · W`, the sum over
  the shared axis of `X (p, k) · W (k, q)`. Every layer of the network is `relu` of a bias plus such a product, row by row:
  a row of the result depends on the same row of the left factor only, which is why zero rows appended to the left
  factor change nothing in the rows that were there.
-/
import Idealize.ShloMosaic.PureOps.Ideal
import Idealize.ShloMosaic.Lib.ValueIdx

noncomputable section

namespace Cert.Bridge.Spec

open Idealize.ShloMosaic Idealize.ShloMosaic.ValueIdx

/-- The positive part of an extended real. -/
def relu (x : EReal) : EReal := max x 0

/-- Entry `(p, q)` of the product of a `[B, K]` matrix by a `[K, M]` matrix. -/
def lin {B K M : Nat} (X : (⟨2, ![B, K]⟩ : Shape).Idx → EReal) (W : (⟨2, ![K, M]⟩ : Shape).Idx → EReal)
    (p : Fin B) (q : Fin M) : EReal :=
  ∑ k : Fin K, X (ix2 p k) * W (ix2 k q)

end Cert.Bridge.Spec

end
-- ==== Proof.KStages.lean ====
/-
  The idealized kernel program's stages as pure functions of its argument arrays.
  The program keeps the bond-message table with 703 zero rows appended (200704 rows: 98 tiles of 2048), and the atom
  inputs with 351 zero rows appended (100352 rows: 49 tiles). One round of message passing: gather, for each atom, the
  rows of the table its six incoming bonds name and add them up (`atomSum`); for each bond take its source atom's sum
  minus the row of its reverse bond (`bondIn`); append the zero rows (`padBond`); the next table is the positive part of
  the first product plus this times the hidden weight (`nextTable`). The readout lays the atom features beside the
  atom sums (`atomIn`), appends zero rows, multiplies by the output weight, adds the bias and takes the positive part
  (`hidden`); the result averages the hidden rows of atoms 1… over molecules (`pool`).
  Negative indices wrap by the row count of the table they index (`wrap6`, `wrap1`), as numpy indexing does.
-/
import proofs.«149416_j37142877176027_1_alg».proof.KernelIdeal
import proofs.«149416_j37142877176027_1_alg».proof.Proof.Spec

noncomputable section

namespace Cert.Bridge.KStages

open Cert.KernelIdeal Cert.KernelIdeal.Facts₀ Cert.KernelIdeal.Facts Idealize.ShloMosaic Idealize.ShloMosaic.ValueIdx Cert.Bridge.Spec

variable [Cert.KernelIdeal.Facts]

/-- The index array of shape [100001, 6] with negatives wrapped by `n`, given a trailing unit axis. -/
def wrap6 (n : BitVec 32) (x6 : IVec S100001x6 32) : IVec S100001x6x1 32 :=
  broadcastInDim S100001x6x1 ![0, 1] bcast_S100001x6_S100001x6x1_0_1
    (select (cmpi .slt x6 (broadcastInDim S100001x6 ![] bcast_S_S100001x6 (constantI S_ 32 0#32)))
      (addi x6 (broadcastInDim S100001x6 ![] bcast_S_S100001x6 (constantI S_ 32 n))) x6)

/-- The index array of shape [200001] with negatives wrapped by `n`, given a trailing unit axis. -/
def wrap1 (n : BitVec 32) (x : IVec S200001 32) : IVec S200001x1 32 :=
  broadcastInDim S200001x1 ![0] bcast_S200001_S200001x1_0
    (select (cmpi .slt x (broadcastInDim S200001 ![] bcast_S_S200001 (constantI S_ 32 0#32)))
      (addi x (broadcastInDim S200001 ![] bcast_S_S200001 (constantI S_ 32 n))) x)

/-- The zero the padding fills with. -/
def padVal : FVec Ideal S_ .f32 := sitofp .f32 (constantI S_ 32 0#32)

/-- The bond features with the zero rows appended. -/
def padFeat (x1 : FVec Ideal S200001x147 .f32) : FVec Ideal S200704x147 .f32 :=
  pad S200704x147 ![0, 0] ![703, 0] ![0, 0] x1 padVal pads_S200001x147_S200704x147_07030_000 h_S_

/-- A bond-indexed table with the zero rows appended. -/
def padBond (s : FVec Ideal S200001x300 .f32) : FVec Ideal S200704x300 .f32 :=
  pad S200704x300 ![0, 0] ![703, 0] ![0, 0] s padVal pads_S200001x300_S200704x300_07030_000 h_S_

/-- The first product, on the padded rows. -/
def firstProd (x1 : FVec Ideal S200001x147 .f32) (x2 : FVec Ideal S147x300 .f32) : FVec Ideal S200704x300 .f32 :=
  fun i => lin (padFeat x1) x2 (i 0) (i 1)

/-- The first message table: the positive part of the first product. -/
def firstTable (x1 : FVec Ideal S200001x147 .f32) (x2 : FVec Ideal S147x300 .f32) : FVec Ideal S200704x300 .f32 :=
  fun i => relu (lin (padFeat x1) x2 (i 0) (i 1))

/-- For each atom, the sum of the table's rows its six incoming bonds name. -/
def atomSum (M : FVec Ideal S200704x300 .f32) (x6 : IVec S100001x6 32) : FVec Ideal S100001x300 .f32 :=
  Host.reduceAdd (Host.gather gather_S200704x300_S100001x6x1_S100001x6x300_2_0_n_n_0_2_1300 M (wrap6 200704#32 x6))
    (constant S_ .f32 0x00000000#32) reducesTo_S100001x6x300_S100001x300_d1 h_S_

/-- For each bond, its source atom's sum minus the row of its reverse bond. -/
def bondIn (M : FVec Ideal S200704x300 .f32) (x6 : IVec S100001x6 32) (x7 x8 : IVec S200001 32) : FVec Ideal S200001x300 .f32 :=
  subf (Host.gather gather_S100001x300_S200001x1_S200001x300_1_0_n_n_0_1_1300 (atomSum M x6) (wrap1 100001#32 x7))
    (Host.gather gather_S200704x300_S200001x1_S200001x300_1_0_n_n_0_1_1300 M (wrap1 200704#32 x8))

/-- The next message table from the first product `P` and the current table `M`. -/
def nextTable (P M : FVec Ideal S200704x300 .f32) (x3 : FVec Ideal S300x300 .f32) (x6 : IVec S100001x6 32) (x7 x8 : IVec S200001 32) :
    FVec Ideal S200704x300 .f32 :=
  fun i => relu (P i + lin (padBond (bondIn M x6 x7 x8)) x3 (i 0) (i 1))

/-- The atom features beside the atom sums. -/
def atomIn (x0 : FVec Ideal S100001x133 .f32) (M : FVec Ideal S200704x300 .f32) (x6 : IVec S100001x6 32) : FVec Ideal S100001x433 .f32 :=
  concatenate S100001x433 1 [⟨S100001x133, x0⟩, ⟨S100001x300, atomSum M x6⟩] concatenates_S100001x133_S100001x300_S100001x433_d1

/-- The atom inputs with the zero rows appended. -/
def padAtom (a : FVec Ideal S100001x433 .f32) : FVec Ideal S100352x433 .f32 :=
  pad S100352x433 ![0, 0] ![351, 0] ![0, 0] a padVal pads_S100001x433_S100352x433_03510_000 h_S_

/-- The bias as one row. -/
def biasRow (x5 : FVec Ideal S300 .f32) : FVec Ideal S1x300 .f32 := shapeCast S1x300 x5 shapeCasts_S300_S1x300

/-- The hidden atom rows, on the padded rows. -/
def hidden (x0 : FVec Ideal S100001x133 .f32) (M : FVec Ideal S200704x300 .f32) (x4 : FVec Ideal S433x300 .f32) (x5 : FVec Ideal S300 .f32)
    (x6 : IVec S100001x6 32) : FVec Ideal S100352x300 .f32 :=
  fun i => relu (lin (padAtom (atomIn x0 M x6)) x4 (i 0) (i 1) + biasRow x5 (ix2 (0 : Fin 1) (i 1)))

/-- The hidden rows of atoms 1 … 100000. -/
def hiddenRows (H : FVec Ideal S100352x300 .f32) : FVec Ideal S100000x300 .f32 :=
  extractStridedSlice S100000x300 ![1, 0] (extractStridedSlice S100001x300 ![0, 0] H slices_S100352x300_S100001x300_0_0)
    slices_S100001x300_S100000x300_1_0

/-- The mean of the hidden rows over each molecule's atoms (an empty molecule divides by one). -/
def pool (h : FVec Ideal S100000x300 .f32) (x9 : IVec S100000 32) : FVec Ideal S2048x300 .f32 :=
  Host.divf
    (Host.scatterAdd scatter_S2048x300_S100000x1_S100000x300_1_0_0_1
      (broadcastInDim S2048x300 ![] bcast_S_S2048x300 (constant S_ .f32 0x00000000#32))
      (broadcastInDim S100000x1 ![0] bcast_S100000_S100000x1_0 x9) h)
    (broadcastInDim S2048x300 ![0, 1] bcast_S2048x1_S2048x300_0_1
      (broadcastInDim S2048x1 ![0] bcast_S2048_S2048x1_0
        (maximumf
          (Host.scatterAdd scatter_S2048_S100000x1_S100000_n_0_0_1
            (broadcastInDim S2048 ![] bcast_S_S2048 (constant S_ .f32 0x00000000#32))
            (broadcastInDim S100000x1 ![0] bcast_S100000_S100000x1_0 x9)
            (broadcastInDim S100000 ![] bcast_S_S100000 (constant S_ .f32 0x3F800000#32)))
          (broadcastInDim S2048 ![] bcast_S_S2048 (constant S_ .f32 0x3F800000#32)))))

/-- THE KERNEL PROGRAM'S RESULT as a function of its arguments. -/
def result (x0 : FVec Ideal S100001x133 .f32) (x1 : FVec Ideal S200001x147 .f32) (x2 : FVec Ideal S147x300 .f32)
    (x3 : FVec Ideal S300x300 .f32) (x4 : FVec Ideal S433x300 .f32) (x5 : FVec Ideal S300 .f32) (x6 : IVec S100001x6 32)
    (x7 x8 : IVec S200001 32) (x9 : IVec S100000 32) : FVec Ideal S2048x300 .f32 :=
  let P := firstProd x1 x2
  let M0 := firstTable x1 x2
  let M1 := nextTable P M0 x3 x6 x7 x8
  let M2 := nextTable P M1 x3 x6 x7 x8
  pool (hiddenRows (hidden x0 M2 x4 x5 x6)) x9

end Cert.Bridge.KStages

end
-- ==== Proof.RStages.lean ====
/-
  The idealized reference program's stages as pure functions of its argument arrays.
  The reference keeps the bond-message table with its 200001 rows. One round of message passing: for each atom the sum
  of the table's rows its six incoming bonds name (`atomSum`); for each bond its source atom's sum minus the row of its
  reverse bond (`bondIn`); the next table is the positive part of the first product plus this times the hidden weight
  (`nextTable`). The readout lays the atom features beside the atom sums (`atomIn`), multiplies by the output weight,
  adds the bias and takes the positive part (`hidden`); the result averages the hidden rows of atoms 1… over molecules
  (`pool`). Negative indices wrap by the row count of the table they index.
-/
import proofs.«149416_j37142877176027_1_alg».proof.ReferenceIdeal
import Idealize.ShloMosaic.PureOps.Ideal

noncomputable section

namespace Cert.Bridge.RStages

open Cert.ReferenceIdeal Cert.ReferenceIdeal.Facts₀ Cert.ReferenceIdeal.Facts Idealize.ShloMosaic

variable [Cert.ReferenceIdeal.Facts]

/-- The index array of shape [100001, 6] with negatives wrapped by `n`, given a trailing unit axis. -/
def wrap6 (n : BitVec 32) (x6 : IVec S100001x6 32) : IVec S100001x6x1 32 :=
  broadcastInDim S100001x6x1 ![0, 1] bcast_S100001x6_S100001x6x1_0_1
    (select (cmpi .slt x6 (broadcastInDim S100001x6 ![] bcast_S_S100001x6 (constantI S_ 32 0#32)))
      (addi x6 (broadcastInDim S100001x6 ![] bcast_S_S100001x6 (constantI S_ 32 n))) x6)

/-- The index array of shape [200001] with negatives wrapped by `n`, given a trailing unit axis. -/
def wrap1 (n : BitVec 32) (x : IVec S200001 32) : IVec S200001x1 32 :=
  broadcastInDim S200001x1 ![0] bcast_S200001_S200001x1_0
    (select (cmpi .slt x (broadcastInDim S200001 ![] bcast_S_S200001 (constantI S_ 32 0#32)))
      (addi x (broadcastInDim S200001 ![] bcast_S_S200001 (constantI S_ 32 n))) x)

/-- A bond-indexed table of zeros. -/
def zerosBond : FVec Ideal S200001x300 .f32 := broadcastInDim S200001x300 ![] bcast_S_S200001x300 (constant S_ .f32 0x00000000#32)

/-- The first product. -/
def firstProd (x1 : FVec Ideal S200001x147 .f32) (x2 : FVec Ideal S147x300 .f32) : FVec Ideal S200001x300 .f32 :=
  Host.dotGeneral dot_S200001x147_S147x300_S200001x300_1_0_0_1_n_n none x1 x2

/-- The first message table: the positive part of the first product. -/
def firstTable (x1 : FVec Ideal S200001x147 .f32) (x2 : FVec Ideal S147x300 .f32) : FVec Ideal S200001x300 .f32 :=
  maximumf (firstProd x1 x2) zerosBond

/-- For each atom, the sum of the table's rows its six incoming bonds name. -/
def atomSum (M : FVec Ideal S200001x300 .f32) (x6 : IVec S100001x6 32) : FVec Ideal S100001x300 .f32 :=
  Host.reduceAdd (Host.gather gather_S200001x300_S100001x6x1_S100001x6x300_2_0_n_n_0_2_1300 M (wrap6 200001#32 x6))
    (constant S_ .f32 0x00000000#32) reducesTo_S100001x6x300_S100001x300_d1 h_S_

/-- For each bond, its source atom's sum minus the row of its reverse bond. -/
def bondIn (M : FVec Ideal S200001x300 .f32) (x6 : IVec S100001x6 32) (x7 x8 : IVec S200001 32) : FVec Ideal S200001x300 .f32 :=
  subf (Host.gather gather_S100001x300_S200001x1_S200001x300_1_0_n_n_0_1_1300 (atomSum M x6) (wrap1 100001#32 x7))
    (Host.gather gather_S200001x300_S200001x1_S200001x300_1_0_n_n_0_1_1300 M (wrap1 200001#32 x8))

/-- The next message table from the first product `P` and the current table `M`. -/
def nextTable (P M : FVec Ideal S200001x300 .f32) (x3 : FVec Ideal S300x300 .f32) (x6 : IVec S100001x6 32) (x7 x8 : IVec S200001 32) :
    FVec Ideal S200001x300 .f32 :=
  maximumf (addf P (Host.dotGeneral dot_S200001x300_S300x300_S200001x300_1_0_0_1_n_n none (bondIn M x6 x7 x8) x3)) zerosBond

/-- The atom features beside the atom sums. -/
def atomIn (x0 : FVec Ideal S100001x133 .f32) (M : FVec Ideal S200001x300 .f32) (x6 : IVec S100001x6 32) : FVec Ideal S100001x433 .f32 :=
  concatenate S100001x433 1 [⟨S100001x133, x0⟩, ⟨S100001x300, atomSum M x6⟩] concatenates_S100001x133_S100001x300_S100001x433_d1

/-- The hidden atom rows. -/
def hidden (x0 : FVec Ideal S100001x133 .f32) (M : FVec Ideal S200001x300 .f32) (x4 : FVec Ideal S433x300 .f32) (x5 : FVec Ideal S300 .f32)
    (x6 : IVec S100001x6 32) : FVec Ideal S100001x300 .f32 :=
  maximumf
    (addf (Host.dotGeneral dot_S100001x433_S433x300_S100001x300_1_0_0_1_n_n none (atomIn x0 M x6) x4)
      (broadcastInDim S100001x300 ![0, 1] bcast_S1x300_S100001x300_0_1 (broadcastInDim S1x300 ![1] bcast_S300_S1x300_1 x5)))
    (broadcastInDim S100001x300 ![] bcast_S_S100001x300 (constant S_ .f32 0x00000000#32))

/-- The hidden rows of atoms 1 … 100000. -/
def hiddenRows (H : FVec Ideal S100001x300 .f32) : FVec Ideal S100000x300 .f32 :=
  extractStridedSlice S100000x300 ![1, 0] H slices_S100001x300_S100000x300_1_0

/-- The mean of the hidden rows over each molecule's atoms (an empty molecule divides by one). -/
def pool (h : FVec Ideal S100000x300 .f32) (x9 : IVec S100000 32) : FVec Ideal S2048x300 .f32 :=
  Host.divf
    (Host.scatterAdd scatter_S2048x300_S100000x1_S100000x300_1_0_0_1
      (broadcastInDim S2048x300 ![] bcast_S_S2048x300 (constant S_ .f32 0x00000000#32))
      (broadcastInDim S100000x1 ![0] bcast_S100000_S100000x1_0 x9) h)
    (broadcastInDim S2048x300 ![0, 1] bcast_S2048x1_S2048x300_0_1
      (broadcastInDim S2048x1 ![0] bcast_S2048_S2048x1_0
        (maximumf
          (Host.scatterAdd scatter_S2048_S100000x1_S100000_n_0_0_1
            (broadcastInDim S2048 ![] bcast_S_S2048 (constant S_ .f32 0x00000000#32))
            (broadcastInDim S100000x1 ![0] bcast_S100000_S100000x1_0 x9)
            (broadcastInDim S100000 ![] bcast_S_S100000 (constant S_ .f32 0x3F800000#32)))
          (broadcastInDim S2048 ![] bcast_S_S2048 (constant S_ .f32 0x3F800000#32)))))

/-- THE REFERENCE PROGRAM'S RESULT as a function of its arguments. -/
def result (x0 : FVec Ideal S100001x133 .f32) (x1 : FVec Ideal S200001x147 .f32) (x2 : FVec Ideal S147x300 .f32)
    (x3 : FVec Ideal S300x300 .f32) (x4 : FVec Ideal S433x300 .f32) (x5 : FVec Ideal S300 .f32) (x6 : IVec S100001x6 32)
    (x7 x8 : IVec S200001 32) (x9 : IVec S100000 32) : FVec Ideal S2048x300 .f32 :=
  let P := firstProd x1 x2
  let M0 := firstTable x1 x2
  let M1 := nextTable P M0 x3 x6 x7 x8
  let M2 := nextTable P M1 x3 x6 x7 x8
  pool (hiddenRows (hidden x0 M2 x4 x5 x6)) x9

end Cert.Bridge.RStages

end
-- ==== Proof.PreDecode.lean ====
/-
  UNTRUSTED — THE INDEX RANGES, READ OUT OF THE PRECONDITION. The precondition `finite_inputs` is one conjunction of eight
  all-quantified tests, each an all-reduction by `and` of an `i1` array down to a single word: six say that a float
  argument has only finite entries, and the last two say of the two integer index arrays that are used to gather rows of
  the bond-message table — a2b : i32[100001, 6] (argument 6) and b2revb : i32[200001] (argument 8) — that every entry w
  satisfies (w ≥ 0) ∧ (w < 200001), both comparisons signed. The claim states that the whole conjunction is the word 1.
  A conjunction of `i1` words is 1 exactly when both are; an all-reduction by `and` that is 1 met a 1 at every index; a
  signed comparison word is 1 exactly when the comparison holds of the operands read as signed integers; and the words
  0 and 200001 read signed are the integers 0 and 200001. Hence, for every index i,
      0 ≤ a2b[i] < 200001   and   0 ≤ b2revb[i] < 200001     (entries read as signed integers),
  that is: every entry of either index array names a row of a table of 200001 rows. The six float tests are not used.
-/
import proofs.«149416_j37142877176027_1_alg».proof.Pre_finite_inputs
import Idealize.ShloMosaic.Lib.ReduceAll
import Idealize.ShloMosaic.Lib.ValueIdx

noncomputable section

namespace Cert.Bridge.PreDecode

open Idealize.ShloMosaic Cert.Pre_finite_inputs

/-- The rank-0 shape has one index: a function out of the empty set of axes. -/
instance subsingleton_S_Idx : Subsingleton S_.Idx := ⟨fun a b => funext fun d => d.elim0⟩

/-- A word that tests (w ≥ 0) and (w < 200001), signed, is an integer of [0, 200001). -/
theorem in_range (w : BitVec 32) (h0 : IntOp.cmpi .sge w (0#32) = 1#1) (h1 : IntOp.cmpi .slt w (200001#32) = 1#1) :
    0 ≤ w.toInt ∧ w.toInt < 200001 := by
  rw [IntOp.cmpi_sge] at h0
  rw [IntOp.cmpi_slt] at h1
  have e0 : (0#32 : BitVec 32).toInt = 0 := by decide
  have e1 : (200001#32 : BitVec 32).toInt = 200001 := by decide
  rw [e0] at h0; rw [e1] at h1
  exact ⟨h0, h1⟩

/-- THE PRECONDITION DECODED: every entry of a2b (argument 6) and of b2revb (argument 8), read signed, lies in [0, 200001).
    The conjunction is split from the right: its last conjunct is b2revb's test, the one before it a2b's; each is an
    all-reduction by `and`, so it holds at every index, where it is the conjunction of the two signed comparisons. -/
theorem ranges [Facts]
    (a0 : FVec Ideal S100001x133 .f32) (a1 : FVec Ideal S200001x147 .f32) (a2 : FVec Ideal S147x300 .f32)
    (a3 : FVec Ideal S300x300 .f32) (a4 : FVec Ideal S433x300 .f32) (a5 : FVec Ideal S300 .f32)
    (a6 : IVec S100001x6 32) (a7 : IVec S200001 32) (a8 : IVec S200001 32) (a9 : IVec S100000 32)
    (h : fn (F := Ideal) a0 a1 a2 a3 a4 a5 a6 a7 a8 a9 = fun _ => 1#1) :
    (∀ i : S100001x6.Idx, 0 ≤ (a6 i).toInt ∧ (a6 i).toInt < 200001)
    ∧ (∀ i : S200001.Idx, 0 ≤ (a8 i).toInt ∧ (a8 i).toInt < 200001) := by
  have e := congrFun h ValueIdx.ix0
  dsimp only [fn, fn_part1, fn_part2] at e
  obtain ⟨e1, h8⟩ := IntOp.andi_eq_one.1 e
  obtain ⟨-, h6⟩ := IntOp.andi_eq_one.1 e1
  refine ⟨fun i => ?_, fun i => ?_⟩
  · obtain ⟨p0, p1⟩ := IntOp.andi_eq_one.1 (Host.reduce_andi_all _ _ _ _ _ h6 i)
    exact in_range (a6 i) p0 p1
  · obtain ⟨p0, p1⟩ := IntOp.andi_eq_one.1 (Host.reduce_andi_all _ _ _ _ _ h8 i)
    exact in_range (a8 i) p0 p1

end Cert.Bridge.PreDecode

end
-- ==== Proof.LibMatmulPlain.lean ====
/-
  A plain matrix product on extended reals, read at an index given by coordinates.
  The product of a `[B, K]` block by a `[K, M]` matrix (contracting the block's columns with the matrix's rows, no batch
  axes) is computed by the matrix unit into an accumulator of zeros, and by the host as a general dot product. Read at
  `(p, q)` both are the sum over `k` of `lhs (p, k) · rhs (k, q)`: one sum of `K` products, whatever the operands'
  float formats were (a change of format is the identity on extended reals).
-/
import Idealize.ShloMosaic.Lib.ValueIdx
import Idealize.ShloMosaic.PureOps.Ideal.Laws

namespace Cert.Lib.MatmulPlain

open Idealize.ShloMosaic Idealize.ShloMosaic.ValueIdx

/-- The dimension numbers of `lhs @ rhs` for `[B, K]` by `[K, M]`. -/
abbrev plainDims (B K M : Nat)
    (wf : DotDims.WF ⟨2, ![B, K]⟩ ⟨2, ![K, M]⟩ ⟨2, ![B, M]⟩ [1] [0] [0] [1] [] []) :
    DotDims ⟨2, ![B, K]⟩ ⟨2, ![K, M]⟩ ⟨2, ![B, M]⟩ where
  lhsContracting := [1]
  rhsContracting := [0]
  lhsNonContracting := [0]
  rhsNonContracting := [1]
  lhsBatch := []
  rhsBatch := []
  wf := wf

section

variable {B K M : Nat} (wf : DotDims.WF ⟨2, ![B, K]⟩ ⟨2, ![K, M]⟩ ⟨2, ![B, M]⟩ [1] [0] [0] [1] [] [])

/-- The left operand is read at row `p`, column the contraction coordinate. -/
theorem lhsIdx_eq (p : Fin B) (q : Fin M) (k : Fin K) :
    (plainDims B K M wf).lhsIdx (ix2 p q) ((contrEquiv1 (plainDims B K M wf) K rfl rfl).symm k) = ix2 p k :=
  funext fun a => Fin.ext (by
    match a with
    | ⟨0, _⟩ =>
      show ((plainDims B K M wf).lhsIdx (ix2 p q) ((contrEquiv1 (plainDims B K M wf) K rfl rfl).symm k) 0).val = p.val
      unfold DotDims.lhsIdx
      rw [dif_neg List.not_mem_nil, dif_pos (List.mem_singleton.mpr rfl)]
      rfl
    | ⟨1, _⟩ =>
      exact ((plainDims B K M wf).lhsIdx_val_of_single rfl _ _).trans
        (contrEquiv1_symm_val (plainDims B K M wf) K rfl rfl k))

/-- The right operand is read at row the contraction coordinate, column `q`. -/
theorem rhsIdx_eq (p : Fin B) (q : Fin M) (k : Fin K) :
    (plainDims B K M wf).rhsIdx (ix2 p q) ((contrEquiv1 (plainDims B K M wf) K rfl rfl).symm k) = ix2 k q :=
  funext fun a => Fin.ext (by
    match a with
    | ⟨0, _⟩ =>
      exact ((plainDims B K M wf).rhsIdx_val_of_single rfl _ _).trans
        (contrEquiv1_symm_val (plainDims B K M wf) K rfl rfl k)
    | ⟨1, _⟩ =>
      show ((plainDims B K M wf).rhsIdx (ix2 p q) ((contrEquiv1 (plainDims B K M wf) K rfl rfl).symm k) 1).val = q.val
      unfold DotDims.rhsIdx
      rw [dif_neg List.not_mem_nil, dif_pos (List.mem_singleton.mpr rfl)]
      rfl)

/-- THE MATRIX UNIT'S PRODUCT INTO ZEROS, read at `(p, q)`. -/
theorem matmul_zero_apply {φ₁ φ₂ : FTy} (prec : Option ContractPrecision)
    (lhs : FVec Ideal ⟨2, ![B, K]⟩ φ₁) (rhs : FVec Ideal ⟨2, ![K, M]⟩ φ₂) (p : Fin B) (q : Fin M) :
    FloatOps.matmul (plainDims B K M wf) prec lhs rhs (constant ⟨2, ![B, M]⟩ .f32 0x00000000#32) (ix2 p q)
      = ∑ k : Fin K, lhs (ix2 p k) * rhs (ix2 k q) := by
  rw [Ideal.matmul_constant_zero_apply, ← Equiv.sum_comp (contrEquiv1 (plainDims B K M wf) K rfl rfl).symm]
  refine Finset.sum_congr rfl fun k _ => ?_
  rw [lhsIdx_eq wf p q k, rhsIdx_eq wf p q k]

/-- THE HOST'S PRODUCT, read at `(p, q)`. -/
theorem dotGeneral_apply {φ₁ φ₂ : FTy} (prec : Option ContractPrecision)
    (lhs : FVec Ideal ⟨2, ![B, K]⟩ φ₁) (rhs : FVec Ideal ⟨2, ![K, M]⟩ φ₂) (p : Fin B) (q : Fin M) :
    Host.dotGeneral (plainDims B K M wf) prec lhs rhs (ix2 p q) = ∑ k : Fin K, lhs (ix2 p k) * rhs (ix2 k q) := by
  simp only [Host.dotGeneral]
  rw [Ideal.dotGeneral_apply, ← Equiv.sum_comp (contrEquiv1 (plainDims B K M wf) K rfl rfl).symm]
  refine Finset.sum_congr rfl fun k _ => ?_
  rw [lhsIdx_eq wf p q k, rhsIdx_eq wf p q k]

end

end Cert.Lib.MatmulPlain
-- ==== Proof.Region0.lean ====
/-
  Region 0 of the program: the first layer, a matrix product and its positive part, as functions of the arrays the
  region finds on entry.

  The region runs over 98 grid points. At point t it reads rows 2048 t … 2048 t + 2047 of the left matrix X
  (200704 × 147) and the whole weight W (147 × 300); it multiplies the row tile by the weight on the matrix unit into
  zeros and writes the product to the same rows of its first output, and the positive part of the product (against
  zero) to the same rows of its second output. Entry (p, q) of a tile's product is the sum over k of
  X (2048 t + p, k) · W (k, q): a row of the result depends on the same row of X only. Row r of either output lies in
  tile r / 2048 and the one column block holds all 300 columns, so the 98 tiles cover each output, and after the
  region the first output at (r, q) is Σ_k X (r, k) · W (k, q) and the second is relu of it, whatever the entry
  contents of the region's arrays are.
-/
import proofs.«149416_j37142877176027_1_alg».proof.Proof.Gen.KernelIdeal.Frame
import proofs.«149416_j37142877176027_1_alg».proof.Proof.LibMatmulPlain
import proofs.«149416_j37142877176027_1_alg».proof.Proof.Spec
import Idealize.ShloMosaic.Lib.ValueIdx
import Idealize.ShloMosaic.Lib.Pipeline.Value
import Idealize.ShloMosaic.PureOps.Ideal.Laws

noncomputable section

namespace Cert.Bridge.Region0

open Cert.KernelIdeal Cert.KernelIdeal.Gen Idealize.ShloMosaic Idealize.ShloMosaic.TcCoe Idealize.SL.Sem
open Idealize.ShloMosaic.ValueIdx
open Idealize.ShloMosaic.Pipeline (Dat)
open Cert.Bridge.Spec

/-- The product on whole arrays: at (r, q), row r of X against column q of W. -/
def prod (X : S200704x147.Idx → EReal) (W : S147x300.Idx → EReal) : S200704x300.Idx → EReal :=
  fun i => lin (B := 200704) (K := 147) (M := 300) X W (i 0) (i 1)

/-- The layer on whole arrays: the positive part of the product. -/
def layer (X : S200704x147.Idx → EReal) (W : S147x300.Idx → EReal) : S200704x300.Idx → EReal :=
  fun i => relu (lin (B := 200704) (K := 147) (M := 300) X W (i 0) (i 1))

theorem prod_apply (X : S200704x147.Idx → EReal) (W : S147x300.Idx → EReal) (r : Fin 200704) (q : Fin 300) :
    prod X W (ix2 r q) = lin X W r q := rfl

theorem layer_apply (X : S200704x147.Idx → EReal) (W : S147x300.Idx → EReal) (r : Fin 200704) (q : Fin 300) :
    layer X W (ix2 r q) = relu (lin X W r q) := rfl

/-! ## One tile: the body's two stored values at an index -/

/-- A row tile times the weight, into zeros, at (p, q): the sum over the shared axis. -/
theorem tile_product (a : FVec Ideal S2048x147 .bf16) (b : FVec Ideal S147x300 .bf16) (p : Fin 2048) (q : Fin 300) :
    matmul dot_S2048x147_S147x300_S2048x300_1_0_0_1_n_n none a b (constant (F := Ideal) S2048x300 .f32 0x00000000#32) (ix2 p q)
      = ∑ k : Fin 147, a (ix2 p k) * b (ix2 k q) :=
  Cert.Lib.MatmulPlain.matmul_zero_apply (B := 2048) (K := 147) (M := 300)
    dot_S2048x147_S147x300_S2048x300_1_0_0_1_n_n.wf none a b p q

/-- The first stored value, at (p, q) of the tile: row p of the left tile against column q of the weight. -/
theorem pay1_apply (x0 : Vec Ideal S2048x147 .f32) (x1 : Vec Ideal S147x300 .f32) (p : Fin 2048) (q : Fin 300) :
    k0_pay1 x0 x1 (ix2 p q) = lin (B := 2048) (K := 147) (M := 300) x0 x1 p q := by
  unfold k0_pay1
  simp only [shapeCast_self]
  rw [tile_product]
  rfl

/-- The second stored value: the positive part of the first. -/
theorem pay2_apply (x0 : Vec Ideal S2048x147 .f32) (x1 : Vec Ideal S147x300 .f32) (p : Fin 2048) (q : Fin 300) :
    k0_pay2 x0 x1 (ix2 p q) = relu (lin (B := 2048) (K := 147) (M := 300) x0 x1 p q) := by
  unfold k0_pay2
  refine (maximumf_apply _ _ (ix2 p q)).trans ?_
  rw [pay1_apply, broadcast_apply]
  show max (lin (B := 2048) (K := 147) (M := 300) x0 x1 p q) (Ideal.ofBits .f32 0x00000000#32) = _
  rw [Ideal.ofBits_zero_f32]
  rfl

/-- One tile of the product: when the left tile holds rows r … of X and the weight's tile the weight, the first stored
    value at (p, q) is the product at (r, q). -/
theorem tile_prod (x0 : Vec Ideal S2048x147 .f32) (x1 : Vec Ideal S147x300 .f32)
    (X : S200704x147.Idx → EReal) (W : S147x300.Idx → EReal) (p : Fin 2048) (q : Fin 300) (r : Fin 200704)
    (h0 : ∀ k : Fin 147, x0 (ix2 p k) = X (ix2 r k)) (h1 : ∀ k : Fin 147, x1 (ix2 k q) = W (ix2 k q)) :
    k0_pay1 x0 x1 (ix2 p q) = prod X W (ix2 r q) := by
  rw [pay1_apply, prod_apply]
  unfold lin
  rw [Finset.sum_congr rfl fun k _ => by rw [h0 k, h1 k]]

/-- One tile of the layer: likewise the second stored value is the layer at (r, q). -/
theorem tile_layer (x0 : Vec Ideal S2048x147 .f32) (x1 : Vec Ideal S147x300 .f32)
    (X : S200704x147.Idx → EReal) (W : S147x300.Idx → EReal) (p : Fin 2048) (q : Fin 300) (r : Fin 200704)
    (h0 : ∀ k : Fin 147, x0 (ix2 p k) = X (ix2 r k)) (h1 : ∀ k : Fin 147, x1 (ix2 k q) = W (ix2 k q)) :
    k0_pay2 x0 x1 (ix2 p q) = layer X W (ix2 r q) := by
  rw [pay2_apply, layer_apply]
  unfold lin
  rw [Finset.sum_congr rfl fun k _ => by rw [h0 k, h1 k]]

/-! ## The grid: which block of each array a point reads and writes -/

theorem hz : (![0, 0] : Fin 2 → Nat) = fun _ => 0 := funext fun a => by fin_cases a <;> rfl

/-- The index maps over the 98 points: the left matrix and both outputs move down one row tile per point, in the one
    column block; the weight stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section

variable (V : (c : Dev nD) → (b : Ref sig .tc) → Buf (Elt Ideal) ((c : Thread nD τ).loc b))

/-- The arrays the region finds on entry: the left matrix, the weight. -/
abbrev inX (c : Dev nD) : S200704x147.Idx → EReal := V c (Pipeline.arrRef spec0 0)
abbrev inW (c : Dev nD) : S147x300.Idx → EReal := V c (Pipeline.arrRef spec0 1)

/-- The left tile at point t is rows 2048 t … of the left matrix. -/
theorem left_tile (c : Dev nD) (t : Fin cfg0.N) (p : Fin 2048) (k : Fin 147) (r : Fin 200704)
    (hr : r.val = 2048 * t.val + p.val) :
    (iblk0 V c 0 t : Vec Ideal S2048x147 .f32) (ix2 p k)
      = (V c (Pipeline.arrRef spec0 0) : S200704x147.Idx → EReal) (ix2 r k) := by
  obtain ⟨e0, e1, -⟩ := idx_facts t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 2048 + 1 * p.val = r.val; rw [e0, hr]; omega
  | ⟨1, _⟩ => show win0_0.index t (1 : Fin 2) * 147 + 1 * k.val = k.val; rw [e1]; omega

/-- The weight's one block is the weight. -/
theorem weight_tile (c : Dev nD) (t : Fin cfg0.N) (k : Fin 147) (q : Fin 300) :
    (iblk0 V c 1 t : Vec Ideal S147x300 .f32) (ix2 k q)
      = (V c (Pipeline.arrRef spec0 1) : S147x300.Idx → EReal) (ix2 k q) := by
  obtain ⟨-, -, e2, e3, -⟩ := idx_facts t
  show V c (Pipeline.arrRef spec0 1) (((cfg0.win 1).blk t).view.emb (ix2 k q)) = V c (Pipeline.arrRef spec0 1) (ix2 k q)
  refine congrArg _ (funext fun a => Fin.ext ?_)
  match a with
  | ⟨0, _⟩ => show win0_1.index t (0 : Fin 2) * 147 + 1 * k.val = k.val; rw [e2]; omega
  | ⟨1, _⟩ => show win0_1.index t (1 : Fin 2) * 300 + 1 * q.val = q.val; rw [e3]; omega

/-- The first output's tile at point t sits at rows 2048 t … of that output. -/
theorem out2_tile_emb (t : Fin cfg0.N) (p : Fin 2048) (q : Fin 300) (r : Fin 200704)
    (hr : r.val = 2048 * t.val + p.val) :
    (((cfg0.win 2).blk t).view.emb (ix2 p q) : S200704x300.Idx) = ix2 r q := by
  obtain ⟨-, -, -, -, e4, e5, -⟩ := idx_facts t
  refine funext fun a => Fin.ext ?_
  match a with
  | ⟨0, _⟩ => show win0_2.index t (0 : Fin 2) * 2048 + 1 * p.val = r.val; rw [e4, hr]; omega
  | ⟨1, _⟩ => show win0_2.index t (1 : Fin 2) * 300 + 1 * q.val = q.val; rw [e5]; omega

/-- The second output's tile at point t sits at rows 2048 t … of that output. -/
theorem out3_tile_emb (t : Fin cfg0.N) (p : Fin 2048) (q : Fin 300) (r : Fin 200704)
    (hr : r.val = 2048 * t.val + p.val) :
    (((cfg0.win 3).blk t).view.emb (ix2 p q) : S200704x300.Idx) = ix2 r q := by
  obtain ⟨-, -, -, -, -, -, e6, e7⟩ := idx_facts t
  refine funext fun a => Fin.ext ?_
  match a with
  | ⟨0, _⟩ => show win0_3.index t (0 : Fin 2) * 2048 + 1 * p.val = r.val; rw [e6, hr]; omega
  | ⟨1, _⟩ => show win0_3.index t (1 : Fin 2) * 300 + 1 * q.val = q.val; rw [e7]; omega

/-- What point t writes back to the first output is tile t of the product of the arrays the region finds. -/
theorem flushed2_eq (c : Dev nD) (t : Fin cfg0.N) :
    (dat0 (F := Ideal) V c).flushed 2 t = ((cfg0.win 2).blk t).view.read (Elt Ideal)
      (prod (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S2048x147) hz, View.ld_unit_zero (S := S147x300) hz]
  funext j
  obtain ⟨p, q, rfl⟩ : ∃ (p : Fin 2048) (q : Fin 300), j = ix2 p q := ⟨j 0, j 1, eq_ix2 j⟩
  have hN : cfg0.N = 98 := N_0
  have ht : t.val < cfg0.N := t.isLt
  have hp : p.val < 2048 := p.isLt
  obtain ⟨r, hr⟩ : ∃ r : Fin 200704, r.val = 2048 * t.val + p.val := ⟨⟨2048 * t.val + p.val, by omega⟩, rfl⟩
  show k0_pay1 (iblk0 V c 0 t) (iblk0 V c 1 t) (ix2 p q)
    = prod (V c (Pipeline.arrRef spec0 0)) (V c (Pipeline.arrRef spec0 1)) (((cfg0.win 2).blk t).view.emb (ix2 p q))
  rw [out2_tile_emb t p q r hr]
  exact tile_prod _ _ _ _ p q r (fun k => left_tile V c t p k r hr) (fun k => weight_tile V c t k q)

/-- What point t writes back to the second output is tile t of the layer of the arrays the region finds. -/
theorem flushed3_eq (c : Dev nD) (t : Fin cfg0.N) :
    (dat0 (F := Ideal) V c).flushed 3 t = ((cfg0.win 3).blk t).view.read (Elt Ideal)
      (layer (V c (Pipeline.arrRef spec0 0)) (V c (Pipeline.arrRef spec0 1))) := by
  show (cfg0.win 3).cut (grid0.coords t) ((dat0 V c).after 3 t) = _
  rw [after0_3]
  unfold out0_3
  rw [View.canon_unit_zero hz]
  simp only [View.ld_unit_zero (S := S2048x147) hz, View.ld_unit_zero (S := S147x300) hz]
  funext j
  obtain ⟨p, q, rfl⟩ : ∃ (p : Fin 2048) (q : Fin 300), j = ix2 p q := ⟨j 0, j 1, eq_ix2 j⟩
  have hN : cfg0.N = 98 := N_0
  have ht : t.val < cfg0.N := t.isLt
  have hp : p.val < 2048 := p.isLt
  obtain ⟨r, hr⟩ : ∃ r : Fin 200704, r.val = 2048 * t.val + p.val := ⟨⟨2048 * t.val + p.val, by omega⟩, rfl⟩
  show k0_pay2 (iblk0 V c 0 t) (iblk0 V c 1 t) (ix2 p q)
    = layer (V c (Pipeline.arrRef spec0 0)) (V c (Pipeline.arrRef spec0 1)) (((cfg0.win 3).blk t).view.emb (ix2 p q))
  rw [out3_tile_emb t p q r hr]
  exact tile_layer _ _ _ _ p q r (fun k => left_tile V c t p k r hr) (fun k => weight_tile V c t k q)

/-- An index of the first output is in point t's block iff each coordinate is in the block's range on its axis. -/
theorem mem_blk2 (t : Fin cfg0.N) (i : S200704x300.Idx) :
    i ∈ ((cfg0.win 2).blk t).view.set ↔ ∀ a : Fin 2, win0_2.index t a * S2048x300.size a ≤ (i a).val
      ∧ (i a).val < win0_2.index t a * S2048x300.size a + S2048x300.size a := by
  show i ∈ ((View.whole main_v1_0).slice (win0_2.rect t)).set ↔ _
  rw [View.set_slice_whole, Rect.mem_set_unit]
  exact Iff.rfl

/-- The same for the second output. -/
theorem mem_blk3 (t : Fin cfg0.N) (i : S200704x300.Idx) :
    i ∈ ((cfg0.win 3).blk t).view.set ↔ ∀ a : Fin 2, win0_3.index t a * S2048x300.size a ≤ (i a).val
      ∧ (i a).val < win0_3.index t a * S2048x300.size a + S2048x300.size a := by
  show i ∈ ((View.whole main_v1_1).slice (win0_3.rect t)).set ↔ _
  rw [View.set_slice_whole, Rect.mem_set_unit]
  exact Iff.rfl

/-- The tiles cover the first output: row r is in the tile of point r / 2048, every column in the one column block. -/
theorem cover2 (i : S200704x300.Idx) :
    ∃ t : Fin cfg0.N, (cfg0.win 2).flush t = true ∧ i ∈ ((cfg0.win 2).blk t).view.set := by
  have hN : cfg0.N = 98 := N_0
  have hi0 : (i 0).val < 200704 := (i 0).isLt
  have hi1 : (i 1).val < 300 := (i 1).isLt
  obtain ⟨t, ht⟩ : ∃ t : Fin cfg0.N, t.val = (i 0).val / 2048 := ⟨⟨(i 0).val / 2048, by omega⟩, rfl⟩
  obtain ⟨-, -, -, -, e4, e5, -⟩ := idx_facts t
  refine ⟨t, flush0_2 t, ?_⟩
  rw [mem_blk2]
  intro a
  match a with
  | ⟨0, _⟩ =>
    show win0_2.index t (0 : Fin 2) * 2048 ≤ (i 0).val ∧ (i 0).val < win0_2.index t (0 : Fin 2) * 2048 + 2048
    rw [e4, ht]; omega
  | ⟨1, _⟩ =>
    show win0_2.index t (1 : Fin 2) * 300 ≤ (i 1).val ∧ (i 1).val < win0_2.index t (1 : Fin 2) * 300 + 300
    rw [e5]; omega

/-- The tiles cover the second output likewise. -/
theorem cover3 (i : S200704x300.Idx) :
    ∃ t : Fin cfg0.N, (cfg0.win 3).flush t = true ∧ i ∈ ((cfg0.win 3).blk t).view.set := by
  have hN : cfg0.N = 98 := N_0
  have hi0 : (i 0).val < 200704 := (i 0).isLt
  have hi1 : (i 1).val < 300 := (i 1).isLt
  obtain ⟨t, ht⟩ : ∃ t : Fin cfg0.N, t.val = (i 0).val / 2048 := ⟨⟨(i 0).val / 2048, by omega⟩, rfl⟩
  obtain ⟨-, -, -, -, -, -, e6, e7⟩ := idx_facts t
  refine ⟨t, flush0_3 t, ?_⟩
  rw [mem_blk3]
  intro a
  match a with
  | ⟨0, _⟩ =>
    show win0_3.index t (0 : Fin 2) * 2048 ≤ (i 0).val ∧ (i 0).val < win0_3.index t (0 : Fin 2) * 2048 + 2048
    rw [e6, ht]; omega
  | ⟨1, _⟩ =>
    show win0_3.index t (1 : Fin 2) * 300 ≤ (i 1).val ∧ (i 1).val < win0_3.index t (1 : Fin 2) * 300 + 300
    rw [e7]; omega

/-- THE FIRST OUTPUT after the region is the product of the arrays the region finds. -/
theorem final2 (c : Dev nD) :
    (dat0 (F := Ideal) V c).arrAt 2 cfg0.N = prod (V c (Pipeline.arrRef spec0 0)) (V c (Pipeline.arrRef spec0 1)) :=
  (dat0 (F := Ideal) V c).arrAt_eq_of_cover 2 _ (fun t _ => flushed2_eq V c t) cover2

/-- THE SECOND OUTPUT after the region is the layer of the arrays the region finds. -/
theorem final3 (c : Dev nD) :
    (dat0 (F := Ideal) V c).arrAt 3 cfg0.N = layer (V c (Pipeline.arrRef spec0 0)) (V c (Pipeline.arrRef spec0 1)) :=
  (dat0 (F := Ideal) V c).arrAt_eq_of_cover 3 _ (fun t _ => flushed3_eq V c t) cover3

/-- The first output at an index given by its row and column. -/
theorem final2_apply (c : Dev nD) (r : Fin 200704) (q : Fin 300) :
    (dat0 (F := Ideal) V c).arrAt 2 cfg0.N (ix2 r q) = lin (inX V c) (inW V c) r q := by
  rw [final2 V c]
  rfl

/-- The second output at an index given by its row and column. -/
theorem final3_apply (c : Dev nD) (r : Fin 200704) (q : Fin 300) :
    (dat0 (F := Ideal) V c).arrAt 3 cfg0.N (ix2 r q) = relu (lin (inX V c) (inW V c) r q) := by
  rw [final3 V c]
  rfl

end

end Cert.Bridge.Region0

end
-- ==== Proof.Region1.lean ====
/-
  Region 1 of the program: one layer, the positive part of a bias plus a matrix product, as a function of the arrays
  the region finds on entry.

  The region runs over 98 grid points. At point t it reads rows 2048 t … 2048 t + 2047 of the left matrix X
  (200704 × 300) and of the bias (200704 × 300) and the whole weight W (300 × 300); it multiplies the row tile by the
  weight on the matrix unit into zeros, adds the product to the bias tile (bias first, product second), takes the
  positive part against zero, and writes the result to the same rows of the output. Entry (p, q) of a tile's product
  is the sum over k of X (2048 t + p, k) · W (k, q): a row of the result depends on the same row of X only. Row r of
  the output lies in tile r / 2048 and the one column block holds all 300 columns, so the 98 tiles cover the output,
  and after the region the output at (r, q) is relu (bias (r, q) + Σ_k X (r, k) · W (k, q)), whatever the entry
  contents of the region's arrays are.
-/
import proofs.«149416_j37142877176027_1_alg».proof.Proof.Gen.KernelIdeal.Frame
import proofs.«149416_j37142877176027_1_alg».proof.Proof.LibMatmulPlain
import proofs.«149416_j37142877176027_1_alg».proof.Proof.Spec
import Idealize.ShloMosaic.Lib.ValueIdx
import Idealize.ShloMosaic.Lib.Pipeline.Value
import Idealize.ShloMosaic.PureOps.Ideal.Laws

noncomputable section

namespace Cert.Bridge.Region1

open Cert.KernelIdeal Cert.KernelIdeal.Gen Idealize.ShloMosaic Idealize.ShloMosaic.TcCoe Idealize.SL.Sem
open Idealize.ShloMosaic.ValueIdx
open Idealize.ShloMosaic.Pipeline (Dat)
open Cert.Bridge.Spec

/-- The layer on whole arrays: at (r, q) the positive part of the bias there plus row r of X against column q of W. -/
def layer (X : S200704x300.Idx → EReal) (W : S300x300.Idx → EReal) (B : S200704x300.Idx → EReal) :
    S200704x300.Idx → EReal :=
  fun i => relu (B i + lin (B := 200704) (K := 300) (M := 300) X W (i 0) (i 1))

theorem layer_apply (X : S200704x300.Idx → EReal) (W : S300x300.Idx → EReal) (B : S200704x300.Idx → EReal)
    (r : Fin 200704) (q : Fin 300) : layer X W B (ix2 r q) = relu (B (ix2 r q) + lin X W r q) := rfl

/-! ## One tile: the body's stored value at an index -/

/-- A row tile times the weight, into zeros, at (p, q): the sum over the shared axis. -/
theorem tile_product (a : FVec Ideal S2048x300 .bf16) (b : FVec Ideal S300x300 .bf16) (p : Fin 2048) (q : Fin 300) :
    matmul dot_S2048x300_S300x300_S2048x300_1_0_0_1_n_n none a b (constant (F := Ideal) S2048x300 .f32 0x00000000#32) (ix2 p q)
      = ∑ k : Fin 300, a (ix2 p k) * b (ix2 k q) :=
  Cert.Lib.MatmulPlain.matmul_zero_apply (B := 2048) (K := 300) (M := 300)
    dot_S2048x300_S300x300_S2048x300_1_0_0_1_n_n.wf none a b p q

/-- What the body stores, at (p, q) of the tile: the positive part of the bias tile there plus row p of the left tile
    against column q of the weight. -/
theorem pay1_apply (x0 : Vec Ideal S2048x300 .f32) (x1 : Vec Ideal S300x300 .f32) (x2 : Vec Ideal S2048x300 .f32)
    (p : Fin 2048) (q : Fin 300) :
    k1_pay1 x0 x1 x2 (ix2 p q) = relu (x2 (ix2 p q) + lin (B := 2048) (K := 300) (M := 300) x0 x1 p q) := by
  unfold k1_pay1
  simp only [shapeCast_self]
  refine (maximumf_apply _ _ (ix2 p q)).trans ?_
  rw [addf_apply, tile_product, broadcast_apply]
  show max (x2 (ix2 p q) + ∑ k : Fin 300, x0 (ix2 p k) * x1 (ix2 k q)) (Ideal.ofBits .f32 0x00000000#32) = _
  rw [Ideal.ofBits_zero_f32]
  rfl

/-- One tile of the layer: when the three tiles hold rows r … of the arrays (the weight's tile the weight), what the
    body stores at (p, q) is the layer at (r, q). -/
theorem tile_layer (x0 : Vec Ideal S2048x300 .f32) (x1 : Vec Ideal S300x300 .f32) (x2 : Vec Ideal S2048x300 .f32)
    (X : S200704x300.Idx → EReal) (W : S300x300.Idx → EReal) (B : S200704x300.Idx → EReal)
    (p : Fin 2048) (q : Fin 300) (r : Fin 200704)
    (h0 : ∀ k : Fin 300, x0 (ix2 p k) = X (ix2 r k)) (h1 : ∀ k : Fin 300, x1 (ix2 k q) = W (ix2 k q))
    (h2 : x2 (ix2 p q) = B (ix2 r q)) :
    k1_pay1 x0 x1 x2 (ix2 p q) = layer X W B (ix2 r q) := by
  rw [pay1_apply, layer_apply, h2]
  unfold lin
  rw [Finset.sum_congr rfl fun k _ => by rw [h0 k, h1 k]]

/-! ## The grid: which block of each array a point reads and writes -/

theorem hz : (![0, 0] : Fin 2 → Nat) = fun _ => 0 := funext fun a => by fin_cases a <;> rfl

/-- The index maps over the 98 points: the left matrix, the bias and the output move down one row tile per point, in
    the one column block; the weight stays. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

section

variable (V : (c : Dev nD) → (b : Ref sig .tc) → Buf (Elt Ideal) ((c : Thread nD τ).loc b))

/-- The arrays the region finds on entry: the left matrix, the weight, the bias. -/
abbrev inX (c : Dev nD) : S200704x300.Idx → EReal := V c (Pipeline.arrRef spec1 0)
abbrev inW (c : Dev nD) : S300x300.Idx → EReal := V c (Pipeline.arrRef spec1 1)
abbrev inB (c : Dev nD) : S200704x300.Idx → EReal := V c (Pipeline.arrRef spec1 2)

/-- The left tile at point t is rows 2048 t … of the left matrix. -/
theorem left_tile (c : Dev nD) (t : Fin cfg1.N) (p : Fin 2048) (k : Fin 300) (r : Fin 200704)
    (hr : r.val = 2048 * t.val + p.val) :
    (iblk1 V c 0 t : Vec Ideal S2048x300 .f32) (ix2 p k)
      = (V c (Pipeline.arrRef spec1 0) : S200704x300.Idx → EReal) (ix2 r k) := by
  obtain ⟨e0, e1, -⟩ := idx_facts t
  show V c (Pipeline.arrRef spec1 0) (((cfg1.win 0).blk t).view.emb (ix2 p k)) = V c (Pipeline.arrRef spec1 0) (ix2 r k)
  refine congrArg _ (funext fun a => Fin.ext ?_)
  match a with
  | ⟨0, _⟩ => show win1_0.index t (0 : Fin 2) * 2048 + 1 * p.val = r.val; rw [e0, hr]; omega
  | ⟨1, _⟩ => show win1_0.index t (1 : Fin 2) * 300 + 1 * k.val = k.val; rw [e1]; omega

/-- The weight's one block is the weight. -/
theorem weight_tile (c : Dev nD) (t : Fin cfg1.N) (k : Fin 300) (q : Fin 300) :
    (iblk1 V c 1 t : Vec Ideal S300x300 .f32) (ix2 k q)
      = (V c (Pipeline.arrRef spec1 1) : S300x300.Idx → EReal) (ix2 k q) := by
  obtain ⟨-, -, e2, e3, -⟩ := idx_facts t
  show V c (Pipeline.arrRef spec1 1) (((cfg1.win 1).blk t).view.emb (ix2 k q)) = V c (Pipeline.arrRef spec1 1) (ix2 k q)
  refine congrArg _ (funext fun a => Fin.ext ?_)
  match a with
  | ⟨0, _⟩ => show win1_1.index t (0 : Fin 2) * 300 + 1 * k.val = k.val; rw [e2]; omega
  | ⟨1, _⟩ => show win1_1.index t (1 : Fin 2) * 300 + 1 * q.val = q.val; rw [e3]; omega

/-- The bias tile at point t is rows 2048 t … of the bias. -/
theorem bias_tile (c : Dev nD) (t : Fin cfg1.N) (p : Fin 2048) (q : Fin 300) (r : Fin 200704)
    (hr : r.val = 2048 * t.val + p.val) :
    (iblk1 V c 2 t : Vec Ideal S2048x300 .f32) (ix2 p q)
      = (V c (Pipeline.arrRef spec1 2) : S200704x300.Idx → EReal) (ix2 r q) := by
  obtain ⟨-, -, -, -, e4, e5, -⟩ := idx_facts t
  show V c (Pipeline.arrRef spec1 2) (((cfg1.win 2).blk t).view.emb (ix2 p q)) = V c (Pipeline.arrRef spec1 2) (ix2 r q)
  refine congrArg _ (funext fun a => Fin.ext ?_)
  match a with
  | ⟨0, _⟩ => show win1_2.index t (0 : Fin 2) * 2048 + 1 * p.val = r.val; rw [e4, hr]; omega
  | ⟨1, _⟩ => show win1_2.index t (1 : Fin 2) * 300 + 1 * q.val = q.val; rw [e5]; omega

/-- The output's tile at point t sits at rows 2048 t … of the output. -/
theorem out_tile_emb (t : Fin cfg1.N) (p : Fin 2048) (q : Fin 300) (r : Fin 200704)
    (hr : r.val = 2048 * t.val + p.val) :
    (((cfg1.win 3).blk t).view.emb (ix2 p q) : S200704x300.Idx) = ix2 r q := by
  obtain ⟨-, -, -, -, -, -, e6, e7⟩ := idx_facts t
  refine funext fun a => Fin.ext ?_
  match a with
  | ⟨0, _⟩ => show win1_3.index t (0 : Fin 2) * 2048 + 1 * p.val = r.val; rw [e6, hr]; omega
  | ⟨1, _⟩ => show win1_3.index t (1 : Fin 2) * 300 + 1 * q.val = q.val; rw [e7]; omega

/-- What point t writes back is tile t of the layer of the arrays the region finds. -/
theorem flushed_eq (c : Dev nD) (t : Fin cfg1.N) :
    (dat1 (F := Ideal) V c).flushed 3 t = ((cfg1.win 3).blk t).view.read (Elt Ideal)
      (layer (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S2048x300) hz, View.ld_unit_zero (S := S300x300) hz]
  funext j
  obtain ⟨p, q, rfl⟩ : ∃ (p : Fin 2048) (q : Fin 300), j = ix2 p q := ⟨j 0, j 1, eq_ix2 j⟩
  have hN : cfg1.N = 98 := N_1
  have ht : t.val < cfg1.N := t.isLt
  have hp : p.val < 2048 := p.isLt
  obtain ⟨r, hr⟩ : ∃ r : Fin 200704, r.val = 2048 * t.val + p.val := ⟨⟨2048 * t.val + p.val, by omega⟩, rfl⟩
  show k1_pay1 (iblk1 V c 0 t) (iblk1 V c 1 t) (iblk1 V c 2 t) (ix2 p q)
    = layer (V c (Pipeline.arrRef spec1 0)) (V c (Pipeline.arrRef spec1 1)) (V c (Pipeline.arrRef spec1 2))
        (((cfg1.win 3).blk t).view.emb (ix2 p q))
  rw [out_tile_emb t p q r hr]
  exact tile_layer _ _ _ _ _ _ p q r (fun k => left_tile V c t p k r hr) (fun k => weight_tile V c t k q)
    (bias_tile V c t p q r hr)

/-- An index of the output is in point t's block iff each coordinate is in the block's range on its axis. -/
theorem mem_blk (t : Fin cfg1.N) (i : S200704x300.Idx) :
    i ∈ ((cfg1.win 3).blk t).view.set ↔ ∀ a : Fin 2, win1_3.index t a * S2048x300.size a ≤ (i a).val
      ∧ (i a).val < win1_3.index t a * S2048x300.size a + S2048x300.size a := by
  show i ∈ ((View.whole main_v26).slice (win1_3.rect t)).set ↔ _
  rw [View.set_slice_whole, Rect.mem_set_unit]
  exact Iff.rfl

/-- The tiles cover the output: row r is in the tile of point r / 2048, every column in the one column block. -/
theorem cover (i : S200704x300.Idx) :
    ∃ t : Fin cfg1.N, (cfg1.win 3).flush t = true ∧ i ∈ ((cfg1.win 3).blk t).view.set := by
  have hN : cfg1.N = 98 := N_1
  have hi0 : (i 0).val < 200704 := (i 0).isLt
  have hi1 : (i 1).val < 300 := (i 1).isLt
  obtain ⟨t, ht⟩ : ∃ t : Fin cfg1.N, t.val = (i 0).val / 2048 := ⟨⟨(i 0).val / 2048, by omega⟩, rfl⟩
  obtain ⟨-, -, -, -, -, -, e6, e7⟩ := idx_facts t
  refine ⟨t, flush1_3 t, ?_⟩
  rw [mem_blk]
  intro a
  match a with
  | ⟨0, _⟩ =>
    show win1_3.index t (0 : Fin 2) * 2048 ≤ (i 0).val ∧ (i 0).val < win1_3.index t (0 : Fin 2) * 2048 + 2048
    rw [e6, ht]; omega
  | ⟨1, _⟩ =>
    show win1_3.index t (1 : Fin 2) * 300 ≤ (i 1).val ∧ (i 1).val < win1_3.index t (1 : Fin 2) * 300 + 300
    rw [e7]; omega

/-- THE OUTPUT ARRAY after the region is the layer of the arrays the region finds. -/
theorem final (c : Dev nD) :
    (dat1 (F := Ideal) V c).arrAt 3 cfg1.N
      = layer (V c (Pipeline.arrRef spec1 0)) (V c (Pipeline.arrRef spec1 1)) (V c (Pipeline.arrRef spec1 2)) :=
  (dat1 (F := Ideal) V c).arrAt_eq_of_cover 3 _ (fun t _ => flushed_eq V c t) cover

/-- The same at an index given by its row and column. -/
theorem final_apply (c : Dev nD) (r : Fin 200704) (q : Fin 300) :
    (dat1 (F := Ideal) V c).arrAt 3 cfg1.N (ix2 r q) = relu (inB V c (ix2 r q) + lin (inX V c) (inW V c) r q) := by
  rw [final V c]
  rfl

end

end Cert.Bridge.Region1

end
-- ==== Proof.Region2.lean ====
/-
  Region 2 of the program: one layer, the positive part of a bias plus a matrix product, as a function of the arrays
  the region finds on entry.

  The region runs over 98 grid points. At point t it reads rows 2048 t … 2048 t + 2047 of the left matrix X
  (200704 × 300) and of the bias (200704 × 300) and the whole weight W (300 × 300); it multiplies the row tile by the
  weight on the matrix unit into zeros, adds the product to the bias tile (bias first, product second), takes the
  positive part against zero, and writes the result to the same rows of the output. Entry (p, q) of a tile's product
  is the sum over k of X (2048 t + p, k) · W (k, q): a row of the result depends on the same row of X only. Row r of
  the output lies in tile r / 2048 and the one column block holds all 300 columns, so the 98 tiles cover the output,
  and after the region the output at (r, q) is relu (bias (r, q) + Σ_k X (r, k) · W (k, q)), whatever the entry
  contents of the region's arrays are.
-/
import proofs.«149416_j37142877176027_1_alg».proof.Proof.Gen.KernelIdeal.Frame
import proofs.«149416_j37142877176027_1_alg».proof.Proof.LibMatmulPlain
import proofs.«149416_j37142877176027_1_alg».proof.Proof.Spec
import Idealize.ShloMosaic.Lib.ValueIdx
import Idealize.ShloMosaic.Lib.Pipeline.Value
import Idealize.ShloMosaic.PureOps.Ideal.Laws

noncomputable section

namespace Cert.Bridge.Region2

open Cert.KernelIdeal Cert.KernelIdeal.Gen Idealize.ShloMosaic Idealize.ShloMosaic.TcCoe Idealize.SL.Sem
open Idealize.ShloMosaic.ValueIdx
open Idealize.ShloMosaic.Pipeline (Dat)
open Cert.Bridge.Spec

/-- The layer on whole arrays: at (r, q) the positive part of the bias there plus row r of X against column q of W. -/
def layer (X : S200704x300.Idx → EReal) (W : S300x300.Idx → EReal) (B : S200704x300.Idx → EReal) :
    S200704x300.Idx → EReal :=
  fun i => relu (B i + lin (B := 200704) (K := 300) (M := 300) X W (i 0) (i 1))

theorem layer_apply (X : S200704x300.Idx → EReal) (W : S300x300.Idx → EReal) (B : S200704x300.Idx → EReal)
    (r : Fin 200704) (q : Fin 300) : layer X W B (ix2 r q) = relu (B (ix2 r q) + lin X W r q) := rfl

/-! ## One tile: the body's stored value at an index -/

/-- A row tile times the weight, into zeros, at (p, q): the sum over the shared axis. -/
theorem tile_product (a : FVec Ideal S2048x300 .bf16) (b : FVec Ideal S300x300 .bf16) (p : Fin 2048) (q : Fin 300) :
    matmul dot_S2048x300_S300x300_S2048x300_1_0_0_1_n_n none a b (constant (F := Ideal) S2048x300 .f32 0x00000000#32) (ix2 p q)
      = ∑ k : Fin 300, a (ix2 p k) * b (ix2 k q) :=
  Cert.Lib.MatmulPlain.matmul_zero_apply (B := 2048) (K := 300) (M := 300)
    dot_S2048x300_S300x300_S2048x300_1_0_0_1_n_n.wf none a b p q

/-- What the body stores, at (p, q) of the tile: the positive part of the bias tile there plus row p of the left tile
    against column q of the weight. -/
theorem pay2_apply (x0 : Vec Ideal S2048x300 .f32) (x1 : Vec Ideal S300x300 .f32) (x2 : Vec Ideal S2048x300 .f32)
    (p : Fin 2048) (q : Fin 300) :
    k2_pay1 x0 x1 x2 (ix2 p q) = relu (x2 (ix2 p q) + lin (B := 2048) (K := 300) (M := 300) x0 x1 p q) := by
  unfold k2_pay1
  simp only [shapeCast_self]
  refine (maximumf_apply _ _ (ix2 p q)).trans ?_
  rw [addf_apply, tile_product, broadcast_apply]
  show max (x2 (ix2 p q) + ∑ k : Fin 300, x0 (ix2 p k) * x1 (ix2 k q)) (Ideal.ofBits .f32 0x00000000#32) = _
  rw [Ideal.ofBits_zero_f32]
  rfl

/-- One tile of the layer: when the three tiles hold rows r … of the arrays (the weight's tile the weight), what the
    body stores at (p, q) is the layer at (r, q). -/
theorem tile_layer (x0 : Vec Ideal S2048x300 .f32) (x1 : Vec Ideal S300x300 .f32) (x2 : Vec Ideal S2048x300 .f32)
    (X : S200704x300.Idx → EReal) (W : S300x300.Idx → EReal) (B : S200704x300.Idx → EReal)
    (p : Fin 2048) (q : Fin 300) (r : Fin 200704)
    (h0 : ∀ k : Fin 300, x0 (ix2 p k) = X (ix2 r k)) (h1 : ∀ k : Fin 300, x1 (ix2 k q) = W (ix2 k q))
    (h2 : x2 (ix2 p q) = B (ix2 r q)) :
    k2_pay1 x0 x1 x2 (ix2 p q) = layer X W B (ix2 r q) := by
  rw [pay2_apply, layer_apply, h2]
  unfold lin
  rw [Finset.sum_congr rfl fun k _ => by rw [h0 k, h1 k]]

/-! ## The grid: which block of each array a point reads and writes -/

theorem hz : (![0, 0] : Fin 2 → Nat) = fun _ => 0 := funext fun a => by fin_cases a <;> rfl

/-- The index maps over the 98 points: the left matrix, the bias and the output move down one row tile per point, in
    the one column block; the weight stays. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

section

variable (V : (c : Dev nD) → (b : Ref sig .tc) → Buf (Elt Ideal) ((c : Thread nD τ).loc b))

/-- The arrays the region finds on entry: the left matrix, the weight, the bias. -/
abbrev inX (c : Dev nD) : S200704x300.Idx → EReal := V c (Pipeline.arrRef spec2 0)
abbrev inW (c : Dev nD) : S300x300.Idx → EReal := V c (Pipeline.arrRef spec2 1)
abbrev inB (c : Dev nD) : S200704x300.Idx → EReal := V c (Pipeline.arrRef spec2 2)

/-- The left tile at point t is rows 2048 t … of the left matrix. -/
theorem left_tile (c : Dev nD) (t : Fin cfg2.N) (p : Fin 2048) (k : Fin 300) (r : Fin 200704)
    (hr : r.val = 2048 * t.val + p.val) :
    (iblk2 V c 0 t : Vec Ideal S2048x300 .f32) (ix2 p k)
      = (V c (Pipeline.arrRef spec2 0) : S200704x300.Idx → EReal) (ix2 r k) := by
  obtain ⟨e0, e1, -⟩ := idx_facts t
  show V c (Pipeline.arrRef spec2 0) (((cfg2.win 0).blk t).view.emb (ix2 p k)) = V c (Pipeline.arrRef spec2 0) (ix2 r k)
  refine congrArg _ (funext fun a => Fin.ext ?_)
  match a with
  | ⟨0, _⟩ => show win2_0.index t (0 : Fin 2) * 2048 + 1 * p.val = r.val; rw [e0, hr]; omega
  | ⟨1, _⟩ => show win2_0.index t (1 : Fin 2) * 300 + 1 * k.val = k.val; rw [e1]; omega

/-- The weight's one block is the weight. -/
theorem weight_tile (c : Dev nD) (t : Fin cfg2.N) (k : Fin 300) (q : Fin 300) :
    (iblk2 V c 1 t : Vec Ideal S300x300 .f32) (ix2 k q)
      = (V c (Pipeline.arrRef spec2 1) : S300x300.Idx → EReal) (ix2 k q) := by
  obtain ⟨-, -, e2, e3, -⟩ := idx_facts t
  show V c (Pipeline.arrRef spec2 1) (((cfg2.win 1).blk t).view.emb (ix2 k q)) = V c (Pipeline.arrRef spec2 1) (ix2 k q)
  refine congrArg _ (funext fun a => Fin.ext ?_)
  match a with
  | ⟨0, _⟩ => show win2_1.index t (0 : Fin 2) * 300 + 1 * k.val = k.val; rw [e2]; omega
  | ⟨1, _⟩ => show win2_1.index t (1 : Fin 2) * 300 + 1 * q.val = q.val; rw [e3]; omega

/-- The bias tile at point t is rows 2048 t … of the bias. -/
theorem bias_tile (c : Dev nD) (t : Fin cfg2.N) (p : Fin 2048) (q : Fin 300) (r : Fin 200704)
    (hr : r.val = 2048 * t.val + p.val) :
    (iblk2 V c 2 t : Vec Ideal S2048x300 .f32) (ix2 p q)
      = (V c (Pipeline.arrRef spec2 2) : S200704x300.Idx → EReal) (ix2 r q) := by
  obtain ⟨-, -, -, -, e4, e5, -⟩ := idx_facts t
  show V c (Pipeline.arrRef spec2 2) (((cfg2.win 2).blk t).view.emb (ix2 p q)) = V c (Pipeline.arrRef spec2 2) (ix2 r q)
  refine congrArg _ (funext fun a => Fin.ext ?_)
  match a with
  | ⟨0, _⟩ => show win2_2.index t (0 : Fin 2) * 2048 + 1 * p.val = r.val; rw [e4, hr]; omega
  | ⟨1, _⟩ => show win2_2.index t (1 : Fin 2) * 300 + 1 * q.val = q.val; rw [e5]; omega

/-- The output's tile at point t sits at rows 2048 t … of the output. -/
theorem out_tile_emb (t : Fin cfg2.N) (p : Fin 2048) (q : Fin 300) (r : Fin 200704)
    (hr : r.val = 2048 * t.val + p.val) :
    (((cfg2.win 3).blk t).view.emb (ix2 p q) : S200704x300.Idx) = ix2 r q := by
  obtain ⟨-, -, -, -, -, -, e6, e7⟩ := idx_facts t
  refine funext fun a => Fin.ext ?_
  match a with
  | ⟨0, _⟩ => show win2_3.index t (0 : Fin 2) * 2048 + 1 * p.val = r.val; rw [e6, hr]; omega
  | ⟨1, _⟩ => show win2_3.index t (1 : Fin 2) * 300 + 1 * q.val = q.val; rw [e7]; omega

/-- What point t writes back is tile t of the layer of the arrays the region finds. -/
theorem flushed_eq (c : Dev nD) (t : Fin cfg2.N) :
    (dat2 (F := Ideal) V c).flushed 3 t = ((cfg2.win 3).blk t).view.read (Elt Ideal)
      (layer (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S2048x300) hz, View.ld_unit_zero (S := S300x300) hz]
  funext j
  obtain ⟨p, q, rfl⟩ : ∃ (p : Fin 2048) (q : Fin 300), j = ix2 p q := ⟨j 0, j 1, eq_ix2 j⟩
  have hN : cfg2.N = 98 := N_2
  have ht : t.val < cfg2.N := t.isLt
  have hp : p.val < 2048 := p.isLt
  obtain ⟨r, hr⟩ : ∃ r : Fin 200704, r.val = 2048 * t.val + p.val := ⟨⟨2048 * t.val + p.val, by omega⟩, rfl⟩
  show k2_pay1 (iblk2 V c 0 t) (iblk2 V c 1 t) (iblk2 V c 2 t) (ix2 p q)
    = layer (V c (Pipeline.arrRef spec2 0)) (V c (Pipeline.arrRef spec2 1)) (V c (Pipeline.arrRef spec2 2))
        (((cfg2.win 3).blk t).view.emb (ix2 p q))
  rw [out_tile_emb t p q r hr]
  exact tile_layer _ _ _ _ _ _ p q r (fun k => left_tile V c t p k r hr) (fun k => weight_tile V c t k q)
    (bias_tile V c t p q r hr)

/-- An index of the output is in point t's block iff each coordinate is in the block's range on its axis. -/
theorem mem_blk (t : Fin cfg2.N) (i : S200704x300.Idx) :
    i ∈ ((cfg2.win 3).blk t).view.set ↔ ∀ a : Fin 2, win2_3.index t a * S2048x300.size a ≤ (i a).val
      ∧ (i a).val < win2_3.index t a * S2048x300.size a + S2048x300.size a := by
  show i ∈ ((View.whole main_v51).slice (win2_3.rect t)).set ↔ _
  rw [View.set_slice_whole, Rect.mem_set_unit]
  exact Iff.rfl

/-- The tiles cover the output: row r is in the tile of point r / 2048, every column in the one column block. -/
theorem cover (i : S200704x300.Idx) :
    ∃ t : Fin cfg2.N, (cfg2.win 3).flush t = true ∧ i ∈ ((cfg2.win 3).blk t).view.set := by
  have hN : cfg2.N = 98 := N_2
  have hi0 : (i 0).val < 200704 := (i 0).isLt
  have hi1 : (i 1).val < 300 := (i 1).isLt
  obtain ⟨t, ht⟩ : ∃ t : Fin cfg2.N, t.val = (i 0).val / 2048 := ⟨⟨(i 0).val / 2048, by omega⟩, rfl⟩
  obtain ⟨-, -, -, -, -, -, e6, e7⟩ := idx_facts t
  refine ⟨t, flush2_3 t, ?_⟩
  rw [mem_blk]
  intro a
  match a with
  | ⟨0, _⟩ =>
    show win2_3.index t (0 : Fin 2) * 2048 ≤ (i 0).val ∧ (i 0).val < win2_3.index t (0 : Fin 2) * 2048 + 2048
    rw [e6, ht]; omega
  | ⟨1, _⟩ =>
    show win2_3.index t (1 : Fin 2) * 300 ≤ (i 1).val ∧ (i 1).val < win2_3.index t (1 : Fin 2) * 300 + 300
    rw [e7]; omega

/-- THE OUTPUT ARRAY after the region is the layer of the arrays the region finds. -/
theorem final (c : Dev nD) :
    (dat2 (F := Ideal) V c).arrAt 3 cfg2.N
      = layer (V c (Pipeline.arrRef spec2 0)) (V c (Pipeline.arrRef spec2 1)) (V c (Pipeline.arrRef spec2 2)) :=
  (dat2 (F := Ideal) V c).arrAt_eq_of_cover 3 _ (fun t _ => flushed_eq V c t) cover

/-- The same at an index given by its row and column. -/
theorem final_apply (c : Dev nD) (r : Fin 200704) (q : Fin 300) :
    (dat2 (F := Ideal) V c).arrAt 3 cfg2.N (ix2 r q) = relu (inB V c (ix2 r q) + lin (inX V c) (inW V c) r q) := by
  rw [final V c]
  rfl

end

end Cert.Bridge.Region2

end
-- ==== Proof.KFold1.lean ====
/-
  The kernel program's fold of buffer contents, read boundary by boundary as the stages of the network: the first
  three regions (the first product and the three message tables). The readout and the tail are in KFold.
  At the exit of each region the region's output array is the layer the tile body computes, of the
  arrays the region found on entry; the host operations between two regions gather, add, subtract and append zero
  rows; no operation and no region writes an argument array, so each argument is carried unchanged to wherever it is
  read. Followed from the launch to the return, the result buffer holds `KStages.result` of the ten argument arrays.
-/
import proofs.«149416_j37142877176027_1_alg».proof.Proof.Gen.KernelIdeal.Frame
import proofs.«149416_j37142877176027_1_alg».proof.Proof.KStages
import proofs.«149416_j37142877176027_1_alg».proof.Proof.Region0
import proofs.«149416_j37142877176027_1_alg».proof.Proof.Region1
import proofs.«149416_j37142877176027_1_alg».proof.Proof.Region2

set_option maxRecDepth 16384

noncomputable section

namespace Cert.Bridge.KFold

open Cert.KernelIdeal Cert.KernelIdeal.Gen Cert.Bridge.KStages
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a stretch writes holds after the stretch what it held before. -/
local macro "unwritten" : tactic => `(tactic| exact StableHlo.after_of_forall_not_mem _ _ (List.forall_iff_forall_mem.mp (by
  simp only [hostOps0, hostOps0_1, hostOps1, hostOps1_1, hostOps2, hostOps2_1, hostOps3, hostOps3_1, hostOps3_2, hostOps4,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-! ## A buffer nobody writes is carried from one region's exit to the next -/

theorem carry3 (c : Dev nD) (b : Ref sig .tc) (hne : ∀ w, Pipeline.arrRef spec0 w ≠ b)
    (h1 : W1 m ρ c (Proc.devRef .tc b) = W0 m ρ c (Proc.devRef .tc b)) (h2 : W2 m ρ c (Proc.devRef .tc b) = W1 m ρ c (Proc.devRef .tc b)) :
    W3 m ρ c (Proc.devRef .tc b) = m ((c.tc : Thread nD τ).loc b) :=
  (W3_of_ne m ρ c b hne).trans (h2.trans (h1.trans rfl))

theorem carry6 (c : Dev nD) (b : Ref sig .tc) (hne : ∀ w, Pipeline.arrRef spec1 w ≠ b)
    (h4 : W4 m ρ c (Proc.devRef .tc b) = W3 m ρ c (Proc.devRef .tc b)) (h5 : W5 m ρ c (Proc.devRef .tc b) = W4 m ρ c (Proc.devRef .tc b)) :
    W6 m ρ c (Proc.devRef .tc b) = W3 m ρ c (Proc.devRef .tc b) :=
  (W6_of_ne m ρ c b hne).trans (h5.trans h4)

theorem carry9 (c : Dev nD) (b : Ref sig .tc) (hne : ∀ w, Pipeline.arrRef spec2 w ≠ b)
    (h7 : W7 m ρ c (Proc.devRef .tc b) = W6 m ρ c (Proc.devRef .tc b)) (h8 : W8 m ρ c (Proc.devRef .tc b) = W7 m ρ c (Proc.devRef .tc b)) :
    W9 m ρ c (Proc.devRef .tc b) = W6 m ρ c (Proc.devRef .tc b) :=
  (W9_of_ne m ρ c b hne).trans (h8.trans h7)

theorem carry13 (c : Dev nD) (b : Ref sig .tc) (hne : ∀ w, Pipeline.arrRef spec3 w ≠ b)
    (h10 : W10 m ρ c (Proc.devRef .tc b) = W9 m ρ c (Proc.devRef .tc b)) (h11 : W11 m ρ c (Proc.devRef .tc b) = W10 m ρ c (Proc.devRef .tc b))
    (h12 : W12 m ρ c (Proc.devRef .tc b) = W11 m ρ c (Proc.devRef .tc b)) :
    W13 m ρ c (Proc.devRef .tc b) = W9 m ρ c (Proc.devRef .tc b) :=
  (W13_of_ne m ρ c b hne).trans (h12.trans (h11.trans h10))

/-! ## The arguments at each region's exit -/
theorem W3_arg0 (c : Dev nD) : W3 m ρ c (Proc.devRef .tc main_arg0) = m ((c.tc : Thread nD τ).loc main_arg0) :=
  carry3 m ρ c main_arg0 (by decide) (by unwritten) (by unwritten)
theorem W3_arg3 (c : Dev nD) : W3 m ρ c (Proc.devRef .tc main_arg3) = m ((c.tc : Thread nD τ).loc main_arg3) :=
  carry3 m ρ c main_arg3 (by decide) (by unwritten) (by unwritten)
theorem W3_arg4 (c : Dev nD) : W3 m ρ c (Proc.devRef .tc main_arg4) = m ((c.tc : Thread nD τ).loc main_arg4) :=
  carry3 m ρ c main_arg4 (by decide) (by unwritten) (by unwritten)
theorem W3_arg5 (c : Dev nD) : W3 m ρ c (Proc.devRef .tc main_arg5) = m ((c.tc : Thread nD τ).loc main_arg5) :=
  carry3 m ρ c main_arg5 (by decide) (by unwritten) (by unwritten)
theorem W3_arg6 (c : Dev nD) : W3 m ρ c (Proc.devRef .tc main_arg6) = m ((c.tc : Thread nD τ).loc main_arg6) :=
  carry3 m ρ c main_arg6 (by decide) (by unwritten) (by unwritten)
theorem W3_arg7 (c : Dev nD) : W3 m ρ c (Proc.devRef .tc main_arg7) = m ((c.tc : Thread nD τ).loc main_arg7) :=
  carry3 m ρ c main_arg7 (by decide) (by unwritten) (by unwritten)
theorem W3_arg8 (c : Dev nD) : W3 m ρ c (Proc.devRef .tc main_arg8) = m ((c.tc : Thread nD τ).loc main_arg8) :=
  carry3 m ρ c main_arg8 (by decide) (by unwritten) (by unwritten)
theorem W3_arg9 (c : Dev nD) : W3 m ρ c (Proc.devRef .tc main_arg9) = m ((c.tc : Thread nD τ).loc main_arg9) :=
  carry3 m ρ c main_arg9 (by decide) (by unwritten) (by unwritten)
theorem W6_arg0 (c : Dev nD) : W6 m ρ c (Proc.devRef .tc main_arg0) = m ((c.tc : Thread nD τ).loc main_arg0) :=
  (carry6 m ρ c main_arg0 (by decide) (by unwritten) (by unwritten)).trans (W3_arg0 m ρ c)
theorem W6_arg4 (c : Dev nD) : W6 m ρ c (Proc.devRef .tc main_arg4) = m ((c.tc : Thread nD τ).loc main_arg4) :=
  (carry6 m ρ c main_arg4 (by decide) (by unwritten) (by unwritten)).trans (W3_arg4 m ρ c)
theorem W6_arg5 (c : Dev nD) : W6 m ρ c (Proc.devRef .tc main_arg5) = m ((c.tc : Thread nD τ).loc main_arg5) :=
  (carry6 m ρ c main_arg5 (by decide) (by unwritten) (by unwritten)).trans (W3_arg5 m ρ c)
theorem W6_arg6 (c : Dev nD) : W6 m ρ c (Proc.devRef .tc main_arg6) = m ((c.tc : Thread nD τ).loc main_arg6) :=
  (carry6 m ρ c main_arg6 (by decide) (by unwritten) (by unwritten)).trans (W3_arg6 m ρ c)
theorem W6_arg7 (c : Dev nD) : W6 m ρ c (Proc.devRef .tc main_arg7) = m ((c.tc : Thread nD τ).loc main_arg7) :=
  (carry6 m ρ c main_arg7 (by decide) (by unwritten) (by unwritten)).trans (W3_arg7 m ρ c)
theorem W6_arg8 (c : Dev nD) : W6 m ρ c (Proc.devRef .tc main_arg8) = m ((c.tc : Thread nD τ).loc main_arg8) :=
  (carry6 m ρ c main_arg8 (by decide) (by unwritten) (by unwritten)).trans (W3_arg8 m ρ c)
theorem W6_arg9 (c : Dev nD) : W6 m ρ c (Proc.devRef .tc main_arg9) = m ((c.tc : Thread nD τ).loc main_arg9) :=
  (carry6 m ρ c main_arg9 (by decide) (by unwritten) (by unwritten)).trans (W3_arg9 m ρ c)
theorem W9_arg0 (c : Dev nD) : W9 m ρ c (Proc.devRef .tc main_arg0) = m ((c.tc : Thread nD τ).loc main_arg0) :=
  (carry9 m ρ c main_arg0 (by decide) (by unwritten) (by unwritten)).trans (W6_arg0 m ρ c)
theorem W9_arg4 (c : Dev nD) : W9 m ρ c (Proc.devRef .tc main_arg4) = m ((c.tc : Thread nD τ).loc main_arg4) :=
  (carry9 m ρ c main_arg4 (by decide) (by unwritten) (by unwritten)).trans (W6_arg4 m ρ c)
theorem W9_arg5 (c : Dev nD) : W9 m ρ c (Proc.devRef .tc main_arg5) = m ((c.tc : Thread nD τ).loc main_arg5) :=
  (carry9 m ρ c main_arg5 (by decide) (by unwritten) (by unwritten)).trans (W6_arg5 m ρ c)
theorem W9_arg6 (c : Dev nD) : W9 m ρ c (Proc.devRef .tc main_arg6) = m ((c.tc : Thread nD τ).loc main_arg6) :=
  (carry9 m ρ c main_arg6 (by decide) (by unwritten) (by unwritten)).trans (W6_arg6 m ρ c)
theorem W9_arg9 (c : Dev nD) : W9 m ρ c (Proc.devRef .tc main_arg9) = m ((c.tc : Thread nD τ).loc main_arg9) :=
  (carry9 m ρ c main_arg9 (by decide) (by unwritten) (by unwritten)).trans (W6_arg9 m ρ c)
theorem W13_arg9 (c : Dev nD) : W13 m ρ c (Proc.devRef .tc main_arg9) = m ((c.tc : Thread nD τ).loc main_arg9) :=
  (carry13 m ρ c main_arg9 (by decide) (by unwritten) (by unwritten) (by unwritten)).trans (W9_arg9 m ρ c)

/-! ## Region 0: the first product and the first message table -/

theorem V2_v0 (c : Dev nD) : V2 m ρ c main_v0 = padFeat (m ((c.tc : Thread nD τ).loc main_arg1)) := by
  show StableHlo.after hostOps0_1 (StableHlo.after hostOps0 (W0 m ρ c)) (Proc.devRef .tc main_v0) = _
  after_results
  rfl

theorem V2_arg2 (c : Dev nD) : V2 m ρ c main_arg2 = m ((c.tc : Thread nD τ).loc main_arg2) := by
  show StableHlo.after hostOps0_1 (StableHlo.after hostOps0 (W0 m ρ c)) (Proc.devRef .tc main_arg2) = _
  after_results

theorem W3_pre (c : Dev nD) : W3 m ρ c (Proc.devRef .tc main_v1_0) = firstProd (m ((c.tc : Thread nD τ).loc main_arg1)) (m ((c.tc : Thread nD τ).loc main_arg2)) :=
  (W3_arr m ρ c 2).trans <| (Region0.final2 (V2 m ρ) c).trans <| by
    show Region0.prod (V2 m ρ c main_v0) (V2 m ρ c main_arg2) = _
    rw [V2_v0, V2_arg2]; rfl

theorem W3_act (c : Dev nD) : W3 m ρ c (Proc.devRef .tc main_v1_1) = firstTable (m ((c.tc : Thread nD τ).loc main_arg1)) (m ((c.tc : Thread nD τ).loc main_arg2)) :=
  (W3_arr m ρ c 3).trans <| (Region0.final3 (V2 m ρ) c).trans <| by
    show Region0.layer (V2 m ρ c main_v0) (V2 m ρ c main_arg2) = _
    rw [V2_v0, V2_arg2]; rfl

/-! ## Region 1: the second message table -/

set_option maxHeartbeats 8000000 in
theorem V5_v25 (c : Dev nD) : V5 m ρ c main_v25
    = padBond (bondIn (W3 m ρ c (Proc.devRef .tc main_v1_1)) (W3 m ρ c (Proc.devRef .tc main_arg6)) (W3 m ρ c (Proc.devRef .tc main_arg7)) (W3 m ρ c (Proc.devRef .tc main_arg8))) := by
  show StableHlo.after hostOps1_1 (StableHlo.after hostOps1 (W3 m ρ c)) (Proc.devRef .tc main_v25) = _
  after_results_simp
  all_goals rfl

theorem V5_arg3 (c : Dev nD) : V5 m ρ c main_arg3 = m ((c.tc : Thread nD τ).loc main_arg3) :=
  (show W5 m ρ c (Proc.devRef .tc main_arg3) = W4 m ρ c (Proc.devRef .tc main_arg3) by unwritten).trans
    ((show W4 m ρ c (Proc.devRef .tc main_arg3) = W3 m ρ c (Proc.devRef .tc main_arg3) by unwritten).trans (W3_arg3 m ρ c))

theorem V5_pre (c : Dev nD) : V5 m ρ c main_v1_0 = firstProd (m ((c.tc : Thread nD τ).loc main_arg1)) (m ((c.tc : Thread nD τ).loc main_arg2)) :=
  (show W5 m ρ c (Proc.devRef .tc main_v1_0) = W4 m ρ c (Proc.devRef .tc main_v1_0) by unwritten).trans
    ((show W4 m ρ c (Proc.devRef .tc main_v1_0) = W3 m ρ c (Proc.devRef .tc main_v1_0) by unwritten).trans (W3_pre m ρ c))

/-- The table after the first round of message passing. -/
abbrev table1 (c : Dev nD) : FVec Ideal S200704x300 .f32 :=
  nextTable (firstProd (m ((c.tc : Thread nD τ).loc main_arg1)) (m ((c.tc : Thread nD τ).loc main_arg2))) (firstTable (m ((c.tc : Thread nD τ).loc main_arg1)) (m ((c.tc : Thread nD τ).loc main_arg2)))
    (m ((c.tc : Thread nD τ).loc main_arg3)) (m ((c.tc : Thread nD τ).loc main_arg6)) (m ((c.tc : Thread nD τ).loc main_arg7)) (m ((c.tc : Thread nD τ).loc main_arg8))

theorem W6_tab (c : Dev nD) : W6 m ρ c (Proc.devRef .tc main_v26) = table1 m c :=
  (W6_arr m ρ c 3).trans <| (Region1.final (V5 m ρ) c).trans <| by
    show Region1.layer (V5 m ρ c main_v25) (V5 m ρ c main_arg3) (V5 m ρ c main_v1_0) = _
    rw [V5_v25, V5_arg3, V5_pre, W3_act, W3_arg6, W3_arg7, W3_arg8]; rfl

/-- The first product is an input of region 1: the region leaves it as entered. -/
theorem W6_pre (c : Dev nD) : W6 m ρ c (Proc.devRef .tc main_v1_0) = firstProd (m ((c.tc : Thread nD τ).loc main_arg1)) (m ((c.tc : Thread nD τ).loc main_arg2)) :=
  (W6_arr m ρ c 2).trans (((dat1 (V5 m ρ) c).arrAt_in 2 rfl _).trans ((A_eq1 (V5 m ρ) c 2).trans (V5_pre m ρ c)))

/-- The hidden weight is an input of region 1: the region leaves it as entered. -/
theorem W6_arg3 (c : Dev nD) : W6 m ρ c (Proc.devRef .tc main_arg3) = m ((c.tc : Thread nD τ).loc main_arg3) :=
  (W6_arr m ρ c 1).trans (((dat1 (V5 m ρ) c).arrAt_in 1 rfl _).trans ((A_eq1 (V5 m ρ) c 1).trans (V5_arg3 m ρ c)))

/-! ## Region 2: the third message table -/

set_option maxHeartbeats 8000000 in
theorem V8_v50 (c : Dev nD) : V8 m ρ c main_v50
    = padBond (bondIn (W6 m ρ c (Proc.devRef .tc main_v26)) (W6 m ρ c (Proc.devRef .tc main_arg6)) (W6 m ρ c (Proc.devRef .tc main_arg7)) (W6 m ρ c (Proc.devRef .tc main_arg8))) := by
  show StableHlo.after hostOps2_1 (StableHlo.after hostOps2 (W6 m ρ c)) (Proc.devRef .tc main_v50) = _
  after_results_simp
  all_goals rfl

theorem V8_arg3 (c : Dev nD) : V8 m ρ c main_arg3 = m ((c.tc : Thread nD τ).loc main_arg3) :=
  (show W8 m ρ c (Proc.devRef .tc main_arg3) = W7 m ρ c (Proc.devRef .tc main_arg3) by unwritten).trans
    ((show W7 m ρ c (Proc.devRef .tc main_arg3) = W6 m ρ c (Proc.devRef .tc main_arg3) by unwritten).trans (W6_arg3 m ρ c))

theorem V8_pre (c : Dev nD) : V8 m ρ c main_v1_0 = firstProd (m ((c.tc : Thread nD τ).loc main_arg1)) (m ((c.tc : Thread nD τ).loc main_arg2)) :=
  (show W8 m ρ c (Proc.devRef .tc main_v1_0) = W7 m ρ c (Proc.devRef .tc main_v1_0) by unwritten).trans
    ((show W7 m ρ c (Proc.devRef .tc main_v1_0) = W6 m ρ c (Proc.devRef .tc main_v1_0) by unwritten).trans (W6_pre m ρ c))

/-- The table after the second round of message passing. -/
abbrev table2 (c : Dev nD) : FVec Ideal S200704x300 .f32 :=
  nextTable (firstProd (m ((c.tc : Thread nD τ).loc main_arg1)) (m ((c.tc : Thread nD τ).loc main_arg2))) (table1 m c)
    (m ((c.tc : Thread nD τ).loc main_arg3)) (m ((c.tc : Thread nD τ).loc main_arg6)) (m ((c.tc : Thread nD τ).loc main_arg7)) (m ((c.tc : Thread nD τ).loc main_arg8))

theorem W9_tab (c : Dev nD) : W9 m ρ c (Proc.devRef .tc main_v51) = table2 m c :=
  (W9_arr m ρ c 3).trans <| (Region2.final (V8 m ρ) c).trans <| by
    show Region2.layer (V8 m ρ c main_v50) (V8 m ρ c main_arg3) (V8 m ρ c main_v1_0) = _
    rw [V8_v50, V8_arg3, V8_pre, W6_tab, W6_arg6, W6_arg7, W6_arg8]; rfl

end Cert.Bridge.KFold

end
-- ==== Proof.Region3.lean ====
/-
  Region 3 of the program: the readout layer, the positive part of a matrix product plus a bias row, as a function of
  the arrays the region finds on entry.

  The region runs over 49 grid points. At point t it reads rows 2048 t … 2048 t + 2047 of the left matrix X
  (100352 × 433), the whole weight W (433 × 300) and the one bias row b (1 × 300); it multiplies the row tile by the
  weight on the matrix unit into zeros, spreads the bias row over the tile's 2048 rows, adds it to the product (product
  first, bias second), takes the positive part against zero, and writes the result to the same rows of the output.
  Entry (p, q) of a tile's product is the sum over k of X (2048 t + p, k) · W (k, q): a row of the result depends on
  the same row of X only. Row r of the output lies in tile r / 2048 and the one column block holds all 300 columns, so
  the 49 tiles cover the output, and after the region the output at (r, q) is relu (Σ_k X (r, k) · W (k, q) + b (0, q)),
  whatever the entry contents of the region's arrays are.
-/
import proofs.«149416_j37142877176027_1_alg».proof.Proof.Gen.KernelIdeal.Frame
import proofs.«149416_j37142877176027_1_alg».proof.Proof.LibMatmulPlain
import proofs.«149416_j37142877176027_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge.Region3

open Cert.KernelIdeal Cert.KernelIdeal.Gen Idealize.ShloMosaic Idealize.ShloMosaic.TcCoe Idealize.SL.Sem
open Idealize.ShloMosaic.ValueIdx
open Idealize.ShloMosaic.Pipeline (Dat)
open Cert.Bridge.Spec

/-- The layer on whole arrays: at (r, q) the positive part of row r of X against column q of W plus the bias row at q. -/
def layer (X : S100352x433.Idx → EReal) (W : S433x300.Idx → EReal) (B : S1x300.Idx → EReal) :
    S100352x300.Idx → EReal :=
  fun i => relu (lin (B := 100352) (K := 433) (M := 300) X W (i 0) (i 1) + B (ix2 (n0 := 1) (n1 := 300) 0 (i 1)))

theorem layer_apply (X : S100352x433.Idx → EReal) (W : S433x300.Idx → EReal) (B : S1x300.Idx → EReal)
    (r : Fin 100352) (q : Fin 300) : layer X W B (ix2 r q) = relu (lin X W r q + B (ix2 (0 : Fin 1) q)) := rfl

/-! ## One tile: the body's stored value at an index -/

/-- A row tile times the weight, into zeros, at (p, q): the sum over the shared axis. -/
theorem tile_product (a : FVec Ideal S2048x433 .bf16) (b : FVec Ideal S433x300 .bf16) (p : Fin 2048) (q : Fin 300) :
    matmul dot_S2048x433_S433x300_S2048x300_1_0_0_1_n_n none a b (constant (F := Ideal) S2048x300 .f32 0x00000000#32) (ix2 p q)
      = ∑ k : Fin 433, a (ix2 p k) * b (ix2 k q) :=
  Cert.Lib.MatmulPlain.matmul_zero_apply (B := 2048) (K := 433) (M := 300)
    dot_S2048x433_S433x300_S2048x300_1_0_0_1_n_n.wf none a b p q

/-- What the body stores, at (p, q) of the tile: the positive part of row p of the left tile against column q of the
    weight plus the bias row at q. -/
theorem pay1_apply (x0 : Vec Ideal S2048x433 .f32) (x1 : Vec Ideal S433x300 .f32) (x2 : Vec Ideal S1x300 .f32)
    (p : Fin 2048) (q : Fin 300) :
    k3_pay1 x0 x1 x2 (ix2 p q)
      = relu (lin (B := 2048) (K := 433) (M := 300) x0 x1 p q + x2 (ix2 (0 : Fin 1) q)) := by
  unfold k3_pay1
  simp only [shapeCast_self]
  refine (maximumf_apply _ _ (ix2 p q)).trans ?_
  rw [addf_apply, tile_product, broadcast_apply,
    broadcastTo_1b_ab_apply (a := 2048) (b := 300) x2 broadcasts_S1x300_S2048x300 p q]
  show max (∑ k : Fin 433, x0 (ix2 p k) * x1 (ix2 k q) + x2 (ix2 (0 : Fin 1) q)) (Ideal.ofBits .f32 0x00000000#32) = _
  rw [Ideal.ofBits_zero_f32]
  rfl

/-- One tile of the layer: when the left tile holds rows r … of X, the weight's tile the weight and the bias tile the
    bias row, what the body stores at (p, q) is the layer at (r, q). -/
theorem tile_layer (x0 : Vec Ideal S2048x433 .f32) (x1 : Vec Ideal S433x300 .f32) (x2 : Vec Ideal S1x300 .f32)
    (X : S100352x433.Idx → EReal) (W : S433x300.Idx → EReal) (B : S1x300.Idx → EReal)
    (p : Fin 2048) (q : Fin 300) (r : Fin 100352)
    (h0 : ∀ k : Fin 433, x0 (ix2 p k) = X (ix2 r k)) (h1 : ∀ k : Fin 433, x1 (ix2 k q) = W (ix2 k q))
    (h2 : x2 (ix2 (0 : Fin 1) q) = B (ix2 (0 : Fin 1) q)) :
    k3_pay1 x0 x1 x2 (ix2 p q) = layer X W B (ix2 r q) := by
  rw [pay1_apply, layer_apply, h2]
  unfold lin
  rw [Finset.sum_congr rfl fun k _ => by rw [h0 k, h1 k]]

/-! ## The grid: which block of each array a point reads and writes -/

theorem hz : (![0, 0] : Fin 2 → Nat) = fun _ => 0 := funext fun a => by fin_cases a <;> rfl

/-- The index maps over the 49 points: the left matrix and the output move down one row tile per point, in the one
    column block; the weight and the bias row stay. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section

variable (V : (c : Dev nD) → (b : Ref sig .tc) → Buf (Elt Ideal) ((c : Thread nD τ).loc b))

/-- The arrays the region finds on entry: the left matrix, the weight, the bias row. -/
abbrev inX (c : Dev nD) : S100352x433.Idx → EReal := V c (Pipeline.arrRef spec3 0)
abbrev inW (c : Dev nD) : S433x300.Idx → EReal := V c (Pipeline.arrRef spec3 1)
abbrev inB (c : Dev nD) : S1x300.Idx → EReal := V c (Pipeline.arrRef spec3 2)

/-- The left tile at point t is rows 2048 t … of the left matrix. -/
theorem left_tile (c : Dev nD) (t : Fin cfg3.N) (p : Fin 2048) (k : Fin 433) (r : Fin 100352)
    (hr : r.val = 2048 * t.val + p.val) :
    (iblk3 V c 0 t : Vec Ideal S2048x433 .f32) (ix2 p k)
      = (V c (Pipeline.arrRef spec3 0) : S100352x433.Idx → EReal) (ix2 r k) := by
  obtain ⟨e0, e1, -⟩ := idx_facts t
  show V c (Pipeline.arrRef spec3 0) (((cfg3.win 0).blk t).view.emb (ix2 p k)) = V c (Pipeline.arrRef spec3 0) (ix2 r k)
  refine congrArg _ (funext fun a => Fin.ext ?_)
  match a with
  | ⟨0, _⟩ => show win3_0.index t (0 : Fin 2) * 2048 + 1 * p.val = r.val; rw [e0, hr]; omega
  | ⟨1, _⟩ => show win3_0.index t (1 : Fin 2) * 433 + 1 * k.val = k.val; rw [e1]; omega

/-- The weight's one block is the weight. -/
theorem weight_tile (c : Dev nD) (t : Fin cfg3.N) (k : Fin 433) (q : Fin 300) :
    (iblk3 V c 1 t : Vec Ideal S433x300 .f32) (ix2 k q)
      = (V c (Pipeline.arrRef spec3 1) : S433x300.Idx → EReal) (ix2 k q) := by
  obtain ⟨-, -, e2, e3, -⟩ := idx_facts t
  show V c (Pipeline.arrRef spec3 1) (((cfg3.win 1).blk t).view.emb (ix2 k q)) = V c (Pipeline.arrRef spec3 1) (ix2 k q)
  refine congrArg _ (funext fun a => Fin.ext ?_)
  match a with
  | ⟨0, _⟩ => show win3_1.index t (0 : Fin 2) * 433 + 1 * k.val = k.val; rw [e2]; omega
  | ⟨1, _⟩ => show win3_1.index t (1 : Fin 2) * 300 + 1 * q.val = q.val; rw [e3]; omega

/-- The bias row's one block is the bias row. -/
theorem bias_tile (c : Dev nD) (t : Fin cfg3.N) (q : Fin 300) :
    (iblk3 V c 2 t : Vec Ideal S1x300 .f32) (ix2 (0 : Fin 1) q)
      = (V c (Pipeline.arrRef spec3 2) : S1x300.Idx → EReal) (ix2 (0 : Fin 1) q) := by
  obtain ⟨-, -, -, -, e4, e5, -⟩ := idx_facts t
  show V c (Pipeline.arrRef spec3 2) (((cfg3.win 2).blk t).view.emb (ix2 (0 : Fin 1) q))
    = V c (Pipeline.arrRef spec3 2) (ix2 (0 : Fin 1) q)
  refine congrArg _ (funext fun a => Fin.ext ?_)
  match a with
  | ⟨0, _⟩ => show win3_2.index t (0 : Fin 2) * 1 + 1 * 0 = 0; rw [e4]
  | ⟨1, _⟩ => show win3_2.index t (1 : Fin 2) * 300 + 1 * q.val = q.val; rw [e5]; omega

/-- The output's tile at point t sits at rows 2048 t … of the output. -/
theorem out_tile_emb (t : Fin cfg3.N) (p : Fin 2048) (q : Fin 300) (r : Fin 100352)
    (hr : r.val = 2048 * t.val + p.val) :
    (((cfg3.win 3).blk t).view.emb (ix2 p q) : S100352x300.Idx) = ix2 r q := by
  obtain ⟨-, -, -, -, -, -, e6, e7⟩ := idx_facts t
  refine funext fun a => Fin.ext ?_
  match a with
  | ⟨0, _⟩ => show win3_3.index t (0 : Fin 2) * 2048 + 1 * p.val = r.val; rw [e6, hr]; omega
  | ⟨1, _⟩ => show win3_3.index t (1 : Fin 2) * 300 + 1 * q.val = q.val; rw [e7]; omega

/-- What point t writes back is tile t of the layer of the arrays the region finds. -/
theorem flushed_eq (c : Dev nD) (t : Fin cfg3.N) :
    (dat3 (F := Ideal) V c).flushed 3 t = ((cfg3.win 3).blk t).view.read (Elt Ideal)
      (layer (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S2048x433) hz, View.ld_unit_zero (S := S433x300) hz,
    View.ld_unit_zero (S := S1x300) hz]
  funext j
  obtain ⟨p, q, rfl⟩ : ∃ (p : Fin 2048) (q : Fin 300), j = ix2 p q := ⟨j 0, j 1, eq_ix2 j⟩
  have hN : cfg3.N = 49 := N_3
  have ht : t.val < cfg3.N := t.isLt
  have hp : p.val < 2048 := p.isLt
  obtain ⟨r, hr⟩ : ∃ r : Fin 100352, r.val = 2048 * t.val + p.val := ⟨⟨2048 * t.val + p.val, by omega⟩, rfl⟩
  show k3_pay1 (iblk3 V c 0 t) (iblk3 V c 1 t) (iblk3 V c 2 t) (ix2 p q)
    = layer (V c (Pipeline.arrRef spec3 0)) (V c (Pipeline.arrRef spec3 1)) (V c (Pipeline.arrRef spec3 2))
        (((cfg3.win 3).blk t).view.emb (ix2 p q))
  rw [out_tile_emb t p q r hr]
  exact tile_layer _ _ _ _ _ _ p q r (fun k => left_tile V c t p k r hr) (fun k => weight_tile V c t k q)
    (bias_tile V c t q)

/-- An index of the output is in point t's block iff each coordinate is in the block's range on its axis. -/
theorem mem_blk (t : Fin cfg3.N) (i : S100352x300.Idx) :
    i ∈ ((cfg3.win 3).blk t).view.set ↔ ∀ a : Fin 2, win3_3.index t a * S2048x300.size a ≤ (i a).val
      ∧ (i a).val < win3_3.index t a * S2048x300.size a + S2048x300.size a := by
  show i ∈ ((View.whole main_v63).slice (win3_3.rect t)).set ↔ _
  rw [View.set_slice_whole, Rect.mem_set_unit]
  exact Iff.rfl

/-- The tiles cover the output: row r is in the tile of point r / 2048, every column in the one column block. -/
theorem cover (i : S100352x300.Idx) :
    ∃ t : Fin cfg3.N, (cfg3.win 3).flush t = true ∧ i ∈ ((cfg3.win 3).blk t).view.set := by
  have hN : cfg3.N = 49 := N_3
  have hi0 : (i 0).val < 100352 := (i 0).isLt
  have hi1 : (i 1).val < 300 := (i 1).isLt
  obtain ⟨t, ht⟩ : ∃ t : Fin cfg3.N, t.val = (i 0).val / 2048 := ⟨⟨(i 0).val / 2048, by omega⟩, rfl⟩
  obtain ⟨-, -, -, -, -, -, e6, e7⟩ := idx_facts t
  refine ⟨t, flush3_3 t, ?_⟩
  rw [mem_blk]
  intro a
  match a with
  | ⟨0, _⟩ =>
    show win3_3.index t (0 : Fin 2) * 2048 ≤ (i 0).val ∧ (i 0).val < win3_3.index t (0 : Fin 2) * 2048 + 2048
    rw [e6, ht]; omega
  | ⟨1, _⟩ =>
    show win3_3.index t (1 : Fin 2) * 300 ≤ (i 1).val ∧ (i 1).val < win3_3.index t (1 : Fin 2) * 300 + 300
    rw [e7]; omega

/-- THE OUTPUT ARRAY after the region is the layer of the arrays the region finds. -/
theorem final (c : Dev nD) :
    (dat3 (F := Ideal) V c).arrAt 3 cfg3.N
      = layer (V c (Pipeline.arrRef spec3 0)) (V c (Pipeline.arrRef spec3 1)) (V c (Pipeline.arrRef spec3 2)) :=
  (dat3 (F := Ideal) V c).arrAt_eq_of_cover 3 _ (fun t _ => flushed_eq V c t) cover

/-- The same at an index given by its row and column. -/
theorem final_apply (c : Dev nD) (r : Fin 100352) (q : Fin 300) :
    (dat3 (F := Ideal) V c).arrAt 3 cfg3.N (ix2 r q)
      = relu (lin (inX V c) (inW V c) r q + inB V c (ix2 (0 : Fin 1) q)) := by
  rw [final V c]
  rfl

end

end Cert.Bridge.Region3

end
-- ==== Proof.KFold.lean ====
/-
  The kernel program's fold of buffer contents, continued: the readout region and the tail.
  Region 3 finds the atom inputs — the atom features beside the atom sums of the last message table — with zero rows
  appended, the output weight and the bias as one row; its output array is the hidden rows. The tail keeps the rows of
  atoms 1 … 100000 and averages them over molecules. Followed from the launch to the return, the result buffer holds
  `KStages.result` of the ten argument arrays.
-/
import proofs.«149416_j37142877176027_1_alg».proof.Proof.KFold1
import proofs.«149416_j37142877176027_1_alg».proof.Proof.Region3

set_option maxRecDepth 16384

noncomputable section

namespace Cert.Bridge.KFold

open Cert.KernelIdeal Cert.KernelIdeal.Gen Cert.Bridge.KStages
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a stretch writes holds after the stretch what it held before. -/
local macro "unwritten" : tactic => `(tactic| exact StableHlo.after_of_forall_not_mem _ _ (List.forall_iff_forall_mem.mp (by
  simp only [hostOps3, hostOps3_1, hostOps3_2, hostOps4,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-! ## Region 3: the hidden atom rows -/

/-! ## The stretch before region 3, cut before its concatenate

The simplifier that reads a stretch does not rewrite inside the entries of a concatenate's operand list, so the
stretch is cut in two: the eleven operations up to the atom sums, whose results are read as before, and the
concatenate with the constant after it, read over the first part's contents kept as one unopened valuation. -/

theorem after_append (L₁ L₂ : List (HloOp τ sig (Elt Ideal))) (V : Valuation τ sig (Elt Ideal)) :
    StableHlo.after (L₁ ++ L₂) V = StableHlo.after L₂ (StableHlo.after L₁ V) := by
  induction L₁ generalizing V with
  | nil => rfl
  | cons op ops ih => simp only [List.cons_append, StableHlo.after_cons, ih]

set_option maxHeartbeats 8000000 in
theorem mid_v59 (c : Dev nD) :
    StableHlo.after ((hostOps3 : List (HloOp τ sig (Elt Ideal))).take 11) (W9 m ρ c) (Proc.devRef .tc main_v59)
      = atomSum (W9 m ρ c (Proc.devRef .tc main_v51)) (W9 m ρ c (Proc.devRef .tc main_arg6)) := by
  simp only [hostOps3, List.take_succ_cons, List.take_zero]
  after_results_simp
  all_goals rfl

set_option maxHeartbeats 8000000 in
theorem mid_arg0 (c : Dev nD) :
    StableHlo.after ((hostOps3 : List (HloOp τ sig (Elt Ideal))).take 11) (W9 m ρ c) (Proc.devRef .tc main_arg0)
      = W9 m ρ c (Proc.devRef .tc main_arg0) := by
  simp only [hostOps3, List.take_succ_cons, List.take_zero]
  after_results_simp

theorem W10_v60 (c : Dev nD) : W10 m ρ c (Proc.devRef .tc main_v60)
    = atomIn (W9 m ρ c (Proc.devRef .tc main_arg0)) (W9 m ρ c (Proc.devRef .tc main_v51)) (W9 m ρ c (Proc.devRef .tc main_arg6)) := by
  show StableHlo.after hostOps3 (W9 m ρ c) (Proc.devRef .tc main_v60) = _
  rw [← List.take_append_drop 11 (hostOps3 : List (HloOp τ sig (Elt Ideal))), after_append]
  have h0 := mid_arg0 m ρ c
  have h59 := mid_v59 m ρ c
  generalize StableHlo.after ((hostOps3 : List (HloOp τ sig (Elt Ideal))).take 11) (W9 m ρ c) = V' at h0 h59 ⊢
  simp only [hostOps3, List.drop_succ_cons, List.drop_zero]
  after_results
  rw [h0, h59]
  rfl

theorem W10_c18 (c : Dev nD) : W10 m ρ c (Proc.devRef .tc main_c_18) = constantI S_ 32 0#32 := by
  show StableHlo.after hostOps3 (W9 m ρ c) (Proc.devRef .tc main_c_18) = _
  after_results

theorem V12_v61 (c : Dev nD) : V12 m ρ c main_v61
    = padAtom (atomIn (W9 m ρ c (Proc.devRef .tc main_arg0)) (W9 m ρ c (Proc.devRef .tc main_v51)) (W9 m ρ c (Proc.devRef .tc main_arg6))) := by
  have h60 := W10_v60 m ρ c
  have hc := W10_c18 m ρ c
  show StableHlo.after hostOps3_2 (StableHlo.after hostOps3_1 (W10 m ρ c)) (Proc.devRef .tc main_v61) = _
  generalize W10 m ρ c = V' at h60 hc ⊢
  after_results
  rw [h60, hc]
  rfl

set_option maxHeartbeats 8000000 in
theorem V12_v62 (c : Dev nD) : V12 m ρ c main_v62 = biasRow (W9 m ρ c (Proc.devRef .tc main_arg5)) := by
  show StableHlo.after hostOps3_2 (StableHlo.after hostOps3_1 (StableHlo.after hostOps3 (W9 m ρ c))) (Proc.devRef .tc main_v62) = _
  after_results_simp
  all_goals rfl

theorem V12_arg4 (c : Dev nD) : V12 m ρ c main_arg4 = m ((c.tc : Thread nD τ).loc main_arg4) :=
  (show W12 m ρ c (Proc.devRef .tc main_arg4) = W11 m ρ c (Proc.devRef .tc main_arg4) by unwritten).trans
    ((show W11 m ρ c (Proc.devRef .tc main_arg4) = W10 m ρ c (Proc.devRef .tc main_arg4) by unwritten).trans
      ((show W10 m ρ c (Proc.devRef .tc main_arg4) = W9 m ρ c (Proc.devRef .tc main_arg4) by unwritten).trans (W9_arg4 m ρ c)))

theorem W13_hid (c : Dev nD) : W13 m ρ c (Proc.devRef .tc main_v63)
    = hidden (m ((c.tc : Thread nD τ).loc main_arg0)) (table2 m c) (m ((c.tc : Thread nD τ).loc main_arg4)) (m ((c.tc : Thread nD τ).loc main_arg5)) (m ((c.tc : Thread nD τ).loc main_arg6)) :=
  (W13_arr m ρ c 3).trans <| (Region3.final (V12 m ρ) c).trans <| by
    show Region3.layer (V12 m ρ c main_v61) (V12 m ρ c main_arg4) (V12 m ρ c main_v62) = _
    rw [V12_v61, V12_arg4, V12_v62, W9_tab, W9_arg0, W9_arg6, W9_arg5]; rfl

/-! ## The tail: the hidden rows pooled over molecules -/

set_option maxHeartbeats 8000000 in
theorem W14_pool (c : Dev nD) : W14 m ρ c (Proc.devRef .tc main_v77)
    = pool (hiddenRows (W13 m ρ c (Proc.devRef .tc main_v63))) (W13 m ρ c (Proc.devRef .tc main_arg9)) := by
  show StableHlo.after hostOps4 (W13 m ρ c) (Proc.devRef .tc main_v77) = _
  after_results_simp
  all_goals rfl

/-- THE RESULT BUFFER at the last boundary is the kernel program's result function of the ten argument arrays. -/
theorem W14_res (c : Dev nD) : W14 m ρ c (Proc.devRef .tc main_v77)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [W14_pool, W13_hid, W13_arg9]; rfl

end Cert.Bridge.KFold

end
-- ==== Proof.Agree.lean ====
/-
  A table with rows appended agrees with the table it was made from: on the first `N` rows the two hold the same
  entries; what the appended rows hold is not said. Every step of the network that reads only rows numbered below `N`
  — a gather at indices in range, a matrix product row by row — cannot tell the two tables apart.
-/
import Idealize.ShloMosaic.PureOps.Ideal
import Idealize.ShloMosaic.Lib.ValueIdx

namespace Cert.Bridge

open Idealize.ShloMosaic Idealize.ShloMosaic.ValueIdx

/-- `MP`, of `NP ≥ N` rows, holds on its first `N` rows what `M` holds. -/
def Agree {α : Type} {N NP C : Nat} (h : N ≤ NP) (MP : (⟨2, ![NP, C]⟩ : Shape).Idx → α) (M : (⟨2, ![N, C]⟩ : Shape).Idx → α) : Prop :=
  ∀ (r : Fin N) (q : Fin C), MP (ix2 ⟨r.val, Nat.lt_of_lt_of_le r.isLt h⟩ q) = M (ix2 r q)

end Cert.Bridge
-- ==== Proof.BridgeLin.lean ====
/-
  UNTRUSTED — ZERO ROWS APPENDED TO THE LEFT FACTOR OF A MATRIX PRODUCT CHANGE NOTHING IN THE ROWS THAT WERE THERE.
  The kernel program appends zero rows below the left factor of every matrix product (703 rows below the 200001 bond
  rows, 351 below the 100001 atom rows) so that the row count is a whole number of tiles; the reference multiplies the
  factors as they are. Entry (p, q) of a product X · W is the sum over k of X (p, k) · W (k, q): it reads row p of X
  and nothing else of X. An array with rows appended holds at (r, k), r below the old row count, what the array held
  there. Hence on the first 200001 rows
    (1) the padded arrays hold the entries of the arrays they were made from;
    (2) the kernel's first product (padded bond features times the input weight) is the reference's, and so is its
        positive part, the first message table: max(x, 0) on one side, the maximum with a table of zeros on the other;
    (3) if the first products agree on those rows and the two programs' bond inputs are the same array, the next
        message tables — the positive part of the first product plus the bond input times the hidden weight — agree
        on those rows.
  What the appended rows hold is never said.
-/
import proofs.«149416_j37142877176027_1_alg».proof.Proof.KStages
import proofs.«149416_j37142877176027_1_alg».proof.Proof.RStages
import proofs.«149416_j37142877176027_1_alg».proof.Proof.Agree
import proofs.«149416_j37142877176027_1_alg».proof.Proof.LibMatmulPlain
import Idealize.ShloMosaic.Lib.KernelVsHost

noncomputable section

namespace Cert.Bridge.BridgeLin

open Idealize.ShloMosaic Idealize.ShloMosaic.ValueIdx Cert.Bridge.Spec

/-! ## Rows appended below a matrix -/

section Generic

/-- Rows appended below a matrix leave the entries of the rows that were there. -/
theorem pad_rows_apply {α : Type} {N NP C hi : Nat} (x : (⟨2, ![N, C]⟩ : Shape).Idx → α) {u : Shape} (v : u.Idx → α)
    (h : (⟨2, ![N, C]⟩ : Shape).Pads (![0, 0] : Fin 2 → Nat) ![hi, 0] ![0, 0] ⟨2, ![NP, C]⟩) (hu : 0 < u.numel)
    (r : Fin N) (k : Fin C) (hr : r.val < NP) :
    pad ⟨2, ![NP, C]⟩ ![0, 0] ![hi, 0] ![0, 0] x v h hu (ix2 ⟨r.val, hr⟩ k) = x (ix2 r k) :=
  pad_apply_of_inside _ _ _ x v h hu _ (ix2 r k) (fun a => by
    match a with
    | ⟨0, _⟩ => show r.val = 0 + r.val * (0 + 1); omega
    | ⟨1, _⟩ => show k.val = 0 + k.val * (0 + 1); omega)

/-- A row of a product depends on the same row of the left factor only. -/
theorem lin_congr_row {B B' K M : Nat} (X : (⟨2, ![B, K]⟩ : Shape).Idx → EReal) (X' : (⟨2, ![B', K]⟩ : Shape).Idx → EReal)
    (W : (⟨2, ![K, M]⟩ : Shape).Idx → EReal) (p : Fin B) (p' : Fin B') (q : Fin M)
    (h : ∀ k : Fin K, X (ix2 p k) = X' (ix2 p' k)) : lin X W p q = lin X' W p' q := by
  unfold lin
  exact Finset.sum_congr rfl fun k _ => by rw [h k]

end Generic

variable [Cert.KernelIdeal.Facts] [Cert.ReferenceIdeal.Facts]

/-! ## (1) The appended rows do not disturb the others -/

/-- The padded bond features hold, on a row that was there, the bond features. -/
theorem padFeat_apply (x1 : FVec Ideal Cert.KernelIdeal.S200001x147 .f32) (r : Fin 200001) (k : Fin 147) :
    KStages.padFeat x1 (ix2 ⟨r.val, by omega⟩ k) = x1 (ix2 r k) :=
  pad_rows_apply x1 _ _ _ r k _

/-- A padded bond-indexed table holds, on a row that was there, the table. -/
theorem padBond_apply (s : FVec Ideal Cert.KernelIdeal.S200001x300 .f32) (r : Fin 200001) (k : Fin 300) :
    KStages.padBond s (ix2 ⟨r.val, by omega⟩ k) = s (ix2 r k) :=
  pad_rows_apply s _ _ _ r k _

/-- The padded atom inputs hold, on a row that was there, the atom inputs. -/
theorem padAtom_apply (a : FVec Ideal Cert.KernelIdeal.S100001x433 .f32) (r : Fin 100001) (k : Fin 433) :
    KStages.padAtom a (ix2 ⟨r.val, by omega⟩ k) = a (ix2 r k) :=
  pad_rows_apply a _ _ _ r k _

/-! ## The reference's operations at an index -/

/-- The reference's table of zeros holds 0 everywhere. -/
theorem zerosBond_apply (i : Cert.ReferenceIdeal.S200001x300.Idx) : RStages.zerosBond i = 0 :=
  Ideal.ofBits_zero_f32

/-- The reference's first product at `(r, q)` is the product's entry. -/
theorem r_firstProd_apply (x1 : FVec Ideal Cert.ReferenceIdeal.S200001x147 .f32) (x2 : FVec Ideal Cert.ReferenceIdeal.S147x300 .f32)
    (r : Fin 200001) (q : Fin 300) : RStages.firstProd x1 x2 (ix2 r q) = lin x1 x2 r q :=
  Cert.Lib.MatmulPlain.dotGeneral_apply _ none x1 x2 r q

/-- The reference's hidden-weight product at `(r, q)` is the product's entry. -/
theorem r_dotHidden_apply (X : FVec Ideal Cert.ReferenceIdeal.S200001x300 .f32) (x3 : FVec Ideal Cert.ReferenceIdeal.S300x300 .f32)
    (r : Fin 200001) (q : Fin 300) :
    Host.dotGeneral Cert.ReferenceIdeal.dot_S200001x300_S300x300_S200001x300_1_0_0_1_n_n none X x3 (ix2 r q) = lin X x3 r q :=
  Cert.Lib.MatmulPlain.dotGeneral_apply _ none X x3 r q

/-! ## (2) The first product and the first table -/

/-- The kernel's first product agrees with the reference's on the 200001 bond rows. -/
theorem firstProd_agree (x1 : FVec Ideal Cert.KernelIdeal.S200001x147 .f32) (x2 : FVec Ideal Cert.KernelIdeal.S147x300 .f32) :
    Cert.Bridge.Agree (by omega) (KStages.firstProd x1 x2) (RStages.firstProd x1 x2) := by
  intro r q
  rw [r_firstProd_apply]
  exact lin_congr_row _ _ _ _ _ _ fun k => padFeat_apply x1 r k

/-- The kernel's first message table agrees with the reference's on the 200001 bond rows. -/
theorem firstTable_agree (x1 : FVec Ideal Cert.KernelIdeal.S200001x147 .f32) (x2 : FVec Ideal Cert.KernelIdeal.S147x300 .f32) :
    Cert.Bridge.Agree (by omega) (KStages.firstTable x1 x2) (RStages.firstTable x1 x2) := by
  intro r q
  show relu (KStages.firstProd x1 x2 (ix2 ⟨r.val, _⟩ q)) = max (RStages.firstProd x1 x2 (ix2 r q)) (RStages.zerosBond (ix2 r q))
  rw [zerosBond_apply, firstProd_agree x1 x2 r q]
  rfl

/-- Both facts about the first layer together. -/
theorem first_agree (x1 : FVec Ideal Cert.KernelIdeal.S200001x147 .f32) (x2 : FVec Ideal Cert.KernelIdeal.S147x300 .f32) :
    Cert.Bridge.Agree (by omega) (KStages.firstProd x1 x2) (RStages.firstProd x1 x2)
    ∧ Cert.Bridge.Agree (by omega) (KStages.firstTable x1 x2) (RStages.firstTable x1 x2) :=
  ⟨firstProd_agree x1 x2, firstTable_agree x1 x2⟩

/-! ## (3) The next table -/

/-- One round of message passing keeps the agreement on the 200001 bond rows, given that the two programs' bond inputs
    are the same array. -/
theorem next_agree (P MP : FVec Ideal Cert.KernelIdeal.S200704x300 .f32) (R0 M : FVec Ideal Cert.ReferenceIdeal.S200001x300 .f32)
    (x3 : FVec Ideal Cert.KernelIdeal.S300x300 .f32) (x6 : IVec Cert.KernelIdeal.S100001x6 32) (x7 x8 : IVec Cert.KernelIdeal.S200001 32)
    (hP : Cert.Bridge.Agree (by omega) P R0)
    (hB : KStages.bondIn MP x6 x7 x8 = RStages.bondIn M x6 x7 x8) :
    Cert.Bridge.Agree (by omega) (KStages.nextTable P MP x3 x6 x7 x8) (RStages.nextTable R0 M x3 x6 x7 x8) := by
  intro r q
  show relu (P (ix2 ⟨r.val, _⟩ q) + lin (KStages.padBond (KStages.bondIn MP x6 x7 x8)) x3 ⟨r.val, _⟩ q)
    = max (R0 (ix2 r q) + Host.dotGeneral Cert.ReferenceIdeal.dot_S200001x300_S300x300_S200001x300_1_0_0_1_n_n none
        (RStages.bondIn M x6 x7 x8) x3 (ix2 r q)) (RStages.zerosBond (ix2 r q))
  rw [zerosBond_apply, hP r q, r_dotHidden_apply, ← hB]
  refine congrArg (fun z => max (R0 (ix2 r q) + z) 0) ?_
  exact lin_congr_row _ _ _ _ _ _ fun k => padBond_apply _ r k

end Cert.Bridge.BridgeLin

end
-- ==== Proof.LibGatherRows.lean ====
/-
  A gather of whole rows read at an index given by coordinates.
  Indexing a table by a list of row numbers, `x[idx]`, lowers to a gather whose start index names axis 0, whose slice
  is one whole row, and whose row axis is collapsed. Entry `(e, j)` of the result is entry `j` of the row that the
  `e`-th index names: the index word read as a signed number, negative numbers taken as 0, and the number clamped to the
  last row. The same for a vector indexed by a list of positions: entry `e` of the result is the vector at the clamped
  position. Nothing else of the operand is read, so a table's gathered rows depend only on those rows.
-/
import Idealize.ShloMosaic.Lib.ValueLayout

namespace Cert.Lib.GatherRows

open Idealize.ShloMosaic Idealize.ShloMosaic.ValueIdx

variable {α : Type}

/-! ## Rows of a matrix -/

/-- The dimension numbers of `x[idx]` for an `[N, C]` table and an `[E, 1]` list of row numbers: result `[E, C]`. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the `e`-th index names: its word read signed, clamped into `[0, N − 1]`. -/
abbrev rowOf {N E w : Nat} (hN : 0 < N) (idx : IVec ⟨2, ![E, 1]⟩ w) (e : Fin E) : Fin N :=
  ⟨min (idx (ix2 e (0 : Fin 1))).toInt.toNat (N - 1), by omega⟩

/-- THE GATHER READ AT `(e, j)`: the table at the row the `e`-th index names, column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N E C wf) x idx (ix2 e j) = x (ix2 (rowOf hN idx e) j) := by
  unfold Host.gather
  congr 1
  funext a
  refine Fin.ext ?_
  match a with
  | ⟨0, _⟩ =>
    show (rowsDims N E C wf).start (ix2 e j) idx 0 + (rowsDims N E C wf).batchCoord (ix2 e j) 0
      + (rowsDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e j) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e j) idx 1 + (rowsDims N E C wf).batchCoord (ix2 e j) 1
      + (rowsDims N E C wf).offCoord (ix2 e j) 1 = j.val
    have hs : (rowsDims N E C wf).start (ix2 e j) idx 1 = 0 := by
      unfold GatherDims.start
      rw [dif_neg (show (1 : Fin 2) ∉ (rowsDims N E C wf).startIndexMap from
        fun h => absurd (Fin.val_eq_of_eq (List.mem_singleton.mp h)) Nat.one_ne_zero)]
    have hk : (1 : Fin 2) ∈ (rowsDims N E C wf).sKept :=
      (GatherDims.mem_sKept _ _).mpr ⟨fun h => absurd (Fin.val_eq_of_eq (List.mem_singleton.mp h)) Nat.one_ne_zero, List.not_mem_nil⟩
    rw [hs, GatherDims.batchCoord_eq_zero _ _ _ List.not_mem_nil]
    unfold GatherDims.offCoord
    rw [dif_pos hk]
    simp only [Nat.zero_add, Nat.add_zero]
    rfl

/-! ## Entries of a vector -/

/-- The dimension numbers of `x[idx]` for an `[N]` vector and an `[E, 1]` list of positions: result `[E]`. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT `e`: the vector at the position the `e`-th index names. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf hN idx e)) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A table of one column gathers as the vector does -/

/-- Entry `(e, 0)` of the rows gathered from a one-column table is entry `e` of the entries gathered from the vector,
    when the table's column is the vector. -/
theorem gather_col_eq_vec {N E w : Nat} (hN : 0 < N)
    (wf2 : GatherDims.WF ⟨2, ![N, 1]⟩ ⟨2, ![E, 1]⟩ ⟨2, ![E, 1]⟩ [1] [0] [] [0] [] 1 ![1, 1])
    (wf1 : GatherDims.WF ⟨1, ![N]⟩ ⟨2, ![E, 1]⟩ ⟨1, ![E]⟩ [] [0] [] [0] [] 1 ![1])
    (idx : IVec ⟨2, ![E, 1]⟩ w)
    (x2 : (⟨2, ![N, 1]⟩ : Shape).Idx → α) (x1 : (⟨1, ![N]⟩ : Shape).Idx → α)
    (hx : ∀ n : Fin N, x2 (ix2 n (0 : Fin 1)) = x1 (ix1 n)) (e : Fin E) :
    Host.gather (rowsDims N E 1 wf2) x2 idx (ix2 e (0 : Fin 1)) = Host.gather (vecDims N E wf1) x1 idx (ix1 e) := by
  rw [gather_rows_apply hN, gather_vec_apply hN, hx]

/-! ## Rows gathered from two tables laid side by side -/

/-- Rows gathered from `[a | b]` and cut back to the first `C1` columns are the rows gathered from `a`. -/
theorem gather_concat_slice_left {N E C1 C2 C w : Nat} (hN : 0 < N) (hC : C1 ≤ C)
    (hcat : Shape.Concatenates [(⟨2, ![N, C1]⟩ : Shape), (⟨2, ![N, C2]⟩ : Shape)] ⟨2, ![N, C]⟩ 1)
    (wfC : GatherDims.WF ⟨2, ![N, C]⟩ ⟨2, ![E, 1]⟩ ⟨2, ![E, C]⟩ [1] [0] [] [0] [] 1 ![1, C])
    (wf1 : GatherDims.WF ⟨2, ![N, C1]⟩ ⟨2, ![E, 1]⟩ ⟨2, ![E, C1]⟩ [1] [0] [] [0] [] 1 ![1, C1])
    (hsl : (⟨2, ![E, C]⟩ : Shape).Slices ![0, 0] ⟨2, ![E, C1]⟩)
    (a : (⟨2, ![N, C1]⟩ : Shape).Idx → α) (b : (⟨2, ![N, C2]⟩ : Shape).Idx → α) (idx : IVec ⟨2, ![E, 1]⟩ w)
    (e : Fin E) (j : Fin C1) :
    extractStridedSlice ⟨2, ![E, C1]⟩ ![0, 0]
        (Host.gather (rowsDims N E C wfC) (concatenate ⟨2, ![N, C]⟩ 1 [⟨⟨2, ![N, C1]⟩, a⟩, ⟨⟨2, ![N, C2]⟩, b⟩] hcat) idx) hsl (ix2 e j)
      = Host.gather (rowsDims N E C1 wf1) a idx (ix2 e j) := by
  have hj := j.isLt
  rw [slice2_axis1_apply 0 _ hsl e j ⟨j.val, by omega⟩ (by simp), gather_rows_apply hN, gather_rows_apply hN]
  refine concatenate_pair_apply_left 1 a b hcat _ rfl (ix2 (rowOf hN idx e) j) fun ax => ?_
  match ax with
  | ⟨0, _⟩ => rfl
  | ⟨1, _⟩ => rfl

/-- Rows gathered from `[a | b]` and cut to the columns from `C1` on are the rows gathered from `b`. -/
theorem gather_concat_slice_right {N E C1 C2 C w : Nat} (hN : 0 < N) (hC : C1 + C2 ≤ C)
    (hcat : Shape.Concatenates [(⟨2, ![N, C1]⟩ : Shape), (⟨2, ![N, C2]⟩ : Shape)] ⟨2, ![N, C]⟩ 1)
    (wfC : GatherDims.WF ⟨2, ![N, C]⟩ ⟨2, ![E, 1]⟩ ⟨2, ![E, C]⟩ [1] [0] [] [0] [] 1 ![1, C])
    (wf2 : GatherDims.WF ⟨2, ![N, C2]⟩ ⟨2, ![E, 1]⟩ ⟨2, ![E, C2]⟩ [1] [0] [] [0] [] 1 ![1, C2])
    (hsl : (⟨2, ![E, C]⟩ : Shape).Slices ![0, C1] ⟨2, ![E, C2]⟩)
    (a : (⟨2, ![N, C1]⟩ : Shape).Idx → α) (b : (⟨2, ![N, C2]⟩ : Shape).Idx → α) (idx : IVec ⟨2, ![E, 1]⟩ w)
    (e : Fin E) (j : Fin C2) :
    extractStridedSlice ⟨2, ![E, C2]⟩ ![0, C1]
        (Host.gather (rowsDims N E C wfC) (concatenate ⟨2, ![N, C]⟩ 1 [⟨⟨2, ![N, C1]⟩, a⟩, ⟨⟨2, ![N, C2]⟩, b⟩] hcat) idx) hsl (ix2 e j)
      = Host.gather (rowsDims N E C2 wf2) b idx (ix2 e j) := by
  have hj := j.isLt
  rw [slice2_axis1_apply C1 _ hsl e j ⟨C1 + j.val, by omega⟩ rfl, gather_rows_apply hN, gather_rows_apply hN]
  refine concatenate_pair_apply_right 1 a b hcat _ rfl rfl (ix2 (rowOf hN idx e) j) (fun ax hne => ?_) ?_
  · match ax with
    | ⟨0, _⟩ => rfl
    | ⟨1, _⟩ => exact absurd rfl hne
  · show j.val + C1 = C1 + j.val
    omega

end Cert.Lib.GatherRows
-- ==== Proof.LibGatherPad.lean ====
/-
  A table and its zero-padded copy, indexed by the same in-range row numbers, gather to the same array.
  Two programs hold the same table, one as x of N rows and one as xP of NP ≥ N rows equal to x on the first N rows (what
  the remaining rows hold does not matter). Both compute table[idx] the same way: an index that is negative is first
  replaced by the index plus the table's own row count, then the rows are gathered, the index word read as a signed number
  and clamped into the table. When every index lies in [0, N) the first step changes nothing, whatever the row count
  added, because no index is negative; and the clamp changes nothing, because every index is below N ≤ NP. So each
  program reads, for the e-th index, row idx e of the part the two tables share, and the two gathered arrays are equal.
  This is proved for the two layouts of the index list: a list [E] giving an array [E, C], and an array [A, J] giving an
  array [A, J, C]. On the way: the gather of rows by an [A, J, 1] array of row numbers read at (a, j, q); the wrap
  select (idx < 0) (idx + n) idx read at a position whose index is not negative; and a new trailing axis of size one
  read at coordinate 0.
-/
import Idealize.ShloMosaic.Lib.ValueLayout
import proofs.«149416_j37142877176027_1_alg».proof.Proof.LibGatherRows

namespace Cert.Bridge.GatherPad

open Idealize.ShloMosaic Idealize.ShloMosaic.ValueIdx Cert.Lib.GatherRows

variable {α : Type}

/-! ## Rows of a matrix named by a two-axis list of row numbers -/

/-- The dimension numbers of x[idx] for an [N, C] table and an [A, J, 1] list of row numbers: result [A, J, C]. -/
abbrev rows3Dims (N A J C : Nat)
    (wf : GatherDims.WF ⟨2, ![N, C]⟩ ⟨3, ![A, J, 1]⟩ ⟨3, ![A, J, C]⟩ [2] [0] [] [0] [] 2 ![1, C]) :
    GatherDims ⟨2, ![N, C]⟩ ⟨3, ![A, J, 1]⟩ ⟨3, ![A, J, C]⟩ where
  offsetDims := [2]
  collapsedSliceDims := [0]
  operandBatchingDims := []
  startIndicesBatchingDims := []
  startIndexMap := [0]
  indexVectorDim := 2
  sliceSizes := ![1, C]
  wf := wf

/-- The row the (a, j)-th index names: its word read signed, clamped into [0, N − 1]. -/
abbrev rowOf3 {N A J w : Nat} (hN : 0 < N) (idx : IVec ⟨3, ![A, J, 1]⟩ w) (a : Fin A) (j : Fin J) : Fin N :=
  ⟨min (idx (ix3 a j (0 : Fin 1))).toInt.toNat (N - 1), by omega⟩

/-- THE GATHER READ AT (a, j, q): the table at the row the (a, j)-th index names, column q. -/
theorem gather_rows3_apply {N A J C w : Nat} (hN : 0 < N)
    (wf : GatherDims.WF ⟨2, ![N, C]⟩ ⟨3, ![A, J, 1]⟩ ⟨3, ![A, J, C]⟩ [2] [0] [] [0] [] 2 ![1, C])
    (x : (⟨2, ![N, C]⟩ : Shape).Idx → α) (idx : IVec ⟨3, ![A, J, 1]⟩ w) (a : Fin A) (j : Fin J) (q : Fin C) :
    Host.gather (rows3Dims N A J C wf) x idx (ix3 a j q) = x (ix2 (rowOf3 hN idx a j) q) := by
  unfold Host.gather
  congr 1
  funext ax
  refine Fin.ext ?_
  match ax with
  | ⟨0, _⟩ =>
    show (rows3Dims N A J C wf).start (ix3 a j q) idx 0 + (rows3Dims N A J C wf).batchCoord (ix3 a j q) 0
      + (rows3Dims N A J C wf).offCoord (ix3 a j q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N A J C wf).startIndexMap from List.mem_singleton.mpr rfl)]
    have hsi : (rows3Dims N A J C wf).siIdx (ix3 a j q) ⟨List.idxOf (0 : Fin 2) (rows3Dims N A J C wf).startIndexMap,
        List.idxOf_lt_length_iff.2 (List.mem_singleton.mpr rfl)⟩ = ix3 a j (0 : Fin 1) := by
      funext b; refine Fin.ext ?_
      match b with
      | ⟨0, _⟩ => rfl
      | ⟨1, _⟩ => rfl
      | ⟨2, _⟩ => rfl
    rw [hsi]
    rfl
  | ⟨1, _⟩ =>
    show (rows3Dims N A J C wf).start (ix3 a j q) idx 1 + (rows3Dims N A J C wf).batchCoord (ix3 a j q) 1
      + (rows3Dims N A J C wf).offCoord (ix3 a j q) 1 = q.val
    have hs : (rows3Dims N A J C wf).start (ix3 a j q) idx 1 = 0 := by
      unfold GatherDims.start
      rw [dif_neg (show (1 : Fin 2) ∉ (rows3Dims N A J C wf).startIndexMap from
        fun h => absurd (Fin.val_eq_of_eq (List.mem_singleton.mp h)) Nat.one_ne_zero)]
    have hk : (1 : Fin 2) ∈ (rows3Dims N A J C wf).sKept :=
      (GatherDims.mem_sKept _ _).mpr ⟨fun h => absurd (Fin.val_eq_of_eq (List.mem_singleton.mp h)) Nat.one_ne_zero, List.not_mem_nil⟩
    rw [hs, GatherDims.batchCoord_eq_zero _ _ _ List.not_mem_nil]
    unfold GatherDims.offCoord
    rw [dif_pos hk]
    simp only [Nat.zero_add, Nat.add_zero]
    rfl

/-! ## The wrap of a negative index does nothing to an index that is not negative -/

/-- table[idx] first replaces a negative index by the index plus the row count: select (idx < 0) (idx + n) idx.
    At a position whose index is not negative the comparison is false and the select returns the index itself,
    whatever n is. -/
theorem wrap_apply {s : Shape} (x : IVec s 32) (n : BitVec 32)
    (hb : (⟨0, ![]⟩ : Shape).BroadcastsInDim s ![]) (i : s.Idx) (hi : 0 ≤ (x i).toInt) :
    select (cmpi .slt x (broadcastInDim s ![] hb (constantI ⟨0, ![]⟩ 32 0#32)))
      (addi x (broadcastInDim s ![] hb (constantI ⟨0, ![]⟩ 32 n))) x i = x i := by
  show Scalar.select (IntOp.cmpi .slt (x i) 0#32) _ (x i) = x i
  have h : (x i).slt 0#32 = false := by
    rw [BitVec.slt, decide_eq_false_iff_not]
    simpa using hi
  simp only [IntOp.cmpi, h]
  rfl

/-! ## A new trailing axis of size one -/

/-- A list [E] laid out as [E, 1] reads, at (e, 0), the list at e. -/
theorem bcast_unit2_apply {E : Nat} (hb : (⟨1, ![E]⟩ : Shape).BroadcastsInDim ⟨2, ![E, 1]⟩ ![0])
    (v : (⟨1, ![E]⟩ : Shape).Idx → α) (e : Fin E) :
    broadcastInDim ⟨2, ![E, 1]⟩ ![0] hb v (ix2 e (0 : Fin 1)) = v (ix1 e) := by
  refine broadcastInDim_apply ![0] hb v _ (ix1 e) fun a => ?_
  match a with
  | ⟨0, _⟩ =>
    show e.val = if E = 1 then 0 else e.val
    have := e.isLt
    split <;> omega

/-- An array [A, J] laid out as [A, J, 1] reads, at (a, j, 0), the array at (a, j). -/
theorem bcast_unit3_apply {A J : Nat} (hb : (⟨2, ![A, J]⟩ : Shape).BroadcastsInDim ⟨3, ![A, J, 1]⟩ ![0, 1])
    (v : (⟨2, ![A, J]⟩ : Shape).Idx → α) (a : Fin A) (j : Fin J) :
    broadcastInDim ⟨3, ![A, J, 1]⟩ ![0, 1] hb v (ix3 a j (0 : Fin 1)) = v (ix2 a j) := by
  refine broadcastInDim_apply ![0, 1] hb v _ (ix2 a j) fun ax => ?_
  match ax with
  | ⟨0, _⟩ =>
    show a.val = if A = 1 then 0 else a.val
    have := a.isLt
    split <;> omega
  | ⟨1, _⟩ =>
    show j.val = if J = 1 then 0 else j.val
    have := j.isLt
    split <;> omega

/-! ## The padded table gathers as the table does -/

/-- ROWS NAMED BY A LIST. A table x of N rows and a table xP of NP ≥ N rows that agrees with it on the first N rows,
    indexed by the same list of row numbers, every one of them in [0, N): each program wraps a negative index by its
    own row count (which does nothing, no index being negative) and clamps into its own table (which does nothing,
    every index being below N ≤ NP), so both read row idx e of the common part: the two gathered arrays are equal. -/
theorem gather_pad_rows {N NP E C : Nat} (hNP : N ≤ NP) (hN : 0 < N)
    (wfP : GatherDims.WF ⟨2, ![NP, C]⟩ ⟨2, ![E, 1]⟩ ⟨2, ![E, C]⟩ [1] [0] [] [0] [] 1 ![1, C])
    (wf : GatherDims.WF ⟨2, ![N, C]⟩ ⟨2, ![E, 1]⟩ ⟨2, ![E, C]⟩ [1] [0] [] [0] [] 1 ![1, C])
    (hb0P hb0 : (⟨0, ![]⟩ : Shape).BroadcastsInDim ⟨1, ![E]⟩ ![])
    (hb1P hb1 : (⟨1, ![E]⟩ : Shape).BroadcastsInDim ⟨2, ![E, 1]⟩ ![0])
    (xP : (⟨2, ![NP, C]⟩ : Shape).Idx → α) (x : (⟨2, ![N, C]⟩ : Shape).Idx → α)
    (hx : ∀ (r : Fin N) (q : Fin C), xP (ix2 ⟨r.val, Nat.lt_of_lt_of_le r.isLt hNP⟩ q) = x (ix2 r q))
    (idx : IVec ⟨1, ![E]⟩ 32) (hidx : ∀ i, 0 ≤ (idx i).toInt ∧ (idx i).toInt < N)
    (nP n : BitVec 32) :
    Host.gather (rowsDims NP E C wfP) xP
        (broadcastInDim ⟨2, ![E, 1]⟩ ![0] hb1P
          (select (cmpi .slt idx (broadcastInDim ⟨1, ![E]⟩ ![] hb0P (constantI ⟨0, ![]⟩ 32 0#32)))
            (addi idx (broadcastInDim ⟨1, ![E]⟩ ![] hb0P (constantI ⟨0, ![]⟩ 32 nP))) idx))
      = Host.gather (rowsDims N E C wf) x
        (broadcastInDim ⟨2, ![E, 1]⟩ ![0] hb1
          (select (cmpi .slt idx (broadcastInDim ⟨1, ![E]⟩ ![] hb0 (constantI ⟨0, ![]⟩ 32 0#32)))
            (addi idx (broadcastInDim ⟨1, ![E]⟩ ![] hb0 (constantI ⟨0, ![]⟩ 32 n))) idx)) := by
  funext i
  obtain ⟨e, q, rfl⟩ : ∃ (e : Fin E) (q : Fin C), i = ix2 e q := ⟨i 0, i 1, eq_ix2 i⟩
  rw [gather_rows_apply (Nat.lt_of_lt_of_le hN hNP), gather_rows_apply hN]
  have hk := hidx (ix1 e)
  have eP : rowOf (Nat.lt_of_lt_of_le hN hNP) (broadcastInDim ⟨2, ![E, 1]⟩ ![0] hb1P
      (select (cmpi .slt idx (broadcastInDim ⟨1, ![E]⟩ ![] hb0P (constantI ⟨0, ![]⟩ 32 0#32)))
        (addi idx (broadcastInDim ⟨1, ![E]⟩ ![] hb0P (constantI ⟨0, ![]⟩ 32 nP))) idx)) e
      = ⟨(idx (ix1 e)).toInt.toNat, by omega⟩ := by
    refine Fin.ext ?_
    show min _ (NP - 1) = (idx (ix1 e)).toInt.toNat
    rw [bcast_unit2_apply, wrap_apply _ _ _ _ hk.1]
    omega
  have eR : rowOf hN (broadcastInDim ⟨2, ![E, 1]⟩ ![0] hb1
      (select (cmpi .slt idx (broadcastInDim ⟨1, ![E]⟩ ![] hb0 (constantI ⟨0, ![]⟩ 32 0#32)))
        (addi idx (broadcastInDim ⟨1, ![E]⟩ ![] hb0 (constantI ⟨0, ![]⟩ 32 n))) idx)) e
      = ⟨(idx (ix1 e)).toInt.toNat, by omega⟩ := by
    refine Fin.ext ?_
    show min _ (N - 1) = (idx (ix1 e)).toInt.toNat
    rw [bcast_unit2_apply, wrap_apply _ _ _ _ hk.1]
    omega
  rw [eP, eR]
  exact hx ⟨(idx (ix1 e)).toInt.toNat, by omega⟩ q

/-- ROWS NAMED BY A TWO-AXIS ARRAY OF ROW NUMBERS: the same, the index array [A, J] and the result [A, J, C]. -/
theorem gather_pad_rows3 {N NP A J C : Nat} (hNP : N ≤ NP) (hN : 0 < N)
    (wfP : GatherDims.WF ⟨2, ![NP, C]⟩ ⟨3, ![A, J, 1]⟩ ⟨3, ![A, J, C]⟩ [2] [0] [] [0] [] 2 ![1, C])
    (wf : GatherDims.WF ⟨2, ![N, C]⟩ ⟨3, ![A, J, 1]⟩ ⟨3, ![A, J, C]⟩ [2] [0] [] [0] [] 2 ![1, C])
    (hb0P hb0 : (⟨0, ![]⟩ : Shape).BroadcastsInDim ⟨2, ![A, J]⟩ ![])
    (hb1P hb1 : (⟨2, ![A, J]⟩ : Shape).BroadcastsInDim ⟨3, ![A, J, 1]⟩ ![0, 1])
    (xP : (⟨2, ![NP, C]⟩ : Shape).Idx → α) (x : (⟨2, ![N, C]⟩ : Shape).Idx → α)
    (hx : ∀ (r : Fin N) (q : Fin C), xP (ix2 ⟨r.val, Nat.lt_of_lt_of_le r.isLt hNP⟩ q) = x (ix2 r q))
    (idx : IVec ⟨2, ![A, J]⟩ 32) (hidx : ∀ i, 0 ≤ (idx i).toInt ∧ (idx i).toInt < N)
    (nP n : BitVec 32) :
    Host.gather (rows3Dims NP A J C wfP) xP
        (broadcastInDim ⟨3, ![A, J, 1]⟩ ![0, 1] hb1P
          (select (cmpi .slt idx (broadcastInDim ⟨2, ![A, J]⟩ ![] hb0P (constantI ⟨0, ![]⟩ 32 0#32)))
            (addi idx (broadcastInDim ⟨2, ![A, J]⟩ ![] hb0P (constantI ⟨0, ![]⟩ 32 nP))) idx))
      = Host.gather (rows3Dims N A J C wf) x
        (broadcastInDim ⟨3, ![A, J, 1]⟩ ![0, 1] hb1
          (select (cmpi .slt idx (broadcastInDim ⟨2, ![A, J]⟩ ![] hb0 (constantI ⟨0, ![]⟩ 32 0#32)))
            (addi idx (broadcastInDim ⟨2, ![A, J]⟩ ![] hb0 (constantI ⟨0, ![]⟩ 32 n))) idx)) := by
  funext i
  obtain ⟨a, j, q, rfl⟩ : ∃ (a : Fin A) (j : Fin J) (q : Fin C), i = ix3 a j q := ⟨i 0, i 1, i 2, eq_ix3 i⟩
  rw [gather_rows3_apply (Nat.lt_of_lt_of_le hN hNP), gather_rows3_apply hN]
  have hk := hidx (ix2 a j)
  have eP : rowOf3 (Nat.lt_of_lt_of_le hN hNP) (broadcastInDim ⟨3, ![A, J, 1]⟩ ![0, 1] hb1P
      (select (cmpi .slt idx (broadcastInDim ⟨2, ![A, J]⟩ ![] hb0P (constantI ⟨0, ![]⟩ 32 0#32)))
        (addi idx (broadcastInDim ⟨2, ![A, J]⟩ ![] hb0P (constantI ⟨0, ![]⟩ 32 nP))) idx)) a j
      = ⟨(idx (ix2 a j)).toInt.toNat, by omega⟩ := by
    refine Fin.ext ?_
    show min _ (NP - 1) = (idx (ix2 a j)).toInt.toNat
    rw [bcast_unit3_apply, wrap_apply _ _ _ _ hk.1]
    omega
  have eR : rowOf3 hN (broadcastInDim ⟨3, ![A, J, 1]⟩ ![0, 1] hb1
      (select (cmpi .slt idx (broadcastInDim ⟨2, ![A, J]⟩ ![] hb0 (constantI ⟨0, ![]⟩ 32 0#32)))
        (addi idx (broadcastInDim ⟨2, ![A, J]⟩ ![] hb0 (constantI ⟨0, ![]⟩ 32 n))) idx)) a j
      = ⟨(idx (ix2 a j)).toInt.toNat, by omega⟩ := by
    refine Fin.ext ?_
    show min _ (N - 1) = (idx (ix2 a j)).toInt.toNat
    rw [bcast_unit3_apply, wrap_apply _ _ _ _ hk.1]
    omega
  rw [eP, eR]
  exact hx ⟨(idx (ix2 a j)).toInt.toNat, by omega⟩ q

end Cert.Bridge.GatherPad
-- ==== Proof.BridgeGather.lean ====
/-
  The kernel's padded table and the reference's table give the same atom sums, bond inputs and atom inputs.
  The kernel keeps the bond-message table MP with 703 rows appended to the reference's table M: on the first 200001 rows
  the two hold the same entries. The atom sums gather, for each atom, the rows of the table that its six incoming bonds
  name, and add them up; the bond inputs gather, for each bond, the row of its reverse bond. Every one of these row
  numbers lies in [0, 200001), so each gather reads only rows the two tables share, and reads the same row in both:
  the gathered arrays are equal, hence so are the sums over the six bonds, the differences that are the bond inputs, and
  the atom features laid beside the atom sums. The pooling over molecules does not involve the table at all: the two
  programs write the same expression.
-/
import proofs.«149416_j37142877176027_1_alg».proof.Proof.KStages
import proofs.«149416_j37142877176027_1_alg».proof.Proof.RStages
import proofs.«149416_j37142877176027_1_alg».proof.Proof.Agree
import proofs.«149416_j37142877176027_1_alg».proof.Proof.LibGatherPad

namespace Cert.Bridge.BridgeGather

open Idealize.ShloMosaic Idealize.ShloMosaic.ValueIdx Cert.Bridge Cert.Bridge.GatherPad

variable [Cert.KernelIdeal.Facts] [Cert.ReferenceIdeal.Facts]

/-- The rows the six incoming bonds of every atom name, gathered from the padded table and from the table: the same
    array. -/
theorem gather6_eq (MP : FVec Ideal Cert.KernelIdeal.S200704x300 .f32) (M : FVec Ideal Cert.ReferenceIdeal.S200001x300 .f32)
    (hM : Agree (by omega : 200001 ≤ 200704) MP M)
    (x6 : IVec Cert.KernelIdeal.S100001x6 32) (h6 : ∀ i, 0 ≤ (x6 i).toInt ∧ (x6 i).toInt < 200001) :
    Host.gather Cert.KernelIdeal.gather_S200704x300_S100001x6x1_S100001x6x300_2_0_n_n_0_2_1300 MP (KStages.wrap6 200704#32 x6)
      = Host.gather Cert.ReferenceIdeal.gather_S200001x300_S100001x6x1_S100001x6x300_2_0_n_n_0_2_1300 M (RStages.wrap6 200001#32 x6) :=
  gather_pad_rows3 (by omega) (by omega) _ _ _ _ _ _ MP M hM x6 (fun i => ⟨(h6 i).1, by have := (h6 i).2; omega⟩) _ _

/-- The row of every bond's reverse bond, gathered from the padded table and from the table: the same array. -/
theorem gather1_eq (MP : FVec Ideal Cert.KernelIdeal.S200704x300 .f32) (M : FVec Ideal Cert.ReferenceIdeal.S200001x300 .f32)
    (hM : Agree (by omega : 200001 ≤ 200704) MP M)
    (x8 : IVec Cert.KernelIdeal.S200001 32) (h8 : ∀ i, 0 ≤ (x8 i).toInt ∧ (x8 i).toInt < 200001) :
    Host.gather Cert.KernelIdeal.gather_S200704x300_S200001x1_S200001x300_1_0_n_n_0_1_1300 MP (KStages.wrap1 200704#32 x8)
      = Host.gather Cert.ReferenceIdeal.gather_S200001x300_S200001x1_S200001x300_1_0_n_n_0_1_1300 M (RStages.wrap1 200001#32 x8) :=
  gather_pad_rows (by omega) (by omega) _ _ _ _ _ _ MP M hM x8 (fun i => ⟨(h8 i).1, by have := (h8 i).2; omega⟩) _ _

/-- THE ATOM SUMS built from the padded table are those built from the table. -/
theorem atomSum_eq (MP : FVec Ideal Cert.KernelIdeal.S200704x300 .f32) (M : FVec Ideal Cert.ReferenceIdeal.S200001x300 .f32)
    (hM : Agree (by omega : 200001 ≤ 200704) MP M)
    (x6 : IVec Cert.KernelIdeal.S100001x6 32) (h6 : ∀ i, 0 ≤ (x6 i).toInt ∧ (x6 i).toInt < 200001) :
    KStages.atomSum MP x6 = RStages.atomSum M x6 := by
  unfold KStages.atomSum RStages.atomSum
  rw [gather6_eq MP M hM x6 h6]

/-- THE BOND INPUTS built from the padded table are those built from the table. -/
theorem bondIn_eq (MP : FVec Ideal Cert.KernelIdeal.S200704x300 .f32) (M : FVec Ideal Cert.ReferenceIdeal.S200001x300 .f32)
    (hM : Agree (by omega : 200001 ≤ 200704) MP M)
    (x6 : IVec Cert.KernelIdeal.S100001x6 32) (x7 x8 : IVec Cert.KernelIdeal.S200001 32)
    (h6 : ∀ i, 0 ≤ (x6 i).toInt ∧ (x6 i).toInt < 200001) (h8 : ∀ i, 0 ≤ (x8 i).toInt ∧ (x8 i).toInt < 200001) :
    KStages.bondIn MP x6 x7 x8 = RStages.bondIn M x6 x7 x8 := by
  unfold KStages.bondIn RStages.bondIn
  rw [atomSum_eq MP M hM x6 h6, gather1_eq MP M hM x8 h8]
  rfl

/-- THE ATOM INPUTS built from the padded table are those built from the table. -/
theorem atomIn_eq (x0 : FVec Ideal Cert.KernelIdeal.S100001x133 .f32)
    (MP : FVec Ideal Cert.KernelIdeal.S200704x300 .f32) (M : FVec Ideal Cert.ReferenceIdeal.S200001x300 .f32)
    (hM : Agree (by omega : 200001 ≤ 200704) MP M)
    (x6 : IVec Cert.KernelIdeal.S100001x6 32) (h6 : ∀ i, 0 ≤ (x6 i).toInt ∧ (x6 i).toInt < 200001) :
    KStages.atomIn x0 MP x6 = RStages.atomIn x0 M x6 := by
  unfold KStages.atomIn RStages.atomIn
  rw [atomSum_eq MP M hM x6 h6]

/-- THE POOLING over molecules is the same expression in the two programs. -/
theorem pool_eq (h : FVec Ideal Cert.KernelIdeal.S100000x300 .f32) (x9 : IVec Cert.KernelIdeal.S100000 32) :
    KStages.pool h x9 = RStages.pool h x9 := rfl

end Cert.Bridge.BridgeGather
-- ==== Proof.BridgeReadout.lean ====
/-
  The hidden atom rows the two programs keep are the same.
  The kernel appends 351 zero rows to the atom inputs, multiplies by the output weight, adds the bias and takes the
  positive part, then keeps rows 0 … 100000 and of those rows 1 … 100000. The reference multiplies the atom inputs
  themselves, adds the bias spread over all rows, takes the positive part and keeps rows 1 … 100000. Entry (r, q) of a
  product X · W is the sum over k of X (r, k) · W (k, q): it depends on row r of X only. For r ≤ 100000 row r of the atom
  inputs with zero rows appended is row r of the atom inputs, so at every kept row both programs compute
  max (Σ_k A (r, k) · W (k, q) + b q) 0 from the same atom inputs A.
-/
import proofs.«149416_j37142877176027_1_alg».proof.Proof.KStages
import proofs.«149416_j37142877176027_1_alg».proof.Proof.RStages
import proofs.«149416_j37142877176027_1_alg».proof.Proof.Spec
import proofs.«149416_j37142877176027_1_alg».proof.Proof.LibMatmulPlain
import Idealize.ShloMosaic.Lib.ValueLayout
import Idealize.ShloMosaic.Lib.KernelVsHost

namespace Cert.Bridge.BridgeReadout

open Idealize.ShloMosaic Idealize.ShloMosaic.ValueIdx Cert.Bridge Cert.Bridge.Spec

variable [Cert.KernelIdeal.Facts] [Cert.ReferenceIdeal.Facts]

/-- The atom inputs with zero rows appended hold, on rows 0 … 100000, the atom inputs. -/
theorem padAtom_apply (a : FVec Ideal Cert.KernelIdeal.S100001x433 .f32) (r : Fin 100001) (k : Fin 433) :
    KStages.padAtom a (ix2 ⟨r.val, by omega⟩ k) = a (ix2 r k) := by
  unfold KStages.padAtom
  refine pad_apply_of_inside _ _ _ a _ _ _ _ (ix2 r k) fun ax => ?_
  match ax with
  | ⟨0, _⟩ => show r.val = 0 + r.val * (0 + 1); omega
  | ⟨1, _⟩ => show k.val = 0 + k.val * (0 + 1); omega

/-- The kernel's kept hidden row e (atom e + 1), entry q. -/
theorem kernel_hiddenRows_apply (x0 : FVec Ideal Cert.KernelIdeal.S100001x133 .f32) (MP : FVec Ideal Cert.KernelIdeal.S200704x300 .f32)
    (x4 : FVec Ideal Cert.KernelIdeal.S433x300 .f32) (x5 : FVec Ideal Cert.KernelIdeal.S300 .f32) (x6 : IVec Cert.KernelIdeal.S100001x6 32)
    (e : Fin 100000) (q : Fin 300) :
    KStages.hiddenRows (KStages.hidden x0 MP x4 x5 x6) (ix2 e q)
      = max ((∑ k : Fin 433, KStages.atomIn x0 MP x6 (ix2 (⟨1 + e.val, by omega⟩ : Fin 100001) k) * x4 (ix2 k q)) + x5 (ix1 q)) 0 := by
  unfold KStages.hiddenRows
  rw [slice2_axis0_apply 1 _ _ e q (⟨1 + e.val, by omega⟩ : Fin 100001) rfl,
    slice2_axis0_apply 0 _ _ (⟨1 + e.val, by omega⟩ : Fin 100001) q (⟨1 + e.val, by omega⟩ : Fin 100352) (by simp)]
  show relu (lin (KStages.padAtom (KStages.atomIn x0 MP x6)) x4 (⟨1 + e.val, by omega⟩ : Fin 100352) q
    + KStages.biasRow x5 (ix2 (0 : Fin 1) q)) = _
  have hb : KStages.biasRow x5 (ix2 (0 : Fin 1) q) = x5 (ix1 q) := by
    unfold KStages.biasRow
    refine (shapeCast_addUnit_apply (n := 1) ![300] x5 _ (ix2 (0 : Fin 1) q)).trans (congrArg x5 ?_)
    funext a
    match a with
    | ⟨0, _⟩ => rfl
  have hl : lin (KStages.padAtom (KStages.atomIn x0 MP x6)) x4 (⟨1 + e.val, by omega⟩ : Fin 100352) q
      = ∑ k : Fin 433, KStages.atomIn x0 MP x6 (ix2 (⟨1 + e.val, by omega⟩ : Fin 100001) k) * x4 (ix2 k q) := by
    unfold lin
    refine Finset.sum_congr rfl fun k _ => ?_
    rw [← padAtom_apply (KStages.atomIn x0 MP x6) (⟨1 + e.val, by omega⟩ : Fin 100001) k]
  rw [hb, hl]
  rfl

/-- The reference's kept hidden row e (atom e + 1), entry q. -/
theorem reference_hiddenRows_apply (x0 : FVec Ideal Cert.ReferenceIdeal.S100001x133 .f32) (M : FVec Ideal Cert.ReferenceIdeal.S200001x300 .f32)
    (x4 : FVec Ideal Cert.ReferenceIdeal.S433x300 .f32) (x5 : FVec Ideal Cert.ReferenceIdeal.S300 .f32) (x6 : IVec Cert.ReferenceIdeal.S100001x6 32)
    (e : Fin 100000) (q : Fin 300) :
    RStages.hiddenRows (RStages.hidden x0 M x4 x5 x6) (ix2 e q)
      = max ((∑ k : Fin 433, RStages.atomIn x0 M x6 (ix2 (⟨1 + e.val, by omega⟩ : Fin 100001) k) * x4 (ix2 k q)) + x5 (ix1 q)) 0 := by
  unfold RStages.hiddenRows
  rw [slice2_axis0_apply 1 _ _ e q (⟨1 + e.val, by omega⟩ : Fin 100001) rfl]
  unfold RStages.hidden
  rw [maximumf_apply, addf_apply]
  have hd : Host.dotGeneral Cert.ReferenceIdeal.dot_S100001x433_S433x300_S100001x300_1_0_0_1_n_n none (RStages.atomIn x0 M x6) x4
        (ix2 (⟨1 + e.val, by omega⟩ : Fin 100001) q)
      = ∑ k : Fin 433, RStages.atomIn x0 M x6 (ix2 (⟨1 + e.val, by omega⟩ : Fin 100001) k) * x4 (ix2 k q) :=
    Cert.Lib.MatmulPlain.dotGeneral_apply _ none (RStages.atomIn x0 M x6) x4 _ q
  have hb : broadcastInDim Cert.ReferenceIdeal.S100001x300 ![0, 1] Cert.ReferenceIdeal.Facts₀.bcast_S1x300_S100001x300_0_1
        (broadcastInDim Cert.ReferenceIdeal.S1x300 ![1] Cert.ReferenceIdeal.Facts₀.bcast_S300_S1x300_1 x5) (ix2 (⟨1 + e.val, by omega⟩ : Fin 100001) q)
      = x5 (ix1 q) := by
    refine (broadcastInDim_apply _ _ _ _ (ix2 (0 : Fin 1) q) fun a => ?_).trans
      (broadcastInDim_apply _ _ x5 _ (ix1 q) fun a => ?_)
    · match a with
      | ⟨0, _⟩ => rfl
      | ⟨1, _⟩ => rfl
    · match a with
      | ⟨0, _⟩ => rfl
  have hz : broadcastInDim Cert.ReferenceIdeal.S100001x300 ![] Cert.ReferenceIdeal.Facts₀.bcast_S_S100001x300 (constant (F := Ideal) Cert.ReferenceIdeal.S_ .f32 0x00000000#32)
        (ix2 (⟨1 + e.val, by omega⟩ : Fin 100001) q) = (0 : EReal) := by
    show Ideal.ofBits .f32 0x00000000#32 = 0
    exact Ideal.ofBits_zero_f32
  rw [hd, hb, hz]

/-- THE KEPT HIDDEN ROWS of the two programs are the same array, when their atom inputs are. -/
theorem hiddenRows_eq (x0 : FVec Ideal Cert.KernelIdeal.S100001x133 .f32) (MP : FVec Ideal Cert.KernelIdeal.S200704x300 .f32)
    (M : FVec Ideal Cert.ReferenceIdeal.S200001x300 .f32) (x4 : FVec Ideal Cert.KernelIdeal.S433x300 .f32) (x5 : FVec Ideal Cert.KernelIdeal.S300 .f32)
    (x6 : IVec Cert.KernelIdeal.S100001x6 32) (hA : KStages.atomIn x0 MP x6 = RStages.atomIn x0 M x6) :
    KStages.hiddenRows (KStages.hidden x0 MP x4 x5 x6) = RStages.hiddenRows (RStages.hidden x0 M x4 x5 x6) := by
  funext i
  obtain ⟨e, q, rfl⟩ : ∃ (e : Fin 100000) (q : Fin 300), i = ix2 e q := ⟨i 0, i 1, eq_ix2 i⟩
  rw [kernel_hiddenRows_apply, reference_hiddenRows_apply, hA]

end Cert.Bridge.BridgeReadout
-- ==== Proof.Bridge.lean ====
/-
  The two programs compute the same function of their ten arguments when the gather indices are in range.

  The kernel program keeps the bond-message table with zero rows appended below its 200001 rows; the reference keeps
  the 200001 rows. On those rows the two tables hold the same entries, round after round: the first product and the
  first table agree there, because a product's row depends on the same row of its left factor only; and if a table
  agrees, then every gather at indices below 200001 reads the same rows from both, so the atom sums and the bond inputs
  are the same arrays, and the next table — the positive part of the first product plus the bond inputs times the hidden
  weight — agrees again. After two rounds the atom inputs are the same array, hence so are the hidden rows of atoms
  1 … 100000 (the appended atom rows are never read back), and the pooling over molecules is the same expression of
  them in both programs.
-/
import proofs.«149416_j37142877176027_1_alg».proof.Proof.BridgeLin
import proofs.«149416_j37142877176027_1_alg».proof.Proof.BridgeGather
import proofs.«149416_j37142877176027_1_alg».proof.Proof.BridgeReadout

namespace Cert.Bridge.Bridge

open Idealize.ShloMosaic Cert.Bridge Cert.Bridge.BridgeLin Cert.Bridge.BridgeGather Cert.Bridge.BridgeReadout

variable [Cert.KernelIdeal.Facts] [Cert.ReferenceIdeal.Facts]

/-- THE TWO RESULTS are the same array, for indices of the six-bond table and of the reverse-bond table in range. -/
theorem result_eq (x0 : FVec Ideal Cert.KernelIdeal.S100001x133 .f32) (x1 : FVec Ideal Cert.KernelIdeal.S200001x147 .f32)
    (x2 : FVec Ideal Cert.KernelIdeal.S147x300 .f32) (x3 : FVec Ideal Cert.KernelIdeal.S300x300 .f32)
    (x4 : FVec Ideal Cert.KernelIdeal.S433x300 .f32) (x5 : FVec Ideal Cert.KernelIdeal.S300 .f32)
    (x6 : IVec Cert.KernelIdeal.S100001x6 32) (x7 x8 : IVec Cert.KernelIdeal.S200001 32)
    (x9 : IVec Cert.KernelIdeal.S100000 32)
    (h6 : ∀ i, 0 ≤ (x6 i).toInt ∧ (x6 i).toInt < 200001) (h8 : ∀ i, 0 ≤ (x8 i).toInt ∧ (x8 i).toInt < 200001) :
    Cert.Bridge.KStages.result x0 x1 x2 x3 x4 x5 x6 x7 x8 x9
      = Cert.Bridge.RStages.result x0 x1 x2 x3 x4 x5 x6 x7 x8 x9 := by
  -- the first product and the first table agree on the 200001 rows
  have hP := firstProd_agree x1 x2
  have hM0 := firstTable_agree x1 x2
  -- each round keeps the agreement: the bond inputs are the same array
  have hM1 := next_agree _ _ _ _ x3 x6 x7 x8 hP (bondIn_eq _ _ hM0 x6 x7 x8 h6 h8)
  have hM2 := next_agree _ _ _ _ x3 x6 x7 x8 hP (bondIn_eq _ _ hM1 x6 x7 x8 h6 h8)
  -- so the atom inputs are the same array, hence the hidden rows, hence their pooling
  have hA := atomIn_eq x0 _ _ hM2 x6 h6
  show KStages.pool (KStages.hiddenRows (KStages.hidden x0 _ x4 x5 x6)) x9
    = RStages.pool (RStages.hiddenRows (RStages.hidden x0 _ x4 x5 x6)) x9
  rw [hiddenRows_eq x0 _ _ x4 x5 x6 hA]
  exact pool_eq _ x9

end Cert.Bridge.Bridge
-- ==== Proof.Algebraic.lean ====
/-
  UNTRUSTED — THE VALUE CLAIM: THE IDEALIZED KERNEL PROGRAM AND THE IDEALIZED REFERENCE END WITH EQUAL RESULTS.
  Both programs are a message-passing network over a molecular graph: a first message table from the bond features,
  two rounds in which every bond receives the sum of the messages into its source atom less its reverse bond's message,
  a readout over the atoms, and a mean over each molecule's atoms. On the extended reals (floats exact, changes of float
  format the identity) the kernel program differs from the reference in how it is laid out, not in what it computes: it
  appends zero rows to the tables so that their row counts are whole numbers of tiles, and runs the matrix products
  tile by tile. The claim is assembled from four facts, each proved in its own module:
    * the kernel program's run ends with its result buffer holding a fold of buffer contents through the program's
      segments, and that fold's value is the kernel's stage function `KStages.result` of the ten argument arrays;
    * the reference's run ends with its result buffer holding the composed term of its operations, which is the
      reference's stage function `RStages.result` of its argument arrays (`ref_result`: the same operations in the
      same order, equal by unfolding);
    * the precondition says that every entry of the two index arrays that gather rows of the message table lies in
      [0, 200001), the table's row count in the reference;
    * for index arrays in that range the two stage functions are equal: a gather at indices in range never reads an
      appended row, and a row of a matrix product depends only on the same row of the left factor.
  The two programs are run from memories that agree on the arguments, so the reference's stage function is taken at
  the kernel's argument arrays. The three frame claims are the generated runs' argument clauses; the kernel program's
  idealization rewrote no operation, so there is nothing to preserve.
-/
import proofs.«149416_j37142877176027_1_alg».proof.Defs
import proofs.«149416_j37142877176027_1_alg».proof.Proof.Gen.Kernel.Frame
import proofs.«149416_j37142877176027_1_alg».proof.Proof.Gen.KernelIdeal.Frame
import proofs.«149416_j37142877176027_1_alg».proof.Proof.Gen.ReferenceIdeal.Run
import proofs.«149416_j37142877176027_1_alg».proof.Proof.KernelRun
import proofs.«149416_j37142877176027_1_alg».proof.Proof.KStages
import proofs.«149416_j37142877176027_1_alg».proof.Proof.RStages
import proofs.«149416_j37142877176027_1_alg».proof.Proof.PreDecode
import proofs.«149416_j37142877176027_1_alg».proof.Proof.KFold
import proofs.«149416_j37142877176027_1_alg».proof.Proof.Bridge

noncomputable section

open Idealize.ShloMosaic Idealize.ShloMosaic.TcCoe Idealize.SL.Sem

namespace Cert.Bridge.Algebraic

set_option maxHeartbeats 4000000 in
/-- The reference run's result term is the reference's stage function of its argument arrays: the same operations,
    composed in the same order. -/
theorem ref_result [Cert.ReferenceIdeal.Facts]
    (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v80 m' c
      = Cert.Bridge.RStages.result (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9)) := by
  unfold Cert.ReferenceIdeal.Value.res_main_v80
  rfl

/-- The kernel program runs and leaves its arguments unchanged. -/
theorem frame_Kernel [Cert.Kernel.Facts] [Cert.Pre_finite_inputs.Facts] : Cert.frame_Kernel :=
  fun m ρ _ => Cert.Kernel.Gen.frame m ρ

/-- The idealized kernel program runs and leaves its arguments unchanged. -/
theorem frame_KernelIdeal [Cert.KernelIdeal.Facts] [Cert.Pre_finite_inputs.Facts] : Cert.frame_KernelIdeal :=
  fun m ρ _ => Cert.KernelIdeal.Gen.frame m ρ

/-- The idealized reference runs and leaves its arguments unchanged. -/
theorem frame_ReferenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs run, leave their arguments unchanged, and end with the kernel's stage function of the kernel's
    argument arrays in their result buffers. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.Bridge.KStages.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.Bridge.KFold.W14_res m ρ c), (h c).2⟩)
      (Cert.Bridge.KernelRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    obtain ⟨h6, h8⟩ := Cert.Bridge.PreDecode.ranges _ _ _ _ _ _ _ _ _ _ (hpre c)
    rw [ref_result, e0, e1, e2, e3, e4, e5, e6, e7, e8, e9]
    exact (Cert.Bridge.Bridge.result_eq _ _ _ _ _ _ _ _ _ _ h6 h8).symm

end Cert.Bridge.Algebraic

end
-- ==== Proof.lean ====
/-
  A directed message-passing network over bonds, and its tiled form: the five claims.

  The network. Each directed bond carries a row of 300 numbers. The first table is the positive part of the bond
  features times the input weight. Two rounds follow: every atom adds up the rows of its six incoming bonds; every
  bond takes its source atom's sum minus the row of its reverse bond, multiplies by the hidden weight, adds the first
  product and takes the positive part. The readout lays the atom features beside the atom sums, multiplies by the
  output weight, adds the bias, takes the positive part, and averages the rows of atoms 1 … 100000 over molecules.

  The tiled form appends zero rows to the left factor of each of its four matrix products, so that the rows split into
  tiles of 2048, and computes each product tile by tile; between the products it gathers, adds and subtracts as the
  network does, but from tables that carry the appended rows. A row of a product depends on the same row of the left
  factor only, so the appended rows change nothing in the rows that were there; and a gather at indices in range
  never reads an appended row. That is why the two programs agree — and why the bond indices must be in range of the
  200001-row table they index: outside it the two tables wrap and clamp differently. The atom→bond and reverse-bond
  index arrays are therefore required to lie in [0, 200001), beside the finiteness of the float inputs.

  No law of arithmetic beyond this is used: both programs add and multiply the same extended reals in the same order,
  so finiteness itself is never opened.

  Modules: Spec (the vocabulary), KStages / RStages (the two programs' stages as functions of the arguments), Agree
  (a table with rows appended agrees with the table), Region0–3 (each region's output array is its layer), KernelRun
  and KFold (the kernel program's run, read boundary by boundary), GatherPad, BridgeGather, BridgeLin, BridgeReadout,
  Bridge (the two result functions are equal), PreDecode (the index ranges out of the precondition), Algebraic (the
  claims).
-/
import proofs.«149416_j37142877176027_1_alg».proof.Defs
import proofs.«149416_j37142877176027_1_alg».proof.Proof.Gen.Kernel
import proofs.«149416_j37142877176027_1_alg».proof.Proof.Gen.KernelIdeal
import proofs.«149416_j37142877176027_1_alg».proof.Proof.Gen.ReferenceIdeal
import proofs.«149416_j37142877176027_1_alg».proof.Proof.Gen.Pre_finite_inputs
import proofs.«149416_j37142877176027_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Bridge.Algebraic.frame_Kernel, Cert.Bridge.Algebraic.frame_KernelIdeal, Cert.Bridge.Algebraic.frame_ReferenceIdeal,
    Cert.Bridge.Algebraic.preserves, Cert.Bridge.Algebraic.algebraic⟩

end Cert.Proof

end
